-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x256 : Shape := ⟨4, ![4, 64, 256, 256]⟩
abbrev S_ : Shape := ⟨0, ![]⟩

class Facts : Prop where
  bcast_S_S4x64x256x256 : S_.BroadcastsInDim S4x64x256x256 (![] : Fin 0 → Fin S4x64x256x256.rank)
  reducesTo_S4x64x256x256_S_d0_1_2_3 : S4x64x256x256.ReducesTo [0, 1, 2, 3] S_
  h_S_ : 0 < S_.numel

variable [Facts]

def fn {F : FTy → Type} [FloatOps F] (main_arg0 : FVec F S4x64x256x256 .f32) : IVec S_ 1 :=
  let main_v0 : FVec F S4x64x256x256 .f32 := Host.absf main_arg0
  let main_cst : FVec F S_ .f32 := constant S_ .f32 0x7F800000#32
  let main_v1 : FVec F S4x64x256x256 .f32 := broadcastInDim S4x64x256x256 ![] bcast_S_S4x64x256x256 main_cst
  let main_v2 : IVec S4x64x256x256 1 := cmpf .olt main_v0 main_v1
  let main_c : IVec S_ 1 := constantI S_ 1 1#1
  let main_v3 : IVec S_ 1 := (fun x v => Host.reduce IntOp.andi x v reducesTo_S4x64x256x256_S_d0_1_2_3 h_S_) main_v2 main_c
  main_v3
-- ==== Kernel.lean ====
abbrev S4x64x256x256 : Shape := ⟨4, ![4, 64, 256, 256]⟩
abbrev S4x32x256x256 : Shape := ⟨4, ![4, 32, 256, 256]⟩
abbrev S4x2x4x4x32x8x32x8 : Shape := ⟨8, ![4, 2, 4, 4, 32, 8, 32, 8]⟩
abbrev S2x4x4x32x32x4x8x8 : Shape := ⟨8, ![2, 4, 4, 32, 32, 4, 8, 8]⟩
abbrev S2x16384x4x64 : Shape := ⟨4, ![2, 16384, 4, 64]⟩
abbrev S16384x4x64 : Shape := ⟨3, ![16384, 4, 64]⟩
abbrev S1x128x4x64 : Shape := ⟨4, ![1, 128, 4, 64]⟩
abbrev S128x4x64 : Shape := ⟨3, ![128, 4, 64]⟩
abbrev S128x64x64 : Shape := ⟨3, ![128, 64, 64]⟩
abbrev S128x64 : Shape := ⟨2, ![128, 64]⟩
abbrev S128x64x1 : Shape := ⟨3, ![128, 64, 1]⟩
abbrev S4x4x32x32x4x8x8 : Shape := ⟨7, ![4, 4, 32, 32, 4, 8, 8]⟩
abbrev S4x4x4x32x8x32x8 : Shape := ⟨7, ![4, 4, 4, 32, 8, 32, 8]⟩
abbrev S4x16x256x256 : Shape := ⟨4, ![4, 16, 256, 256]⟩
abbrev S4x32x8x256 : Shape := ⟨4, ![4, 32, 8, 256]⟩
abbrev S4x32x248x256 : Shape := ⟨4, ![4, 32, 248, 256]⟩
abbrev S4x32x256x8 : Shape := ⟨4, ![4, 32, 256, 8]⟩
abbrev S4x32x256x248 : Shape := ⟨4, ![4, 32, 256, 248]⟩
abbrev S4x2x4x4x16x16x16x16 : Shape := ⟨8, ![4, 2, 4, 4, 16, 16, 16, 16]⟩
abbrev S2x4x4x16x16x4x16x16 : Shape := ⟨8, ![2, 4, 4, 16, 16, 4, 16, 16]⟩
abbrev S2x4096x4x256 : Shape := ⟨4, ![2, 4096, 4, 256]⟩
abbrev S4096x4x256 : Shape := ⟨3, ![4096, 4, 256]⟩
abbrev S1x32x4x256 : Shape := ⟨4, ![1, 32, 4, 256]⟩
abbrev S32x4x256 : Shape := ⟨3, ![32, 4, 256]⟩
abbrev S32x256x256 : Shape := ⟨3, ![32, 256, 256]⟩
abbrev S32x256 : Shape := ⟨2, ![32, 256]⟩
abbrev S32x256x1 : Shape := ⟨3, ![32, 256, 1]⟩
abbrev S4x4x16x16x4x16x16 : Shape := ⟨7, ![4, 4, 16, 16, 4, 16, 16]⟩
abbrev S4x4x4x16x16x16x16 : Shape := ⟨7, ![4, 4, 4, 16, 16, 16, 16]⟩
abbrev S4x16x248x256 : Shape := ⟨4, ![4, 16, 248, 256]⟩
abbrev S4x16x8x256 : Shape := ⟨4, ![4, 16, 8, 256]⟩
abbrev S4x16x256x248 : Shape := ⟨4, ![4, 16, 256, 248]⟩
abbrev S4x16x256x8 : Shape := ⟨4, ![4, 16, 256, 8]⟩

abbrev nBuf : Space → Nat
  | .hbm => 32
  | .vmem => 12
  | .smem => 0
  | _ => 0

abbrev bufTy : (tb : Table) → Fin (tcTables nBuf tb) → BufTy
  | .hbm, ⟨0, _⟩ => ⟨S4x64x256x256, .f32⟩
  | .hbm, ⟨1, _⟩ => ⟨S4x32x256x256, .f32⟩
  | .hbm, ⟨2, _⟩ => ⟨S4x2x4x4x32x8x32x8, .f32⟩
  | .hbm, ⟨3, _⟩ => ⟨S2x4x4x32x32x4x8x8, .f32⟩
  | .hbm, ⟨4, _⟩ => ⟨S2x16384x4x64, .f32⟩
  | .hbm, ⟨5, _⟩ => ⟨S2x16384x4x64, .bf16⟩
  | .hbm, ⟨6, _⟩ => ⟨S16384x4x64, .f32⟩
  | .hbm, ⟨7, _⟩ => ⟨S4x4x32x32x4x8x8, .f32⟩
  | .hbm, ⟨8, _⟩ => ⟨S4x4x4x32x8x32x8, .f32⟩
  | .hbm, ⟨9, _⟩ => ⟨S4x16x256x256, .f32⟩
  | .hbm, ⟨10, _⟩ => ⟨S4x32x256x256, .f32⟩
  | .hbm, ⟨11, _⟩ => ⟨S4x32x8x256, .f32⟩
  | .hbm, ⟨12, _⟩ => ⟨S4x32x248x256, .f32⟩
  | .hbm, ⟨13, _⟩ => ⟨S4x32x256x256, .f32⟩
  | .hbm, ⟨14, _⟩ => ⟨S4x32x256x8, .f32⟩
  | .hbm, ⟨15, _⟩ => ⟨S4x32x256x248, .f32⟩
  | .hbm, ⟨16, _⟩ => ⟨S4x32x256x256, .f32⟩
  | .hbm, ⟨17, _⟩ => ⟨S4x2x4x4x16x16x16x16, .f32⟩
  | .hbm, ⟨18, _⟩ => ⟨S2x4x4x16x16x4x16x16, .f32⟩
  | .hbm, ⟨19, _⟩ => ⟨S2x4096x4x256, .f32⟩
  | .hbm, ⟨20, _⟩ => ⟨S2x4096x4x256, .bf16⟩
  | .hbm, ⟨21, _⟩ => ⟨S4096x4x256, .f32⟩
  | .hbm, ⟨22, _⟩ => ⟨S4x4x16x16x4x16x16, .f32⟩
  | .hbm, ⟨23, _⟩ => ⟨S4x4x4x16x16x16x16, .f32⟩
  | .hbm, ⟨24, _⟩ => ⟨S4x16x256x256, .f32⟩
  | .hbm, ⟨25, _⟩ => ⟨S4x16x248x256, .f32⟩
  | .hbm, ⟨26, _⟩ => ⟨S4x16x8x256, .f32⟩
  | .hbm, ⟨27, _⟩ => ⟨S4x16x256x256, .f32⟩
  | .hbm, ⟨28, _⟩ => ⟨S4x16x256x248, .f32⟩
  | .hbm, ⟨29, _⟩ => ⟨S4x16x256x8, .f32⟩
  | .hbm, ⟨30, _⟩ => ⟨S4x16x256x256, .f32⟩
  | .hbm, ⟨31, _⟩ => ⟨S4x32x256x256, .f32⟩
  | .local _ .vmem, ⟨0, _⟩ => ⟨S1x128x4x64, .bf16⟩
  | .local _ .vmem, ⟨1, _⟩ => ⟨S1x128x4x64, .bf16⟩
  | .local _ .vmem, ⟨2, _⟩ => ⟨S1x128x4x64, .bf16⟩
  | .local _ .vmem, ⟨3, _⟩ => ⟨S1x128x4x64, .bf16⟩
  | .local _ .vmem, ⟨4, _⟩ => ⟨S128x4x64, .f32⟩
  | .local _ .vmem, ⟨5, _⟩ => ⟨S128x4x64, .f32⟩
  | .local _ .vmem, ⟨6, _⟩ => ⟨S1x32x4x256, .bf16⟩
  | .local _ .vmem, ⟨7, _⟩ => ⟨S1x32x4x256, .bf16⟩
  | .local _ .vmem, ⟨8, _⟩ => ⟨S1x32x4x256, .bf16⟩
  | .local _ .vmem, ⟨9, _⟩ => ⟨S1x32x4x256, .bf16⟩
  | .local _ .vmem, ⟨10, _⟩ => ⟨S32x4x256, .f32⟩
  | .local _ .vmem, ⟨11, _⟩ => ⟨S32x4x256, .f32⟩
  | _, _ => ⟨S4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x4x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x4x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x4x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S4x64x256x256_S4x32x256x256_0_0_0_0 : S4x64x256x256.Slices ![0, 0, 0, 0] S4x32x256x256
  shapeCasts_S4x32x256x256_S4x2x4x4x32x8x32x8 : S4x32x256x256.ShapeCasts S4x2x4x4x32x8x32x8
  transposes_S4x2x4x4x32x8x32x8_S2x4x4x32x32x4x8x8_1_0_2_4_6_3_5_7 : S4x2x4x4x32x8x32x8.Transposes [1, 0, 2, 4, 6, 3, 5, 7] S2x4x4x32x32x4x8x8
  shapeCasts_S2x4x4x32x32x4x8x8_S2x16384x4x64 : S2x4x4x32x32x4x8x8.ShapeCasts S2x16384x4x64
  bitsLt_bf16_f32 : FTy.bits .bf16 < FTy.bits .f32
  inb_S1x128x4x64_S1x128x4x64_0_0_0_0 : ∀ a, (![0, 0, 0, 0] : Fin 4 → Nat) a + S1x128x4x64.size a ≤ S1x128x4x64.size a
  h_S1x128x4x64 : 0 < S1x128x4x64.numel
  shapeCasts_S1x128x4x64_S128x4x64 : S1x128x4x64.ShapeCasts S128x4x64
  reduces_S128x64x64_S128x64 : S128x64x64.Reduces [2] S128x64
  shapeCasts_S128x64_S128x64x1 : S128x64.ShapeCasts S128x64x1
  broadcasts_S128x64x1_S128x64x64 : S128x64x1.Broadcasts S128x64x64
  inb_S128x4x64_S128x4x64_0_0_0 : ∀ a, (![0, 0, 0] : Fin 3 → Nat) a + S128x4x64.size a ≤ S128x4x64.size a
  h_S128x4x64 : 0 < S128x4x64.numel
  shapeCasts_S16384x4x64_S4x4x32x32x4x8x8 : S16384x4x64.ShapeCasts S4x4x32x32x4x8x8
  transposes_S4x4x32x32x4x8x8_S4x4x4x32x8x32x8_0_1_4_2_5_3_6 : S4x4x32x32x4x8x8.Transposes [0, 1, 4, 2, 5, 3, 6] S4x4x4x32x8x32x8
  shapeCasts_S4x4x4x32x8x32x8_S4x16x256x256 : S4x4x4x32x8x32x8.ShapeCasts S4x16x256x256
  slices_S4x64x256x256_S4x32x256x256_0_32_0_0 : S4x64x256x256.Slices ![0, 32, 0, 0] S4x32x256x256
  slices_S4x32x256x256_S4x32x8x256_0_0_248_0 : S4x32x256x256.Slices ![0, 0, 248, 0] S4x32x8x256
  slices_S4x32x256x256_S4x32x248x256_0_0_0_0 : S4x32x256x256.Slices ![0, 0, 0, 0] S4x32x248x256
  concatenates_S4x32x8x256_S4x32x248x256_S4x32x256x256_d2 : Shape.Concatenates [S4x32x8x256, S4x32x248x256] S4x32x256x256 2
  slices_S4x32x256x256_S4x32x256x8_0_0_0_248 : S4x32x256x256.Slices ![0, 0, 0, 248] S4x32x256x8
  slices_S4x32x256x256_S4x32x256x248_0_0_0_0 : S4x32x256x256.Slices ![0, 0, 0, 0] S4x32x256x248
  concatenates_S4x32x256x8_S4x32x256x248_S4x32x256x256_d3 : Shape.Concatenates [S4x32x256x8, S4x32x256x248] S4x32x256x256 3
  shapeCasts_S4x32x256x256_S4x2x4x4x16x16x16x16 : S4x32x256x256.ShapeCasts S4x2x4x4x16x16x16x16
  transposes_S4x2x4x4x16x16x16x16_S2x4x4x16x16x4x16x16_1_0_2_4_6_3_5_7 : S4x2x4x4x16x16x16x16.Transposes [1, 0, 2, 4, 6, 3, 5, 7] S2x4x4x16x16x4x16x16
  shapeCasts_S2x4x4x16x16x4x16x16_S2x4096x4x256 : S2x4x4x16x16x4x16x16.ShapeCasts S2x4096x4x256
  inb_S1x32x4x256_S1x32x4x256_0_0_0_0 : ∀ a, (![0, 0, 0, 0] : Fin 4 → Nat) a + S1x32x4x256.size a ≤ S1x32x4x256.size a
  h_S1x32x4x256 : 0 < S1x32x4x256.numel
  shapeCasts_S1x32x4x256_S32x4x256 : S1x32x4x256.ShapeCasts S32x4x256
  reduces_S32x256x256_S32x256 : S32x256x256.Reduces [2] S32x256
  shapeCasts_S32x256_S32x256x1 : S32x256.ShapeCasts S32x256x1
  broadcasts_S32x256x1_S32x256x256 : S32x256x1.Broadcasts S32x256x256
  inb_S32x4x256_S32x4x256_0_0_0 : ∀ a, (![0, 0, 0] : Fin 3 → Nat) a + S32x4x256.size a ≤ S32x4x256.size a
  h_S32x4x256 : 0 < S32x4x256.numel
  shapeCasts_S4096x4x256_S4x4x16x16x4x16x16 : S4096x4x256.ShapeCasts S4x4x16x16x4x16x16
  transposes_S4x4x16x16x4x16x16_S4x4x4x16x16x16x16_0_1_4_2_5_3_6 : S4x4x16x16x4x16x16.Transposes [0, 1, 4, 2, 5, 3, 6] S4x4x4x16x16x16x16
  shapeCasts_S4x4x4x16x16x16x16_S4x16x256x256 : S4x4x4x16x16x16x16.ShapeCasts S4x16x256x256
  slices_S4x16x256x256_S4x16x248x256_0_0_8_0 : S4x16x256x256.Slices ![0, 0, 8, 0] S4x16x248x256
  slices_S4x16x256x256_S4x16x8x256_0_0_0_0 : S4x16x256x256.Slices ![0, 0, 0, 0] S4x16x8x256
  concatenates_S4x16x248x256_S4x16x8x256_S4x16x256x256_d2 : Shape.Concatenates [S4x16x248x256, S4x16x8x256] S4x16x256x256 2
  slices_S4x16x256x256_S4x16x256x248_0_0_0_8 : S4x16x256x256.Slices ![0, 0, 0, 8] S4x16x256x248
  slices_S4x16x256x256_S4x16x256x8_0_0_0_0 : S4x16x256x256.Slices ![0, 0, 0, 0] S4x16x256x8
  concatenates_S4x16x256x248_S4x16x256x8_S4x16x256x256_d3 : Shape.Concatenates [S4x16x256x248, S4x16x256x8] S4x16x256x256 3
  concatenates_S4x16x256x256_S4x16x256x256_S4x32x256x256_d1 : Shape.Concatenates [S4x16x256x256, S4x16x256x256] S4x32x256x256 1
  dot_S128x4x64_S128x4x64_S128x64x64_1_1_2_2_0_0_wf : DotDims.WF S128x4x64 S128x4x64 S128x64x64 [1] [1] [2] [2] [0] [0]
  dot_S128x4x64_S128x64x64_S128x4x64_2_2_1_1_0_0_wf : DotDims.WF S128x4x64 S128x64x64 S128x4x64 [2] [2] [1] [1] [0] [0]
  dot_S32x4x256_S32x4x256_S32x256x256_1_1_2_2_0_0_wf : DotDims.WF S32x4x256 S32x4x256 S32x256x256 [1] [1] [2] [2] [0] [0]
  dot_S32x4x256_S32x256x256_S32x4x256_2_2_1_1_0_0_wf : DotDims.WF S32x4x256 S32x256x256 S32x4x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4x64.size a ≤ S2x16384x4x64.size a
  hwx0_0 : ∀ i : grid0.Coords, EltTy.bits .bf16 = 32 ∨ (Rect.block (s := S2x16384x4x64) S1x128x4x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4x64.size a ≤ S2x16384x4x64.size a
  hwx0_1 : ∀ i : grid0.Coords, EltTy.bits .bf16 = 32 ∨ (Rect.block (s := S2x16384x4x64) S1x128x4x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4x64.size a ≤ S16384x4x64.size a
  hwx0_2 : ∀ i : grid0.Coords, EltTy.bits .f32 = 32 ∨ (Rect.block (s := S16384x4x64) S128x4x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x4x256.size a ≤ S2x4096x4x256.size a
  hwx1_0 : ∀ i : grid1.Coords, EltTy.bits .bf16 = 32 ∨ (Rect.block (s := S2x4096x4x256) S1x32x4x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x4x256.size a ≤ S2x4096x4x256.size a
  hwx1_1 : ∀ i : grid1.Coords, EltTy.bits .bf16 = 32 ∨ (Rect.block (s := S2x4096x4x256) S1x32x4x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x4x256.size a ≤ S4096x4x256.size a
  hwx1_2 : ∀ i : grid1.Coords, EltTy.bits .f32 = 32 ∨ (Rect.block (s := S4096x4x256) S32x4x256.size (cc1_transform_2 i) (hinb1_2 i)).WholeWords (EltTy.packing .f32)

variable [Facts₀]

def dot_S128x4x64_S128x4x64_S128x64x64_1_1_2_2_0_0 : DotDims S128x4x64 S128x4x64 S128x64x64 where
  lhsContracting := [1]
  rhsContracting := [1]
  lhsNonContracting := [2]
  rhsNonContracting := [2]
  lhsBatch := [0]
  rhsBatch := [0]
  wf := dot_S128x4x64_S128x4x64_S128x64x64_1_1_2_2_0_0_wf
def dot_S128x4x64_S128x64x64_S128x4x64_2_2_1_1_0_0 : DotDims S128x4x64 S128x64x64 S128x4x64 where
  lhsContracting := [2]
  rhsContracting := [2]
  lhsNonContracting := [1]
  rhsNonContracting := [1]
  lhsBatch := [0]
  rhsBatch := [0]
  wf := dot_S128x4x64_S128x64x64_S128x4x64_2_2_1_1_0_0_wf
def dot_S32x4x256_S32x4x256_S32x256x256_1_1_2_2_0_0 : DotDims S32x4x256 S32x4x256 S32x256x256 where
  lhsContracting := [1]
  rhsContracting := [1]
  lhsNonContracting := [2]
  rhsNonContracting := [2]
  lhsBatch := [0]
  rhsBatch := [0]
  wf := dot_S32x4x256_S32x4x256_S32x256x256_1_1_2_2_0_0_wf
def dot_S32x4x256_S32x256x256_S32x4x256_2_2_1_1_0_0 : DotDims S32x4x256 S32x256x256 S32x4x256 where
  lhsContracting := [2]
  rhsContracting := [2]
  lhsNonContracting := [1]
  rhsNonContracting := [1]
  lhsBatch := [0]
  rhsBatch := [0]
  wf := dot_S32x4x256_S32x256x256_S32x4x256_2_2_1_1_0_0_wf

abbrev win0_0 : Pipeline.Window sig grid0 :=
  Pipeline.Window.ofSpec (Memref.whole main_v4) S1x128x4x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128x4x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x4x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1x32x4x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x32x4x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S32x4x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x256x256 : Shape := ⟨4, ![4, 64, 256, 256]⟩
abbrev S4x32x256x256 : Shape := ⟨4, ![4, 32, 256, 256]⟩
abbrev S4x2x4x4x32x8x32x8 : Shape := ⟨8, ![4, 2, 4, 4, 32, 8, 32, 8]⟩
abbrev S2x4x4x32x32x8x8x4 : Shape := ⟨8, ![2, 4, 4, 32, 32, 8, 8, 4]⟩
abbrev S2x4x4x32x32x64x4 : Shape := ⟨7, ![2, 4, 4, 32, 32, 64, 4]⟩
abbrev S1x4x4x32x32x64x4 : Shape := ⟨7, ![1, 4, 4, 32, 32, 64, 4]⟩
abbrev S4x4x32x32x64x4 : Shape := ⟨6, ![4, 4, 32, 32, 64, 4]⟩
abbrev S4x4x32x32x64x64 : Shape := ⟨6, ![4, 4, 32, 32, 64, 64]⟩
abbrev S_ : Shape := ⟨0, ![]⟩
abbrev S4x4x32x32x64 : Shape := ⟨5, ![4, 4, 32, 32, 64]⟩
abbrev S4x4x32x32x64x1 : Shape := ⟨6, ![4, 4, 32, 32, 64, 1]⟩
abbrev S4x4x32x32x8x8x4 : Shape := ⟨7, ![4, 4, 32, 32, 8, 8, 4]⟩
abbrev S4x4x4x32x8x32x8 : Shape := ⟨7, ![4, 4, 4, 32, 8, 32, 8]⟩
abbrev S4x16x256x256 : Shape := ⟨4, ![4, 16, 256, 256]⟩
abbrev S4x32x8x256 : Shape := ⟨4, ![4, 32, 8, 256]⟩
abbrev S4x32x248x256 : Shape := ⟨4, ![4, 32, 248, 256]⟩
abbrev S4x32x256x8 : Shape := ⟨4, ![4, 32, 256, 8]⟩
abbrev S4x32x256x248 : Shape := ⟨4, ![4, 32, 256, 248]⟩
abbrev S4x2x4x4x16x16x16x16 : Shape := ⟨8, ![4, 2, 4, 4, 16, 16, 16, 16]⟩
abbrev S2x4x4x16x16x16x16x4 : Shape := ⟨8, ![2, 4, 4, 16, 16, 16, 16, 4]⟩
abbrev S2x4x4x16x16x256x4 : Shape := ⟨7, ![2, 4, 4, 16, 16, 256, 4]⟩
abbrev S1x4x4x16x16x256x4 : Shape := ⟨7, ![1, 4, 4, 16, 16, 256, 4]⟩
abbrev S4x4x16x16x256x4 : Shape := ⟨6, ![4, 4, 16, 16, 256, 4]⟩
abbrev S4x4x16x16x256x256 : Shape := ⟨6, ![4, 4, 16, 16, 256, 256]⟩
abbrev S4x4x16x16x256 : Shape := ⟨5, ![4, 4, 16, 16, 256]⟩
abbrev S4x4x16x16x256x1 : Shape := ⟨6, ![4, 4, 16, 16, 256, 1]⟩
abbrev S4x4x16x16x16x16x4 : Shape := ⟨7, ![4, 4, 16, 16, 16, 16, 4]⟩
abbrev S4x4x4x16x16x16x16 : Shape := ⟨7, ![4, 4, 4, 16, 16, 16, 16]⟩
abbrev S4x16x248x256 : Shape := ⟨4, ![4, 16, 248, 256]⟩
abbrev S4x16x8x256 : Shape := ⟨4, ![4, 16, 8, 256]⟩
abbrev S4x16x256x248 : Shape := ⟨4, ![4, 16, 256, 248]⟩
abbrev S4x16x256x8 : Shape := ⟨4, ![4, 16, 256, 8]⟩

abbrev nBuf : Space → Nat
  | .hbm => 68
  | .vmem => 0
  | .smem => 0
  | _ => 0

abbrev bufTy : (tb : Table) → Fin (tcTables nBuf tb) → BufTy
  | .hbm, ⟨0, _⟩ => ⟨S4x64x256x256, .f32⟩
  | .hbm, ⟨1, _⟩ => ⟨S4x32x256x256, .f32⟩
  | .hbm, ⟨2, _⟩ => ⟨S4x2x4x4x32x8x32x8, .f32⟩
  | .hbm, ⟨3, _⟩ => ⟨S2x4x4x32x32x8x8x4, .f32⟩
  | .hbm, ⟨4, _⟩ => ⟨S2x4x4x32x32x64x4, .f32⟩
  | .hbm, ⟨5, _⟩ => ⟨S1x4x4x32x32x64x4, .f32⟩
  | .hbm, ⟨6, _⟩ => ⟨S4x4x32x32x64x4, .f32⟩
  | .hbm, ⟨7, _⟩ => ⟨S1x4x4x32x32x64x4, .f32⟩
  | .hbm, ⟨8, _⟩ => ⟨S4x4x32x32x64x4, .f32⟩
  | .hbm, ⟨9, _⟩ => ⟨S4x4x32x32x64x64, .f32⟩
  | .hbm, ⟨10, _⟩ => ⟨S_, .f32⟩
  | .hbm, ⟨11, _⟩ => ⟨S4x4x32x32x64, .f32⟩
  | .hbm, ⟨12, _⟩ => ⟨S_, .f32⟩
  | .hbm, ⟨13, _⟩ => ⟨S4x4x32x32x64, .f32⟩
  | .hbm, ⟨14, _⟩ => ⟨S4x4x32x32x64, .f32⟩
  | .hbm, ⟨15, _⟩ => ⟨S4x4x32x32x64x1, .f32⟩
  | .hbm, ⟨16, _⟩ => ⟨S4x4x32x32x64x64, .f32⟩
  | .hbm, ⟨17, _⟩ => ⟨S4x4x32x32x64x64, .f32⟩
  | .hbm, ⟨18, _⟩ => ⟨S4x4x32x32x64x64, .f32⟩
  | .hbm, ⟨19, _⟩ => ⟨S_, .f32⟩
  | .hbm, ⟨20, _⟩ => ⟨S4x4x32x32x64, .f32⟩
  | .hbm, ⟨21, _⟩ => ⟨S4x4x32x32x64x1, .f32⟩
  | .hbm, ⟨22, _⟩ => ⟨S4x4x32x32x64x64, .f32⟩
  | .hbm, ⟨23, _⟩ => ⟨S4x4x32x32x64x64, .f32⟩
  | .hbm, ⟨24, _⟩ => ⟨S4x4x32x32x64x4, .f32⟩
  | .hbm, ⟨25, _⟩ => ⟨S4x4x32x32x8x8x4, .f32⟩
  | .hbm, ⟨26, _⟩ => ⟨S4x4x4x32x8x32x8, .f32⟩
  | .hbm, ⟨27, _⟩ => ⟨S4x16x256x256, .f32⟩
  | .hbm, ⟨28, _⟩ => ⟨S4x32x256x256, .f32⟩
  | .hbm, ⟨29, _⟩ => ⟨S4x32x8x256, .f32⟩
  | .hbm, ⟨30, _⟩ => ⟨S4x32x248x256, .f32⟩
  | .hbm, ⟨31, _⟩ => ⟨S4x32x256x256, .f32⟩
  | .hbm, ⟨32, _⟩ => ⟨S4x32x256x8, .f32⟩
  | .hbm, ⟨33, _⟩ => ⟨S4x32x256x248, .f32⟩
  | .hbm, ⟨34, _⟩ => ⟨S4x32x256x256, .f32⟩
  | .hbm, ⟨35, _⟩ => ⟨S4x2x4x4x16x16x16x16, .f32⟩
  | .hbm, ⟨36, _⟩ => ⟨S2x4x4x16x16x16x16x4, .f32⟩
  | .hbm, ⟨37, _⟩ => ⟨S2x4x4x16x16x256x4, .f32⟩
  | .hbm, ⟨38, _⟩ => ⟨S1x4x4x16x16x256x4, .f32⟩
  | .hbm, ⟨39, _⟩ => ⟨S4x4x16x16x256x4, .f32⟩
  | .hbm, ⟨40, _⟩ => ⟨S1x4x4x16x16x256x4, .f32⟩
  | .hbm, ⟨41, _⟩ => ⟨S4x4x16x16x256x4, .f32⟩
  | .hbm, ⟨42, _⟩ => ⟨S4x4x16x16x256x256, .f32⟩
  | .hbm, ⟨43, _⟩ => ⟨S_, .f32⟩
  | .hbm, ⟨44, _⟩ => ⟨S4x4x16x16x256, .f32⟩
  | .hbm, ⟨45, _⟩ => ⟨S_, .f32⟩
  | .hbm, ⟨46, _⟩ => ⟨S4x4x16x16x256, .f32⟩
  | .hbm, ⟨47, _⟩ => ⟨S4x4x16x16x256, .f32⟩
  | .hbm, ⟨48, _⟩ => ⟨S4x4x16x16x256x1, .f32⟩
  | .hbm, ⟨49, _⟩ => ⟨S4x4x16x16x256x256, .f32⟩
  | .hbm, ⟨50, _⟩ => ⟨S4x4x16x16x256x256, .f32⟩
  | .hbm, ⟨51, _⟩ => ⟨S4x4x16x16x256x256, .f32⟩
  | .hbm, ⟨52, _⟩ => ⟨S_, .f32⟩
  | .hbm, ⟨53, _⟩ => ⟨S4x4x16x16x256, .f32⟩
  | .hbm, ⟨54, _⟩ => ⟨S4x4x16x16x256x1, .f32⟩
  | .hbm, ⟨55, _⟩ => ⟨S4x4x16x16x256x256, .f32⟩
  | .hbm, ⟨56, _⟩ => ⟨S4x4x16x16x256x256, .f32⟩
  | .hbm, ⟨57, _⟩ => ⟨S4x4x16x16x256x4, .f32⟩
  | .hbm, ⟨58, _⟩ => ⟨S4x4x16x16x16x16x4, .f32⟩
  | .hbm, ⟨59, _⟩ => ⟨S4x4x4x16x16x16x16, .f32⟩
  | .hbm, ⟨60, _⟩ => ⟨S4x16x256x256, .f32⟩
  | .hbm, ⟨61, _⟩ => ⟨S4x16x248x256, .f32⟩
  | .hbm, ⟨62, _⟩ => ⟨S4x16x8x256, .f32⟩
  | .hbm, ⟨63, _⟩ => ⟨S4x16x256x256, .f32⟩
  | .hbm, ⟨64, _⟩ => ⟨S4x16x256x248, .f32⟩
  | .hbm, ⟨65, _⟩ => ⟨S4x16x256x8, .f32⟩
  | .hbm, ⟨66, _⟩ => ⟨S4x16x256x256, .f32⟩
  | .hbm, ⟨67, _⟩ => ⟨S4x32x256x256, .f32⟩
  | _, _ => ⟨S4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  slices_S4x64x256x256_S4x32x256x256_0_0_0_0 : S4x64x256x256.Slices ![0, 0, 0, 0] S4x32x256x256
  shapeCasts_S4x32x256x256_S4x2x4x4x32x8x32x8 : S4x32x256x256.ShapeCasts S4x2x4x4x32x8x32x8
  transposes_S4x2x4x4x32x8x32x8_S2x4x4x32x32x8x8x4_1_0_2_4_6_5_7_3 : S4x2x4x4x32x8x32x8.Transposes [1, 0, 2, 4, 6, 5, 7, 3] S2x4x4x32x32x8x8x4
  shapeCasts_S2x4x4x32x32x8x8x4_S2x4x4x32x32x64x4 : S2x4x4x32x32x8x8x4.ShapeCasts S2x4x4x32x32x64x4
  slices_S2x4x4x32x32x64x4_S1x4x4x32x32x64x4_0_0_0_0_0_0_0 : S2x4x4x32x32x64x4.Slices ![0, 0, 0, 0, 0, 0, 0] S1x4x4x32x32x64x4
  shapeCasts_S1x4x4x32x32x64x4_S4x4x32x32x64x4 : S1x4x4x32x32x64x4.ShapeCasts S4x4x32x32x64x4
  slices_S2x4x4x32x32x64x4_S1x4x4x32x32x64x4_1_0_0_0_0_0_0 : S2x4x4x32x32x64x4.Slices ![1, 0, 0, 0, 0, 0, 0] S1x4x4x32x32x64x4
  reducesTo_S4x4x32x32x64x64_S4x4x32x32x64_d5 : S4x4x32x32x64x64.ReducesTo [5] S4x4x32x32x64
  h_S_ : 0 < S_.numel
  bcast_S_S4x4x32x32x64 : S_.BroadcastsInDim S4x4x32x32x64 (![] : Fin 0 → Fin S4x4x32x32x64.rank)
  bcast_S4x4x32x32x64_S4x4x32x32x64x1_0_1_2_3_4 : S4x4x32x32x64.BroadcastsInDim S4x4x32x32x64x1 (![0, 1, 2, 3, 4] : Fin 5 → Fin S4x4x32x32x64x1.rank)
  bcast_S4x4x32x32x64x1_S4x4x32x32x64x64_0_1_2_3_4_5 : S4x4x32x32x64x1.BroadcastsInDim S4x4x32x32x64x64 (![0, 1, 2, 3, 4, 5] : Fin 6 → Fin S4x4x32x32x64x64.rank)
  shapeCasts_S4x4x32x32x64x4_S4x4x32x32x8x8x4 : S4x4x32x32x64x4.ShapeCasts S4x4x32x32x8x8x4
  transposes_S4x4x32x32x8x8x4_S4x4x4x32x8x32x8_0_1_6_2_4_3_5 : S4x4x32x32x8x8x4.Transposes [0, 1, 6, 2, 4, 3, 5] S4x4x4x32x8x32x8
  shapeCasts_S4x4x4x32x8x32x8_S4x16x256x256 : S4x4x4x32x8x32x8.ShapeCasts S4x16x256x256
  slices_S4x64x256x256_S4x32x256x256_0_32_0_0 : S4x64x256x256.Slices ![0, 32, 0, 0] S4x32x256x256
  slices_S4x32x256x256_S4x32x8x256_0_0_248_0 : S4x32x256x256.Slices ![0, 0, 248, 0] S4x32x8x256
  slices_S4x32x256x256_S4x32x248x256_0_0_0_0 : S4x32x256x256.Slices ![0, 0, 0, 0] S4x32x248x256
  concatenates_S4x32x8x256_S4x32x248x256_S4x32x256x256_d2 : Shape.Concatenates [S4x32x8x256, S4x32x248x256] S4x32x256x256 2
  slices_S4x32x256x256_S4x32x256x8_0_0_0_248 : S4x32x256x256.Slices ![0, 0, 0, 248] S4x32x256x8
  slices_S4x32x256x256_S4x32x256x248_0_0_0_0 : S4x32x256x256.Slices ![0, 0, 0, 0] S4x32x256x248
  concatenates_S4x32x256x8_S4x32x256x248_S4x32x256x256_d3 : Shape.Concatenates [S4x32x256x8, S4x32x256x248] S4x32x256x256 3
  shapeCasts_S4x32x256x256_S4x2x4x4x16x16x16x16 : S4x32x256x256.ShapeCasts S4x2x4x4x16x16x16x16
  transposes_S4x2x4x4x16x16x16x16_S2x4x4x16x16x16x16x4_1_0_2_4_6_5_7_3 : S4x2x4x4x16x16x16x16.Transposes [1, 0, 2, 4, 6, 5, 7, 3] S2x4x4x16x16x16x16x4
  shapeCasts_S2x4x4x16x16x16x16x4_S2x4x4x16x16x256x4 : S2x4x4x16x16x16x16x4.ShapeCasts S2x4x4x16x16x256x4
  slices_S2x4x4x16x16x256x4_S1x4x4x16x16x256x4_0_0_0_0_0_0_0 : S2x4x4x16x16x256x4.Slices ![0, 0, 0, 0, 0, 0, 0] S1x4x4x16x16x256x4
  shapeCasts_S1x4x4x16x16x256x4_S4x4x16x16x256x4 : S1x4x4x16x16x256x4.ShapeCasts S4x4x16x16x256x4
  slices_S2x4x4x16x16x256x4_S1x4x4x16x16x256x4_1_0_0_0_0_0_0 : S2x4x4x16x16x256x4.Slices ![1, 0, 0, 0, 0, 0, 0] S1x4x4x16x16x256x4
  reducesTo_S4x4x16x16x256x256_S4x4x16x16x256_d5 : S4x4x16x16x256x256.ReducesTo [5] S4x4x16x16x256
  bcast_S_S4x4x16x16x256 : S_.BroadcastsInDim S4x4x16x16x256 (![] : Fin 0 → Fin S4x4x16x16x256.rank)
  bcast_S4x4x16x16x256_S4x4x16x16x256x1_0_1_2_3_4 : S4x4x16x16x256.BroadcastsInDim S4x4x16x16x256x1 (![0, 1, 2, 3, 4] : Fin 5 → Fin S4x4x16x16x256x1.rank)
  bcast_S4x4x16x16x256x1_S4x4x16x16x256x256_0_1_2_3_4_5 : S4x4x16x16x256x1.BroadcastsInDim S4x4x16x16x256x256 (![0, 1, 2, 3, 4, 5] : Fin 6 → Fin S4x4x16x16x256x256.rank)
  shapeCasts_S4x4x16x16x256x4_S4x4x16x16x16x16x4 : S4x4x16x16x256x4.ShapeCasts S4x4x16x16x16x16x4
  transposes_S4x4x16x16x16x16x4_S4x4x4x16x16x16x16_0_1_6_2_4_3_5 : S4x4x16x16x16x16x4.Transposes [0, 1, 6, 2, 4, 3, 5] S4x4x4x16x16x16x16
  shapeCasts_S4x4x4x16x16x16x16_S4x16x256x256 : S4x4x4x16x16x16x16.ShapeCasts S4x16x256x256
  slices_S4x16x256x256_S4x16x248x256_0_0_8_0 : S4x16x256x256.Slices ![0, 0, 8, 0] S4x16x248x256
  slices_S4x16x256x256_S4x16x8x256_0_0_0_0 : S4x16x256x256.Slices ![0, 0, 0, 0] S4x16x8x256
  concatenates_S4x16x248x256_S4x16x8x256_S4x16x256x256_d2 : Shape.Concatenates [S4x16x248x256, S4x16x8x256] S4x16x256x256 2
  slices_S4x16x256x256_S4x16x256x248_0_0_0_8 : S4x16x256x256.Slices ![0, 0, 0, 8] S4x16x256x248
  slices_S4x16x256x256_S4x16x256x8_0_0_0_0 : S4x16x256x256.Slices ![0, 0, 0, 0] S4x16x256x8
  concatenates_S4x16x256x248_S4x16x256x8_S4x16x256x256_d3 : Shape.Concatenates [S4x16x256x248, S4x16x256x8] S4x16x256x256 3
  concatenates_S4x16x256x256_S4x16x256x256_S4x32x256x256_d1 : Shape.Concatenates [S4x16x256x256, S4x16x256x256] S4x32x256x256 1
  dot_S4x4x32x32x64x4_S4x4x32x32x64x4_S4x4x32x32x64x64_5_5_4_4_0123_0123_wf : DotDims.WF S4x4x32x32x64x4 S4x4x32x32x64x4 S4x4x32x32x64x64 [5] [5] [4] [4] [0, 1, 2, 3] [0, 1, 2, 3]
  dot_S4x4x32x32x64x64_S4x4x32x32x64x4_S4x4x32x32x64x4_5_4_4_5_0123_0123_wf : DotDims.WF S4x4x32x32x64x64 S4x4x32x32x64x4 S4x4x32x32x64x4 [5] [4] [4] [5] [0, 1, 2, 3] [0, 1, 2, 3]
  dot_S4x4x16x16x256x4_S4x4x16x16x256x4_S4x4x16x16x256x256_5_5_4_4_0123_0123_wf : DotDims.WF S4x4x16x16x256x4 S4x4x16x16x256x4 S4x4x16x16x256x256 [5] [5] [4] [4] [0, 1, 2, 3] [0, 1, 2, 3]
  dot_S4x4x16x16x256x256_S4x4x16x16x256x4_S4x4x16x16x256x4_5_4_4_5_0123_0123_wf : DotDims.WF S4x4x16x16x256x256 S4x4x16x16x256x4 S4x4x16x16x256x4 [5] [4] [4] [5] [0, 1, 2, 3] [0, 1, 2, 3]

variable [Facts₀]

def dot_S4x4x32x32x64x4_S4x4x32x32x64x4_S4x4x32x32x64x64_5_5_4_4_0123_0123 : DotDims S4x4x32x32x64x4 S4x4x32x32x64x4 S4x4x32x32x64x64 where
  lhsContracting := [5]
  rhsContracting := [5]
  lhsNonContracting := [4]
  rhsNonContracting := [4]
  lhsBatch := [0, 1, 2, 3]
  rhsBatch := [0, 1, 2, 3]
  wf := dot_S4x4x32x32x64x4_S4x4x32x32x64x4_S4x4x32x32x64x64_5_5_4_4_0123_0123_wf
def dot_S4x4x32x32x64x64_S4x4x32x32x64x4_S4x4x32x32x64x4_5_4_4_5_0123_0123 : DotDims S4x4x32x32x64x64 S4x4x32x32x64x4 S4x4x32x32x64x4 where
  lhsContracting := [5]
  rhsContracting := [4]
  lhsNonContracting := [4]
  rhsNonContracting := [5]
  lhsBatch := [0, 1, 2, 3]
  rhsBatch := [0, 1, 2, 3]
  wf := dot_S4x4x32x32x64x64_S4x4x32x32x64x4_S4x4x32x32x64x4_5_4_4_5_0123_0123_wf
def dot_S4x4x16x16x256x4_S4x4x16x16x256x4_S4x4x16x16x256x256_5_5_4_4_0123_0123 : DotDims S4x4x16x16x256x4 S4x4x16x16x256x4 S4x4x16x16x256x256 where
  lhsContracting := [5]
  rhsContracting := [5]
  lhsNonContracting := [4]
  rhsNonContracting := [4]
  lhsBatch := [0, 1, 2, 3]
  rhsBatch := [0, 1, 2, 3]
  wf := dot_S4x4x16x16x256x4_S4x4x16x16x256x4_S4x4x16x16x256x256_5_5_4_4_0123_0123_wf
def dot_S4x4x16x16x256x256_S4x4x16x16x256x4_S4x4x16x16x256x4_5_4_4_5_0123_0123 : DotDims S4x4x16x16x256x256 S4x4x16x16x256x4 S4x4x16x16x256x4 where
  lhsContracting := [5]
  rhsContracting := [4]
  lhsNonContracting := [4]
  rhsNonContracting := [5]
  lhsBatch := [0, 1, 2, 3]
  rhsBatch := [0, 1, 2, 3]
  wf := dot_S4x4x16x16x256x256_S4x4x16x16x256x4_S4x4x16x16x256x4_5_4_4_5_0123_0123_wf

class Facts : Prop extends Facts₀ where

variable [Facts]
-- ==== Proof.K0Body.lean ====
/-
  The two pallas_calls' bodies, each at a generic grid point.

  Each call runs one attention body per block of windows: it loads the block of query rows and the block of value
  rows, computes scores, the softmax and the weighted values, and stores the result block whole. Stated here, at any
  contents `V` of the buffers when the region is entered and at any float instance: what a window's block is at a point,
  that an input window's staging buffer holds its block whenever the body runs, the body's triple, the pipeline's proof
  data and the body obligation the pipeline rule asks for. The two input windows of a call read the SAME array (the
  staged tensor, at its first and at its second leading index): each is given half of that array's share.
-/
import proofs.«107732_j64072322122319_2_alg».proof.Proof.Gen.Kernel.Launch
import proofs.«107732_j64072322122319_2_alg».proof.Proof.Gen.Kernel.Skeleton
import proofs.«107732_j64072322122319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # The first pallas_call (pipeline 0), at the contents `V` its region is entered with

Windows 0 and 1 both read the staged tensor (its query half and its value half); window 2 is the result. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: it is fetched at every point, never cut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads each input block whole and writes the result block whole. -/
abbrev rin0 : Rect S1x128x4x64 := Rect.unit (s := S1x128x4x64) ![0, 0, 0, 0] S1x128x4x64.size inb_S1x128x4x64_S1x128x4x64_0_0_0_0
abbrev rout0 : Rect S128x4x64 := Rect.unit (s := S128x4x64) ![0, 0, 0] S128x4x64.size inb_S128x4x64_S128x4x64_0_0_0

/-- The result window's staging buffer after the body: its one store, of the attention of the two loaded blocks. -/
def out0_2 (x0 : Vec F S1x128x4x64 .bf16) (x1 : Vec F S1x128x4x64 .bf16) : Vec F S128x4x64 .f32 :=
  View.canon [⟨rout0, k0_pay1 (View.ld x0 rin0) (View.ld x1 rin0)⟩]

/-- The one store covers the buffer. -/
theorem cover0_2 (p0 : Vec F S128x4x64 .f32) (y : S128x4x64.Idx) :
    ∃ pc ∈ ([⟨rout0, p0⟩] : List (View.Piece (Elt F) S128x4x64 .f32)), y ∈ pc.1.set :=
  View.cover_of_tiled [⟨rout0, p0⟩] S128x4x64.size (by rfl) y

set_option maxHeartbeats 1000000 in
/-- The body on whole staging buffers, the inputs' at `x0`, `x1` and the result's at anything, runs to the continuation
    with the inputs' as they were and the result's at `out0_2 x0 x1`. -/
theorem sound_kernel0 (c : Dev nD) (E : Set ℕ) (i : grid0.Coords) (arg1 : Memref sig .tc .vmem S1x128x4x64 .bf16) (harg1 : arg1.IsWhole) (arg2 : Memref sig .tc .vmem S1x128x4x64 .bf16) (harg2 : arg2.IsWhole) (arg3 : Memref sig .tc .vmem S128x4x64 .f32) (harg3 : arg3.IsWhole)
    (x0 : Vec F S1x128x4x64 .bf16) (x1 : Vec F S1x128x4x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__attn_kernel i arg1 harg1 arg2 harg2 arg3 harg3) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each input's buffer at
    its block and the result's at the attention of the two blocks; the scoped rest and the generator register as the
    invariant; nothing owed. The two input windows read ONE array: each holds half of it (the left and the right half of the full share). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! # The second pallas_call (pipeline 1), at the contents `V` its region is entered with

Windows 0 and 1 both read the staged tensor (its query half and its value half); window 2 is the result. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point: it is fetched at every point, never cut, never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body reads each input block whole and writes the result block whole. -/
abbrev rin1 : Rect S1x32x4x256 := Rect.unit (s := S1x32x4x256) ![0, 0, 0, 0] S1x32x4x256.size inb_S1x32x4x256_S1x32x4x256_0_0_0_0
abbrev rout1 : Rect S32x4x256 := Rect.unit (s := S32x4x256) ![0, 0, 0] S32x4x256.size inb_S32x4x256_S32x4x256_0_0_0

/-- The result window's staging buffer after the body: its one store, of the attention of the two loaded blocks. -/
def out1_2 (x0 : Vec F S1x32x4x256 .bf16) (x1 : Vec F S1x32x4x256 .bf16) : Vec F S32x4x256 .f32 :=
  View.canon [⟨rout1, k1_pay1 (View.ld x0 rin1) (View.ld x1 rin1)⟩]

/-- The one store covers the buffer. -/
theorem cover1_2 (p0 : Vec F S32x4x256 .f32) (y : S32x4x256.Idx) :
    ∃ pc ∈ ([⟨rout1, p0⟩] : List (View.Piece (Elt F) S32x4x256 .f32)), y ∈ pc.1.set :=
  View.cover_of_tiled [⟨rout1, p0⟩] S32x4x256.size (by rfl) y

set_option maxHeartbeats 1000000 in
/-- The body on whole staging buffers, the inputs' at `x0`, `x1` and the result's at anything, runs to the continuation
    with the inputs' as they were and the result's at `out1_2 x0 x1`. -/
theorem sound_kernel1 (c : Dev nD) (E : Set ℕ) (i : grid1.Coords) (arg1 : Memref sig .tc .vmem S1x32x4x256 .bf16) (harg1 : arg1.IsWhole) (arg2 : Memref sig .tc .vmem S1x32x4x256 .bf16) (harg2 : arg2.IsWhole) (arg3 : Memref sig .tc .vmem S32x4x256 .f32) (harg3 : arg3.IsWhole)
    (x0 : Vec F S1x32x4x256 .bf16) (x1 : Vec F S1x32x4x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__attn_kernel i arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body each input's buffer at
    its block and the result's at the attention of the two blocks; the scoped rest and the generator register as the
    invariant; nothing owed. The two input windows read ONE array: each holds half of it (the left and the right half of the full share). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K0Share.lean ====
/-
  One array read through two windows: how its share is dealt at a region's entry and gathered at its exit.

  Each pallas_call reads the staged tensor through two input windows (its query half and its value half). The pipeline
  rule holds each window's array at a share of its own; a buffer held whole at the full share is the same as its two
  halves held side by side, and reading needs no more than a half. So at the region's entry the tensor's full share is
  cut into a left and a right half, one per window, and at the exit — an input array is never written — the two halves
  are put together again.
-/
import proofs.«107732_j64072322122319_2_alg».proof.Proof.K0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Pipeline 0: `main_v4` read by windows 0 and 1, `main_v5` written by window 2 -/

/-- The buffers behind pipeline 0's arrays are two: the staged tensor and the result. -/
theorem arrImage0 : (Finset.univ.image (Pipeline.arrRef spec0) : Finset (Ref sig .tc)) = {main_v4, main_v5} := by decide

/-- So the buffers behind the arrays, each whole at contents `V'`, are those two side by side. -/
theorem arrBufs_eq0 (c : Dev nD) (V' : (b : Ref sig .tc) → Buf (Elt F) ((c : Thread nD τ).loc b)) :
    (Pipeline.arrBufs spec0 c V' : sProp 𝕄)
      = iprop((((c : Thread nD τ).loc main_v4) ↦{fullShare} V' main_v4) ∗ (((c : Thread nD τ).loc main_v5) ↦{fullShare} V' main_v5)) := by
  unfold Pipeline.arrBufs
  rw [arrImage0, bigSep_insert (by decide), bigSep_singleton]
  rfl

/-- An input window's array is never written: after every point it holds what the region was entered with. -/
theorem arrAt0_0 (c : Dev nD) (n : Nat) : (dat0 V c).arrAt 0 n = V c (Pipeline.arrRef spec0 0) :=
  ((dat0 V c).arrAt_in 0 rfl n).trans (A_eq0 V c 0)
theorem arrAt0_1 (c : Dev nD) (n : Nat) : (dat0 V c).arrAt 1 n = V c (Pipeline.arrRef spec0 1) :=
  ((dat0 V c).arrAt_in 1 rfl n).trans (A_eq0 V c 1)

/-- ENTRY. The staged tensor whole at the full share and the result array whole are the pipeline's arrays at the
    contents the region is entered with: the tensor's share is cut in two, a half for each window that reads it. -/
theorem deal0 (c : Dev nD) :
    (Pipeline.arrBufs spec0 c (V c) : sProp 𝕄) ⊢ (dat0 V c).arrays ((dat0 V c).arrAt · 0) := by
  rw [arrBufs_eq0]
  unfold Dat.arrays
  rw [bigSep_W0, (arr_whole0 0).set_eq_univ, (arr_whole0 2).set_eq_univ]
  iintro ⟨H4, H5⟩
  ihave H4' := (pointsTo_share (PosShare.mem_left_op_right fullShare)).1 $$ H4
  icases H4' with ⟨Hl, Hr⟩
  isplitl [Hl]; · iexact Hl
  isplitl [Hr]; · iexact Hr
  iexact H5

/-- EXIT. The pipeline's arrays after the last point — the tensor's two halves, unchanged, and the result array as
    the write-backs left it — are the two buffers whole at any contents `V'` that keep the tensor and have the result
    array at what was written. -/
theorem rejoin0 (c : Dev nD) (V' : (b : Ref sig .tc) → Buf (Elt F) ((c : Thread nD τ).loc b))
    (hin : V' main_v4 = V c main_v4) (hout : V' main_v5 = (dat0 V c).arrAt 2 cfg0.N) :
    (dat0 V c).arrays ((dat0 V c).arrAt · cfg0.N) ⊢ (Pipeline.arrBufs spec0 c V' : sProp 𝕄) := by
  rw [arrBufs_eq0, hin, hout]
  unfold Dat.arrays
  rw [bigSep_W0, (arr_whole0 0).set_eq_univ, (arr_whole0 2).set_eq_univ]
  dsimp only
  rw [arrAt0_0, arrAt0_1]
  iintro ⟨Hl, Hr, H5⟩
  isplitl [Hl Hr]
  · iapply (pointsTo_share (PosShare.mem_left_op_right fullShare)).2
    isplitl [Hl]; · iexact Hl
    iexact Hr
  iexact H5

/-! ## Pipeline 1: `main_v14` read by windows 0 and 1, `main_v15` written by window 2 -/

/-- The buffers behind pipeline 1's arrays are two: the staged tensor and the result. -/
theorem arrImage1 : (Finset.univ.image (Pipeline.arrRef spec1) : Finset (Ref sig .tc)) = {main_v14, main_v15} := by decide

/-- So the buffers behind the arrays, each whole at contents `V'`, are those two side by side. -/
theorem arrBufs_eq1 (c : Dev nD) (V' : (b : Ref sig .tc) → Buf (Elt F) ((c : Thread nD τ).loc b)) :
    (Pipeline.arrBufs spec1 c V' : sProp 𝕄)
      = iprop((((c : Thread nD τ).loc main_v14) ↦{fullShare} V' main_v14) ∗ (((c : Thread nD τ).loc main_v15) ↦{fullShare} V' main_v15)) := by
  unfold Pipeline.arrBufs
  rw [arrImage1, bigSep_insert (by decide), bigSep_singleton]
  rfl

/-- An input window's array is never written: after every point it holds what the region was entered with. -/
theorem arrAt1_0 (c : Dev nD) (n : Nat) : (dat1 V c).arrAt 0 n = V c (Pipeline.arrRef spec1 0) :=
  ((dat1 V c).arrAt_in 0 rfl n).trans (A_eq1 V c 0)
theorem arrAt1_1 (c : Dev nD) (n : Nat) : (dat1 V c).arrAt 1 n = V c (Pipeline.arrRef spec1 1) :=
  ((dat1 V c).arrAt_in 1 rfl n).trans (A_eq1 V c 1)

/-- ENTRY. The staged tensor whole at the full share and the result array whole are the pipeline's arrays at the
    contents the region is entered with: the tensor's share is cut in two, a half for each window that reads it. -/
theorem deal1 (c : Dev nD) :
    (Pipeline.arrBufs spec1 c (V c) : sProp 𝕄) ⊢ (dat1 V c).arrays ((dat1 V c).arrAt · 0) := by
  rw [arrBufs_eq1]
  unfold Dat.arrays
  rw [bigSep_W1, (arr_whole1 0).set_eq_univ, (arr_whole1 2).set_eq_univ]
  iintro ⟨H4, H5⟩
  ihave H4' := (pointsTo_share (PosShare.mem_left_op_right fullShare)).1 $$ H4
  icases H4' with ⟨Hl, Hr⟩
  isplitl [Hl]; · iexact Hl
  isplitl [Hr]; · iexact Hr
  iexact H5

/-- EXIT. The pipeline's arrays after the last point — the tensor's two halves, unchanged, and the result array as
    the write-backs left it — are the two buffers whole at any contents `V'` that keep the tensor and have the result
    array at what was written. -/
theorem rejoin1 (c : Dev nD) (V' : (b : Ref sig .tc) → Buf (Elt F) ((c : Thread nD τ).loc b))
    (hin : V' main_v14 = V c main_v14) (hout : V' main_v15 = (dat1 V c).arrAt 2 cfg1.N) :
    (dat1 V c).arrays ((dat1 V c).arrAt · cfg1.N) ⊢ (Pipeline.arrBufs spec1 c V' : sProp 𝕄) := by
  rw [arrBufs_eq1, hin, hout]
  unfold Dat.arrays
  rw [bigSep_W1, (arr_whole1 0).set_eq_univ, (arr_whole1 2).set_eq_univ]
  dsimp only
  rw [arrAt1_0, arrAt1_1]
  iintro ⟨Hl, Hr, H5⟩
  isplitl [Hl Hr]
  · iapply (pointsTo_share (PosShare.mem_left_op_right fullShare)).2
    isplitl [Hl]; · iexact Hl
    iexact Hr
  iexact H5

end Cert.Kernel.Hand

end
-- ==== Proof.K0Run.lean ====
/-
  The program's run, from the launch to the return.

  @main is nine stretches: host operations (cut the first half of the channels into 8×8 windows and stage them), the
  first pallas_call, host operations (bring its result back to image layout; roll the second half of the channels
  by 8, cut it into 16×16 windows and stage them), the second pallas_call, host operations (bring its result back,
  roll it back, join the two halves). The contents of every unscoped buffer at each boundary are a fold through
  @main from the launch memory: a host stretch applies its operations, a pallas_call replaces its result array by
  what its write-backs leave. Over the thread state "every unscoped buffer at the boundary's contents" each host
  stretch is a segment by itself and each pallas_call a region whose arrays are taken out at the entry and put back
  at the exit; the segments chain, and the last thread state is read against the final memory. So every weakly fair
  execution terminates, faults nowhere, and ends with every unscoped buffer at the last boundary's contents — in
  particular the argument as launched and the result at the fold's value.
-/
import proofs.«107732_j64072322122319_2_alg».proof.Proof.K0Share
import proofs.«107732_j64072322122319_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch: the first pallas_call's entry. -/
abbrev W1 : Dev nD → Valuation τ sig (Elt F) := fun c => StableHlo.after hostOps0 (W0 m c)
abbrev X1 : (c : Dev nD) → (b : Ref sig .tc) → Buf (Elt F) ((c : Thread nD τ).loc b) := fun c b => W1 m c b
/-- At the first pallas_call's exit: its result array at what the write-backs leave, every other buffer as entered. -/
def W2 (c : Dev nD) : Valuation τ sig (Elt F) := Function.update (W1 m c) main_v5 ((dat0 (X1 m) c).arrAt 2 cfg0.N)
abbrev X2 : (c : Dev nD) → (b : Ref sig .tc) → Buf (Elt F) ((c : Thread nD τ).loc b) := fun c b => W2 m c b
theorem W2_res (c : Dev nD) : X2 m c main_v5 = (dat0 (X1 m) c).arrAt 2 cfg0.N := by
  unfold X2 W2; exact Function.update_self ..
theorem W2_of_ne (c : Dev nD) (b : Ref sig .tc) (hb : b ≠ main_v5) : X2 m c b = X1 m c b := by
  unfold X2 X1 W2; exact Function.update_of_ne (StableHlo.devRef_ne_of_ne hb) ..
/-- After the host stretches between the calls: the second pallas_call's entry. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev X5 : (c : Dev nD) → (b : Ref sig .tc) → Buf (Elt F) ((c : Thread nD τ).loc b) := fun c b => W5 m c b
/-- At the second pallas_call's exit. -/
def W6 (c : Dev nD) : Valuation τ sig (Elt F) := Function.update (W5 m c) main_v15 ((dat1 (X5 m) c).arrAt 2 cfg1.N)
abbrev X6 : (c : Dev nD) → (b : Ref sig .tc) → Buf (Elt F) ((c : Thread nD τ).loc b) := fun c b => W6 m c b
theorem W6_res (c : Dev nD) : X6 m c main_v15 = (dat1 (X5 m) c).arrAt 2 cfg1.N := by
  unfold X6 W6; exact Function.update_self ..
theorem W6_of_ne (c : Dev nD) (b : Ref sig .tc) (hb : b ≠ main_v15) : X6 m c b = X5 m c b := by
  unfold X6 X5 W6; exact Function.update_of_ne (StableHlo.devRef_ne_of_ne hb) ..
/-- After the last host stretches: the return. -/
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)

/-- The argument reaches the end as launched: no host stretch writes it, no pallas_call changes it. -/
theorem W9_main_arg0 (c : Dev nD) : W9 m c main_arg0 = m ((c : Thread nD τ).loc main_arg0) :=
  (StableHlo.after_of_writes_sub hostOps2_2 _ hostOps2_2_writes (r := main_arg0) (by decide)).trans <|
  (StableHlo.after_of_writes_sub hostOps2_1 _ hostOps2_1_writes (r := main_arg0) (by decide)).trans <|
  (StableHlo.after_of_writes_sub hostOps2 _ hostOps2_writes (r := main_arg0) (by decide)).trans <|
  (W6_of_ne m c main_arg0 (by decide)).trans <|
  (StableHlo.after_of_writes_sub hostOps1_2 _ hostOps1_2_writes (r := main_arg0) (by decide)).trans <|
  (StableHlo.after_of_writes_sub hostOps1_1 _ hostOps1_1_writes (r := main_arg0) (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tₙ (c : Dev nD) : sProp 𝕄 := iprop(StableHlo.held (c : Thread nD τ) (Pipeline.ucRefs τ sig) (W9 m c) ∗ ∃ r, prngReg c r)

/-! ## The pallas_calls as segments -/

-- a library lemma stated over the pinned configuration unifies with the printed one only when unification may unfold
-- plain definitions in a metavariable's type
set_option backward.isDefEq.respectTransparency.types false in
/-- Pipeline 0's region over the thread state "every unscoped buffer at the boundary's contents, the generator register
    at some state, nothing owed": its arrays are taken out of the unscoped buffers at the entry (the staged tensor's
    share cut in two) and put back at the exit with the result array at what the write-backs left. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit : (unscopedBufs c (X1 m c) : sProp 𝕄)
        ⊢ iprop((pdats m 0 c).arrays ((pdats m 0 c).arrAt · 0) ∗ Pipeline.unscopedRest spec0 c (X1 m c)) := by
      rw [Pipeline.unscopedBufs_split₀ cfgs 0 winFacts₀0.arr_unscoped c (X1 m c)]
      exact sep_mono (deal0 (X1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (X1 m c))
        ⊢ (unscopedBufs c (X2 m c) : sProp 𝕄) := by
      rw [Pipeline.unscopedBufs_split₀ cfgs 0 winFacts₀0.arr_unscoped c (X2 m c)]
      refine sep_mono (rejoin0 (X1 m) c (X2 m c) (W2_of_ne m c _ (by decide)) (W2_res m c)) (Entails.of_eq ?_)
      unfold Pipeline.unscopedRest
      exact bigSep_congr fun b hb => by
        rw [W2_of_ne m c b fun e => (Finset.mem_sdiff.mp hb).2 (e ▸ (by decide : (main_v5 : Ref sig .tc) ∈ Finset.univ.image (Pipeline.arrRef spec0)))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 1's region over the thread state "every unscoped buffer at the boundary's contents, the generator register
    at some state, nothing owed": its arrays are taken out of the unscoped buffers at the entry (the staged tensor's
    share cut in two) and put back at the exit with the result array at what the write-backs left. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (X5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (X5 m c)
  hentry c := by
    rw [Pipeline.ownSems0_none]
    have hsplit : (unscopedBufs c (X5 m c) : sProp 𝕄)
        ⊢ iprop((pdats m 1 c).arrays ((pdats m 1 c).arrAt · 0) ∗ Pipeline.unscopedRest spec1 c (X5 m c)) := by
      rw [Pipeline.unscopedBufs_split₀ cfgs 1 winFacts₀1.arr_unscoped c (X5 m c)]
      exact sep_mono (deal1 (X5 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (X5 m c))
        ⊢ (unscopedBufs c (X6 m c) : sProp 𝕄) := by
      rw [Pipeline.unscopedBufs_split₀ cfgs 1 winFacts₀1.arr_unscoped c (X6 m c)]
      refine sep_mono (rejoin1 (X5 m) c (X6 m c) (W6_of_ne m c _ (by decide)) (W6_res m c)) (Entails.of_eq ?_)
      unfold Pipeline.unscopedRest
      exact bigSep_congr fun b hb => by
        rw [W6_of_ne m c b fun e => (Finset.mem_sdiff.mp hb).2 (e ▸ (by decide : (main_v15 : Ref sig .tc) ∈ Finset.univ.image (Pipeline.arrRef spec1)))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)) ]

/-- @main is the run of the segments. -/
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W9_main_arg0 m c)) (run_all m ρ)

/-- The result: the returned array ends at the fold's value, the argument as launched. -/
theorem result : θ_run defs (onTc (τ := τ) (main (F := F))) ⟨m, fun _ => 0, ρ⟩ (fun r => ∀ c : Dev nD,
      r.2.mem ((c.tc : Thread nD τ).loc main_v20) = W9 m c main_v20
      ∧ r.2.mem ((c.tc : Thread nD τ).loc main_arg0) = m ((c.tc : Thread nD τ).loc main_arg0)) :=
  (θ_run defs _ _).mono (fun r h c => ⟨h c _ (mem_uc main_v20 (by decide)),
    (h c _ (mem_uc main_arg0 (by decide))).trans (W9_main_arg0 m c)⟩) (run_all m ρ)

end Cert.Kernel.Hand

end
-- ==== Proof.KIBody.lean ====
/-
  The two pallas_calls' bodies, each at a generic grid point.

  Each call runs one attention body per block of windows: it loads the block of query rows and the block of value
  rows, computes scores, the softmax and the weighted values, and stores the result block whole. Stated here, at any
  contents `V` of the buffers when the region is entered and at any float instance: what a window's block is at a point,
  that an input window's staging buffer holds its block whenever the body runs, the body's triple, the pipeline's proof
  data and the body obligation the pipeline rule asks for. The two input windows of a call read the SAME array (the
  staged tensor, at its first and at its second leading index): each is given half of that array's share.
-/
import proofs.«107732_j64072322122319_2_alg».proof.Proof.Gen.KernelIdeal.Launch
import proofs.«107732_j64072322122319_2_alg».proof.Proof.Gen.KernelIdeal.Skeleton
import proofs.«107732_j64072322122319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # The first pallas_call (pipeline 0), at the contents `V` its region is entered with

Windows 0 and 1 both read the staged tensor (its query half and its value half); window 2 is the result. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: it is fetched at every point, never cut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads each input block whole and writes the result block whole. -/
abbrev rin0 : Rect S1x128x4x64 := Rect.unit (s := S1x128x4x64) ![0, 0, 0, 0] S1x128x4x64.size inb_S1x128x4x64_S1x128x4x64_0_0_0_0
abbrev rout0 : Rect S128x4x64 := Rect.unit (s := S128x4x64) ![0, 0, 0] S128x4x64.size inb_S128x4x64_S128x4x64_0_0_0

/-- The result window's staging buffer after the body: its one store, of the attention of the two loaded blocks. -/
def out0_2 (x0 : Vec F S1x128x4x64 .bf16) (x1 : Vec F S1x128x4x64 .bf16) : Vec F S128x4x64 .f32 :=
  View.canon [⟨rout0, k0_pay1 (View.ld x0 rin0) (View.ld x1 rin0)⟩]

/-- The one store covers the buffer. -/
theorem cover0_2 (p0 : Vec F S128x4x64 .f32) (y : S128x4x64.Idx) :
    ∃ pc ∈ ([⟨rout0, p0⟩] : List (View.Piece (Elt F) S128x4x64 .f32)), y ∈ pc.1.set :=
  View.cover_of_tiled [⟨rout0, p0⟩] S128x4x64.size (by rfl) y

set_option maxHeartbeats 1000000 in
/-- The body on whole staging buffers, the inputs' at `x0`, `x1` and the result's at anything, runs to the continuation
    with the inputs' as they were and the result's at `out0_2 x0 x1`. -/
theorem sound_kernel0 (c : Dev nD) (E : Set ℕ) (i : grid0.Coords) (arg1 : Memref sig .tc .vmem S1x128x4x64 .bf16) (harg1 : arg1.IsWhole) (arg2 : Memref sig .tc .vmem S1x128x4x64 .bf16) (harg2 : arg2.IsWhole) (arg3 : Memref sig .tc .vmem S128x4x64 .f32) (harg3 : arg3.IsWhole)
    (x0 : Vec F S1x128x4x64 .bf16) (x1 : Vec F S1x128x4x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__attn_kernel i arg1 harg1 arg2 harg2 arg3 harg3) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each input's buffer at
    its block and the result's at the attention of the two blocks; the scoped rest and the generator register as the
    invariant; nothing owed. The two input windows read ONE array: each holds half of it (the left and the right half of the full share). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! # The second pallas_call (pipeline 1), at the contents `V` its region is entered with

Windows 0 and 1 both read the staged tensor (its query half and its value half); window 2 is the result. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point: it is fetched at every point, never cut, never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body reads each input block whole and writes the result block whole. -/
abbrev rin1 : Rect S1x32x4x256 := Rect.unit (s := S1x32x4x256) ![0, 0, 0, 0] S1x32x4x256.size inb_S1x32x4x256_S1x32x4x256_0_0_0_0
abbrev rout1 : Rect S32x4x256 := Rect.unit (s := S32x4x256) ![0, 0, 0] S32x4x256.size inb_S32x4x256_S32x4x256_0_0_0

/-- The result window's staging buffer after the body: its one store, of the attention of the two loaded blocks. -/
def out1_2 (x0 : Vec F S1x32x4x256 .bf16) (x1 : Vec F S1x32x4x256 .bf16) : Vec F S32x4x256 .f32 :=
  View.canon [⟨rout1, k1_pay1 (View.ld x0 rin1) (View.ld x1 rin1)⟩]

/-- The one store covers the buffer. -/
theorem cover1_2 (p0 : Vec F S32x4x256 .f32) (y : S32x4x256.Idx) :
    ∃ pc ∈ ([⟨rout1, p0⟩] : List (View.Piece (Elt F) S32x4x256 .f32)), y ∈ pc.1.set :=
  View.cover_of_tiled [⟨rout1, p0⟩] S32x4x256.size (by rfl) y

set_option maxHeartbeats 1000000 in
/-- The body on whole staging buffers, the inputs' at `x0`, `x1` and the result's at anything, runs to the continuation
    with the inputs' as they were and the result's at `out1_2 x0 x1`. -/
theorem sound_kernel1 (c : Dev nD) (E : Set ℕ) (i : grid1.Coords) (arg1 : Memref sig .tc .vmem S1x32x4x256 .bf16) (harg1 : arg1.IsWhole) (arg2 : Memref sig .tc .vmem S1x32x4x256 .bf16) (harg2 : arg2.IsWhole) (arg3 : Memref sig .tc .vmem S32x4x256 .f32) (harg3 : arg3.IsWhole)
    (x0 : Vec F S1x32x4x256 .bf16) (x1 : Vec F S1x32x4x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__attn_kernel i arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body each input's buffer at
    its block and the result's at the attention of the two blocks; the scoped rest and the generator register as the
    invariant; nothing owed. The two input windows read ONE array: each holds half of it (the left and the right half of the full share). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIShare.lean ====
/-
  One array read through two windows: how its share is dealt at a region's entry and gathered at its exit.

  Each pallas_call reads the staged tensor through two input windows (its query half and its value half). The pipeline
  rule holds each window's array at a share of its own; a buffer held whole at the full share is the same as its two
  halves held side by side, and reading needs no more than a half. So at the region's entry the tensor's full share is
  cut into a left and a right half, one per window, and at the exit — an input array is never written — the two halves
  are put together again.
-/
import proofs.«107732_j64072322122319_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Pipeline 0: `main_v4` read by windows 0 and 1, `main_v5` written by window 2 -/

/-- The buffers behind pipeline 0's arrays are two: the staged tensor and the result. -/
theorem arrImage0 : (Finset.univ.image (Pipeline.arrRef spec0) : Finset (Ref sig .tc)) = {main_v4, main_v5} := by decide

/-- So the buffers behind the arrays, each whole at contents `V'`, are those two side by side. -/
theorem arrBufs_eq0 (c : Dev nD) (V' : (b : Ref sig .tc) → Buf (Elt F) ((c : Thread nD τ).loc b)) :
    (Pipeline.arrBufs spec0 c V' : sProp 𝕄)
      = iprop((((c : Thread nD τ).loc main_v4) ↦{fullShare} V' main_v4) ∗ (((c : Thread nD τ).loc main_v5) ↦{fullShare} V' main_v5)) := by
  unfold Pipeline.arrBufs
  rw [arrImage0, bigSep_insert (by decide), bigSep_singleton]
  rfl

/-- An input window's array is never written: after every point it holds what the region was entered with. -/
theorem arrAt0_0 (c : Dev nD) (n : Nat) : (dat0 V c).arrAt 0 n = V c (Pipeline.arrRef spec0 0) :=
  ((dat0 V c).arrAt_in 0 rfl n).trans (A_eq0 V c 0)
theorem arrAt0_1 (c : Dev nD) (n : Nat) : (dat0 V c).arrAt 1 n = V c (Pipeline.arrRef spec0 1) :=
  ((dat0 V c).arrAt_in 1 rfl n).trans (A_eq0 V c 1)

/-- ENTRY. The staged tensor whole at the full share and the result array whole are the pipeline's arrays at the
    contents the region is entered with: the tensor's share is cut in two, a half for each window that reads it. -/
theorem deal0 (c : Dev nD) :
    (Pipeline.arrBufs spec0 c (V c) : sProp 𝕄) ⊢ (dat0 V c).arrays ((dat0 V c).arrAt · 0) := by
  rw [arrBufs_eq0]
  unfold Dat.arrays
  rw [bigSep_W0, (arr_whole0 0).set_eq_univ, (arr_whole0 2).set_eq_univ]
  iintro ⟨H4, H5⟩
  ihave H4' := (pointsTo_share (PosShare.mem_left_op_right fullShare)).1 $$ H4
  icases H4' with ⟨Hl, Hr⟩
  isplitl [Hl]; · iexact Hl
  isplitl [Hr]; · iexact Hr
  iexact H5

/-- EXIT. The pipeline's arrays after the last point — the tensor's two halves, unchanged, and the result array as
    the write-backs left it — are the two buffers whole at any contents `V'` that keep the tensor and have the result
    array at what was written. -/
theorem rejoin0 (c : Dev nD) (V' : (b : Ref sig .tc) → Buf (Elt F) ((c : Thread nD τ).loc b))
    (hin : V' main_v4 = V c main_v4) (hout : V' main_v5 = (dat0 V c).arrAt 2 cfg0.N) :
    (dat0 V c).arrays ((dat0 V c).arrAt · cfg0.N) ⊢ (Pipeline.arrBufs spec0 c V' : sProp 𝕄) := by
  rw [arrBufs_eq0, hin, hout]
  unfold Dat.arrays
  rw [bigSep_W0, (arr_whole0 0).set_eq_univ, (arr_whole0 2).set_eq_univ]
  dsimp only
  rw [arrAt0_0, arrAt0_1]
  iintro ⟨Hl, Hr, H5⟩
  isplitl [Hl Hr]
  · iapply (pointsTo_share (PosShare.mem_left_op_right fullShare)).2
    isplitl [Hl]; · iexact Hl
    iexact Hr
  iexact H5

/-! ## Pipeline 1: `main_v14` read by windows 0 and 1, `main_v15` written by window 2 -/

/-- The buffers behind pipeline 1's arrays are two: the staged tensor and the result. -/
theorem arrImage1 : (Finset.univ.image (Pipeline.arrRef spec1) : Finset (Ref sig .tc)) = {main_v14, main_v15} := by decide

/-- So the buffers behind the arrays, each whole at contents `V'`, are those two side by side. -/
theorem arrBufs_eq1 (c : Dev nD) (V' : (b : Ref sig .tc) → Buf (Elt F) ((c : Thread nD τ).loc b)) :
    (Pipeline.arrBufs spec1 c V' : sProp 𝕄)
      = iprop((((c : Thread nD τ).loc main_v14) ↦{fullShare} V' main_v14) ∗ (((c : Thread nD τ).loc main_v15) ↦{fullShare} V' main_v15)) := by
  unfold Pipeline.arrBufs
  rw [arrImage1, bigSep_insert (by decide), bigSep_singleton]
  rfl

/-- An input window's array is never written: after every point it holds what the region was entered with. -/
theorem arrAt1_0 (c : Dev nD) (n : Nat) : (dat1 V c).arrAt 0 n = V c (Pipeline.arrRef spec1 0) :=
  ((dat1 V c).arrAt_in 0 rfl n).trans (A_eq1 V c 0)
theorem arrAt1_1 (c : Dev nD) (n : Nat) : (dat1 V c).arrAt 1 n = V c (Pipeline.arrRef spec1 1) :=
  ((dat1 V c).arrAt_in 1 rfl n).trans (A_eq1 V c 1)

/-- ENTRY. The staged tensor whole at the full share and the result array whole are the pipeline's arrays at the
    contents the region is entered with: the tensor's share is cut in two, a half for each window that reads it. -/
theorem deal1 (c : Dev nD) :
    (Pipeline.arrBufs spec1 c (V c) : sProp 𝕄) ⊢ (dat1 V c).arrays ((dat1 V c).arrAt · 0) := by
  rw [arrBufs_eq1]
  unfold Dat.arrays
  rw [bigSep_W1, (arr_whole1 0).set_eq_univ, (arr_whole1 2).set_eq_univ]
  iintro ⟨H4, H5⟩
  ihave H4' := (pointsTo_share (PosShare.mem_left_op_right fullShare)).1 $$ H4
  icases H4' with ⟨Hl, Hr⟩
  isplitl [Hl]; · iexact Hl
  isplitl [Hr]; · iexact Hr
  iexact H5

/-- EXIT. The pipeline's arrays after the last point — the tensor's two halves, unchanged, and the result array as
    the write-backs left it — are the two buffers whole at any contents `V'` that keep the tensor and have the result
    array at what was written. -/
theorem rejoin1 (c : Dev nD) (V' : (b : Ref sig .tc) → Buf (Elt F) ((c : Thread nD τ).loc b))
    (hin : V' main_v14 = V c main_v14) (hout : V' main_v15 = (dat1 V c).arrAt 2 cfg1.N) :
    (dat1 V c).arrays ((dat1 V c).arrAt · cfg1.N) ⊢ (Pipeline.arrBufs spec1 c V' : sProp 𝕄) := by
  rw [arrBufs_eq1, hin, hout]
  unfold Dat.arrays
  rw [bigSep_W1, (arr_whole1 0).set_eq_univ, (arr_whole1 2).set_eq_univ]
  dsimp only
  rw [arrAt1_0, arrAt1_1]
  iintro ⟨Hl, Hr, H5⟩
  isplitl [Hl Hr]
  · iapply (pointsTo_share (PosShare.mem_left_op_right fullShare)).2
    isplitl [Hl]; · iexact Hl
    iexact Hr
  iexact H5

end Cert.KernelIdeal.Hand

end
-- ==== Proof.KIRun.lean ====
/-
  The program's run, from the launch to the return.

  @main is nine stretches: host operations (cut the first half of the channels into 8×8 windows and stage them), the
  first pallas_call, host operations (bring its result back to image layout; roll the second half of the channels
  by 8, cut it into 16×16 windows and stage them), the second pallas_call, host operations (bring its result back,
  roll it back, join the two halves). The contents of every unscoped buffer at each boundary are a fold through
  @main from the launch memory: a host stretch applies its operations, a pallas_call replaces its result array by
  what its write-backs leave. Over the thread state "every unscoped buffer at the boundary's contents" each host
  stretch is a segment by itself and each pallas_call a region whose arrays are taken out at the entry and put back
  at the exit; the segments chain, and the last thread state is read against the final memory. So every weakly fair
  execution terminates, faults nowhere, and ends with every unscoped buffer at the last boundary's contents — in
  particular the argument as launched and the result at the fold's value.
-/
import proofs.«107732_j64072322122319_2_alg».proof.Proof.KIShare
import proofs.«107732_j64072322122319_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch: the first pallas_call's entry. -/
abbrev W1 : Dev nD → Valuation τ sig (Elt F) := fun c => StableHlo.after hostOps0 (W0 m c)
abbrev X1 : (c : Dev nD) → (b : Ref sig .tc) → Buf (Elt F) ((c : Thread nD τ).loc b) := fun c b => W1 m c b
/-- At the first pallas_call's exit: its result array at what the write-backs leave, every other buffer as entered. -/
def W2 (c : Dev nD) : Valuation τ sig (Elt F) := Function.update (W1 m c) main_v5 ((dat0 (X1 m) c).arrAt 2 cfg0.N)
abbrev X2 : (c : Dev nD) → (b : Ref sig .tc) → Buf (Elt F) ((c : Thread nD τ).loc b) := fun c b => W2 m c b
theorem W2_res (c : Dev nD) : X2 m c main_v5 = (dat0 (X1 m) c).arrAt 2 cfg0.N := by
  unfold X2 W2; exact Function.update_self ..
theorem W2_of_ne (c : Dev nD) (b : Ref sig .tc) (hb : b ≠ main_v5) : X2 m c b = X1 m c b := by
  unfold X2 X1 W2; exact Function.update_of_ne (StableHlo.devRef_ne_of_ne hb) ..
/-- After the host stretches between the calls: the second pallas_call's entry. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev X5 : (c : Dev nD) → (b : Ref sig .tc) → Buf (Elt F) ((c : Thread nD τ).loc b) := fun c b => W5 m c b
/-- At the second pallas_call's exit. -/
def W6 (c : Dev nD) : Valuation τ sig (Elt F) := Function.update (W5 m c) main_v15 ((dat1 (X5 m) c).arrAt 2 cfg1.N)
abbrev X6 : (c : Dev nD) → (b : Ref sig .tc) → Buf (Elt F) ((c : Thread nD τ).loc b) := fun c b => W6 m c b
theorem W6_res (c : Dev nD) : X6 m c main_v15 = (dat1 (X5 m) c).arrAt 2 cfg1.N := by
  unfold X6 W6; exact Function.update_self ..
theorem W6_of_ne (c : Dev nD) (b : Ref sig .tc) (hb : b ≠ main_v15) : X6 m c b = X5 m c b := by
  unfold X6 X5 W6; exact Function.update_of_ne (StableHlo.devRef_ne_of_ne hb) ..
/-- After the last host stretches: the return. -/
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)

/-- The argument reaches the end as launched: no host stretch writes it, no pallas_call changes it. -/
theorem W9_main_arg0 (c : Dev nD) : W9 m c main_arg0 = m ((c : Thread nD τ).loc main_arg0) :=
  (StableHlo.after_of_writes_sub hostOps2_2 _ hostOps2_2_writes (r := main_arg0) (by decide)).trans <|
  (StableHlo.after_of_writes_sub hostOps2_1 _ hostOps2_1_writes (r := main_arg0) (by decide)).trans <|
  (StableHlo.after_of_writes_sub hostOps2 _ hostOps2_writes (r := main_arg0) (by decide)).trans <|
  (W6_of_ne m c main_arg0 (by decide)).trans <|
  (StableHlo.after_of_writes_sub hostOps1_2 _ hostOps1_2_writes (r := main_arg0) (by decide)).trans <|
  (StableHlo.after_of_writes_sub hostOps1_1 _ hostOps1_1_writes (r := main_arg0) (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tₙ (c : Dev nD) : sProp 𝕄 := iprop(StableHlo.held (c : Thread nD τ) (Pipeline.ucRefs τ sig) (W9 m c) ∗ ∃ r, prngReg c r)

/-! ## The pallas_calls as segments -/

-- a library lemma stated over the pinned configuration unifies with the printed one only when unification may unfold
-- plain definitions in a metavariable's type
set_option backward.isDefEq.respectTransparency.types false in
/-- Pipeline 0's region over the thread state "every unscoped buffer at the boundary's contents, the generator register
    at some state, nothing owed": its arrays are taken out of the unscoped buffers at the entry (the staged tensor's
    share cut in two) and put back at the exit with the result array at what the write-backs left. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit : (unscopedBufs c (X1 m c) : sProp 𝕄)
        ⊢ iprop((pdats m 0 c).arrays ((pdats m 0 c).arrAt · 0) ∗ Pipeline.unscopedRest spec0 c (X1 m c)) := by
      rw [Pipeline.unscopedBufs_split₀ cfgs 0 winFacts₀0.arr_unscoped c (X1 m c)]
      exact sep_mono (deal0 (X1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (X1 m c))
        ⊢ (unscopedBufs c (X2 m c) : sProp 𝕄) := by
      rw [Pipeline.unscopedBufs_split₀ cfgs 0 winFacts₀0.arr_unscoped c (X2 m c)]
      refine sep_mono (rejoin0 (X1 m) c (X2 m c) (W2_of_ne m c _ (by decide)) (W2_res m c)) (Entails.of_eq ?_)
      unfold Pipeline.unscopedRest
      exact bigSep_congr fun b hb => by
        rw [W2_of_ne m c b fun e => (Finset.mem_sdiff.mp hb).2 (e ▸ (by decide : (main_v5 : Ref sig .tc) ∈ Finset.univ.image (Pipeline.arrRef spec0)))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 1's region over the thread state "every unscoped buffer at the boundary's contents, the generator register
    at some state, nothing owed": its arrays are taken out of the unscoped buffers at the entry (the staged tensor's
    share cut in two) and put back at the exit with the result array at what the write-backs left. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (X5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (X5 m c)
  hentry c := by
    rw [Pipeline.ownSems0_none]
    have hsplit : (unscopedBufs c (X5 m c) : sProp 𝕄)
        ⊢ iprop((pdats m 1 c).arrays ((pdats m 1 c).arrAt · 0) ∗ Pipeline.unscopedRest spec1 c (X5 m c)) := by
      rw [Pipeline.unscopedBufs_split₀ cfgs 1 winFacts₀1.arr_unscoped c (X5 m c)]
      exact sep_mono (deal1 (X5 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (X5 m c))
        ⊢ (unscopedBufs c (X6 m c) : sProp 𝕄) := by
      rw [Pipeline.unscopedBufs_split₀ cfgs 1 winFacts₀1.arr_unscoped c (X6 m c)]
      refine sep_mono (rejoin1 (X5 m) c (X6 m c) (W6_of_ne m c _ (by decide)) (W6_res m c)) (Entails.of_eq ?_)
      unfold Pipeline.unscopedRest
      exact bigSep_congr fun b hb => by
        rw [W6_of_ne m c b fun e => (Finset.mem_sdiff.mp hb).2 (e ▸ (by decide : (main_v15 : Ref sig .tc) ∈ Finset.univ.image (Pipeline.arrRef spec1)))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)) ]

/-- @main is the run of the segments. -/
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W9_main_arg0 m c)) (run_all m ρ)

/-- The result: the returned array ends at the fold's value, the argument as launched. -/
theorem result : θ_run defs (onTc (τ := τ) (main (F := F))) ⟨m, fun _ => 0, ρ⟩ (fun r => ∀ c : Dev nD,
      r.2.mem ((c.tc : Thread nD τ).loc main_v20) = W9 m c main_v20
      ∧ r.2.mem ((c.tc : Thread nD τ).loc main_arg0) = m ((c.tc : Thread nD τ).loc main_arg0)) :=
  (θ_run defs _ _).mono (fun r h c => ⟨h c _ (mem_uc main_v20 (by decide)),
    (h c _ (mem_uc main_arg0 (by decide))).trans (W9_main_arg0 m c)⟩) (run_all m ρ)

end Cert.KernelIdeal.Hand

end
-- ==== Proof.KHost.lean ====
/-
  The kernel program's host stretches, each as a function of what it finds.

  Around its two attention kernels the program only moves data. Before the first kernel: the first 32 channels cut
  into 8×8 windows, the window's rows and columns made the last axes, flattened to [2, windows, channel, token] and
  rounded to bf16 (`pre0`). After it: the kernel's result [windows, channel, token] laid back as an image (`post0`).
  The last 32 channels are shifted cyclically by 8 along both image axes (`rollA`: per axis, two slices of the
  argument joined), cut into 16×16 windows the same way (`pre1`), and after the second kernel laid back (`post1`),
  shifted back (`rollB`) and joined to the first half along the channel axis.

  Every statement is for an arbitrary valuation of the device's buffers; the last section composes them along the
  program, the two kernels' results entering as arbitrary arrays.
-/
import proofs.«107732_j64072322122319_2_alg».proof.Proof.Gen.KernelIdeal.Launch
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## The stretches as functions -/

/-- The first half of the channels as the first kernel's operand: windows of 8×8, [2, 16384, 4, 64], in bf16. -/
def pre0 (a : (⟨S4x64x256x256, .f32⟩ : BufTy).Contents (Elt F)) : (⟨S2x16384x4x64, .bf16⟩ : BufTy).Contents (Elt F) :=
  truncf .bf16 (shapeCast S2x16384x4x64 (transpose S2x4x4x32x32x4x8x8 [1, 0, 2, 4, 6, 3, 5, 7] (shapeCast S4x2x4x4x32x8x32x8 (extractStridedSlice S4x32x256x256 ![0, 0, 0, 0] a slices_S4x64x256x256_S4x32x256x256_0_0_0_0) shapeCasts_S4x32x256x256_S4x2x4x4x32x8x32x8) transposes_S4x2x4x4x32x8x32x8_S2x4x4x32x32x4x8x8_1_0_2_4_6_3_5_7) shapeCasts_S2x4x4x32x32x4x8x8_S2x16384x4x64) bitsLt_bf16_f32

/-- The first kernel's result laid back as an image. -/
def post0 (r : (⟨S16384x4x64, .f32⟩ : BufTy).Contents (Elt F)) : (⟨S4x16x256x256, .f32⟩ : BufTy).Contents (Elt F) :=
  shapeCast S4x16x256x256 (transpose S4x4x4x32x8x32x8 [0, 1, 4, 2, 5, 3, 6] (shapeCast S4x4x32x32x4x8x8 r shapeCasts_S16384x4x64_S4x4x32x32x4x8x8) transposes_S4x4x32x32x4x8x8_S4x4x4x32x8x32x8_0_1_4_2_5_3_6) shapeCasts_S4x4x4x32x8x32x8_S4x16x256x256

/-- The shifted half as the second kernel's operand: windows of 16×16, [2, 4096, 4, 256], in bf16. -/
def pre1 (y : (⟨S4x32x256x256, .f32⟩ : BufTy).Contents (Elt F)) : (⟨S2x4096x4x256, .bf16⟩ : BufTy).Contents (Elt F) :=
  truncf .bf16 (shapeCast S2x4096x4x256 (transpose S2x4x4x16x16x4x16x16 [1, 0, 2, 4, 6, 3, 5, 7] (shapeCast S4x2x4x4x16x16x16x16 y shapeCasts_S4x32x256x256_S4x2x4x4x16x16x16x16) transposes_S4x2x4x4x16x16x16x16_S2x4x4x16x16x4x16x16_1_0_2_4_6_3_5_7) shapeCasts_S2x4x4x16x16x4x16x16_S2x4096x4x256) bitsLt_bf16_f32

/-- The second kernel's result laid back as an image. -/
def post1 (r : (⟨S4096x4x256, .f32⟩ : BufTy).Contents (Elt F)) : (⟨S4x16x256x256, .f32⟩ : BufTy).Contents (Elt F) :=
  shapeCast S4x16x256x256 (transpose S4x4x4x16x16x16x16 [0, 1, 4, 2, 5, 3, 6] (shapeCast S4x4x16x16x4x16x16 r shapeCasts_S4096x4x256_S4x4x16x16x4x16x16) transposes_S4x4x16x16x4x16x16_S4x4x4x16x16x16x16_0_1_4_2_5_3_6) shapeCasts_S4x4x4x16x16x16x16_S4x16x256x256

def ra_call0_v0 (x : (⟨S4x32x256x256, .f32⟩ : BufTy).Contents (Elt F)) : (⟨S4x32x8x256, .f32⟩ : BufTy).Contents (Elt F) :=
  extractStridedSlice S4x32x8x256 ![0, 0, 248, 0] x slices_S4x32x256x256_S4x32x8x256_0_0_248_0
def ra_call0_v1 (x : (⟨S4x32x256x256, .f32⟩ : BufTy).Contents (Elt F)) : (⟨S4x32x248x256, .f32⟩ : BufTy).Contents (Elt F) :=
  extractStridedSlice S4x32x248x256 ![0, 0, 0, 0] x slices_S4x32x256x256_S4x32x248x256_0_0_0_0
def ra_call0_v2 (x : (⟨S4x32x256x256, .f32⟩ : BufTy).Contents (Elt F)) : (⟨S4x32x256x256, .f32⟩ : BufTy).Contents (Elt F) :=
  concatenate S4x32x256x256 2 [⟨S4x32x8x256, (ra_call0_v0 x)⟩, ⟨S4x32x248x256, (ra_call0_v1 x)⟩] concatenates_S4x32x8x256_S4x32x248x256_S4x32x256x256_d2
def ra_call0_v3 (x : (⟨S4x32x256x256, .f32⟩ : BufTy).Contents (Elt F)) : (⟨S4x32x256x8, .f32⟩ : BufTy).Contents (Elt F) :=
  extractStridedSlice S4x32x256x8 ![0, 0, 0, 248] (ra_call0_v2 x) slices_S4x32x256x256_S4x32x256x8_0_0_0_248
def ra_call0_v4 (x : (⟨S4x32x256x256, .f32⟩ : BufTy).Contents (Elt F)) : (⟨S4x32x256x248, .f32⟩ : BufTy).Contents (Elt F) :=
  extractStridedSlice S4x32x256x248 ![0, 0, 0, 0] (ra_call0_v2 x) slices_S4x32x256x256_S4x32x256x248_0_0_0_0
def ra_v10 (x : (⟨S4x32x256x256, .f32⟩ : BufTy).Contents (Elt F)) : (⟨S4x32x256x256, .f32⟩ : BufTy).Contents (Elt F) :=
  concatenate S4x32x256x256 3 [⟨S4x32x256x8, (ra_call0_v3 x)⟩, ⟨S4x32x256x248, (ra_call0_v4 x)⟩] concatenates_S4x32x256x8_S4x32x256x248_S4x32x256x256_d3
/-- The first outlined function: its argument shifted cyclically by 8 along both image axes. -/
def rollA (x : (⟨S4x32x256x256, .f32⟩ : BufTy).Contents (Elt F)) : (⟨S4x32x256x256, .f32⟩ : BufTy).Contents (Elt F) := ra_v10 x

def rb_call1_v0 (x : (⟨S4x16x256x256, .f32⟩ : BufTy).Contents (Elt F)) : (⟨S4x16x248x256, .f32⟩ : BufTy).Contents (Elt F) :=
  extractStridedSlice S4x16x248x256 ![0, 0, 8, 0] x slices_S4x16x256x256_S4x16x248x256_0_0_8_0
def rb_call1_v1 (x : (⟨S4x16x256x256, .f32⟩ : BufTy).Contents (Elt F)) : (⟨S4x16x8x256, .f32⟩ : BufTy).Contents (Elt F) :=
  extractStridedSlice S4x16x8x256 ![0, 0, 0, 0] x slices_S4x16x256x256_S4x16x8x256_0_0_0_0
def rb_call1_v2 (x : (⟨S4x16x256x256, .f32⟩ : BufTy).Contents (Elt F)) : (⟨S4x16x256x256, .f32⟩ : BufTy).Contents (Elt F) :=
  concatenate S4x16x256x256 2 [⟨S4x16x248x256, (rb_call1_v0 x)⟩, ⟨S4x16x8x256, (rb_call1_v1 x)⟩] concatenates_S4x16x248x256_S4x16x8x256_S4x16x256x256_d2
def rb_call1_v3 (x : (⟨S4x16x256x256, .f32⟩ : BufTy).Contents (Elt F)) : (⟨S4x16x256x248, .f32⟩ : BufTy).Contents (Elt F) :=
  extractStridedSlice S4x16x256x248 ![0, 0, 0, 8] (rb_call1_v2 x) slices_S4x16x256x256_S4x16x256x248_0_0_0_8
def rb_call1_v4 (x : (⟨S4x16x256x256, .f32⟩ : BufTy).Contents (Elt F)) : (⟨S4x16x256x8, .f32⟩ : BufTy).Contents (Elt F) :=
  extractStridedSlice S4x16x256x8 ![0, 0, 0, 0] (rb_call1_v2 x) slices_S4x16x256x256_S4x16x256x8_0_0_0_0
def rb_v19 (x : (⟨S4x16x256x256, .f32⟩ : BufTy).Contents (Elt F)) : (⟨S4x16x256x256, .f32⟩ : BufTy).Contents (Elt F) :=
  concatenate S4x16x256x256 3 [⟨S4x16x256x248, (rb_call1_v3 x)⟩, ⟨S4x16x256x8, (rb_call1_v4 x)⟩] concatenates_S4x16x256x248_S4x16x256x8_S4x16x256x256_d3
/-- The second outlined function: the shift back. -/
def rollB (x : (⟨S4x16x256x256, .f32⟩ : BufTy).Contents (Elt F)) : (⟨S4x16x256x256, .f32⟩ : BufTy).Contents (Elt F) := rb_v19 x

/-! ## What each stretch leaves -/

section Stretch

variable (V : Valuation τ sig (Elt F))

theorem h0_v4 : after hostOps0 V (Proc.devRef .tc main_v4) = pre0 (V (Proc.devRef .tc main_arg0) : (⟨S4x64x256x256, .f32⟩ : BufTy).Contents (Elt F)) := by
  after_results_simp
  rfl

theorem h1_v8 : after hostOps1 V (Proc.devRef .tc main_v8) = post0 (V (Proc.devRef .tc main_v5) : (⟨S16384x4x64, .f32⟩ : BufTy).Contents (Elt F)) := by
  after_results_simp
  rfl

theorem h1_v9 : after hostOps1 V (Proc.devRef .tc main_v9)
    = extractStridedSlice S4x32x256x256 ![0, 32, 0, 0] (V (Proc.devRef .tc main_arg0) : (⟨S4x64x256x256, .f32⟩ : BufTy).Contents (Elt F)) slices_S4x64x256x256_S4x32x256x256_0_32_0_0 := by
  after_results_simp

theorem h11_v10 : after hostOps1_1 V (Proc.devRef .tc main_v10) = rollA (V (Proc.devRef .tc main_v9) : (⟨S4x32x256x256, .f32⟩ : BufTy).Contents (Elt F)) := by
  after_results
  rfl

theorem h12_v14 : after hostOps1_2 V (Proc.devRef .tc main_v14) = pre1 (V (Proc.devRef .tc main_v10) : (⟨S4x32x256x256, .f32⟩ : BufTy).Contents (Elt F)) := by
  after_results_simp
  rfl

theorem h2_v18 : after hostOps2 V (Proc.devRef .tc main_v18) = post1 (V (Proc.devRef .tc main_v15) : (⟨S4096x4x256, .f32⟩ : BufTy).Contents (Elt F)) := by
  after_results_simp
  rfl

theorem h21_v19 : after hostOps2_1 V (Proc.devRef .tc main_v19) = rollB (V (Proc.devRef .tc main_v18) : (⟨S4x16x256x256, .f32⟩ : BufTy).Contents (Elt F)) := by
  after_results
  rfl

theorem h22_v20 : after hostOps2_2 V (Proc.devRef .tc main_v20)
    = concatenate S4x32x256x256 1 [⟨S4x16x256x256, (V (Proc.devRef .tc main_v8) : (⟨S4x16x256x256, .f32⟩ : BufTy).Contents (Elt F))⟩, ⟨S4x16x256x256, (V (Proc.devRef .tc main_v19) : (⟨S4x16x256x256, .f32⟩ : BufTy).Contents (Elt F))⟩]
        concatenates_S4x16x256x256_S4x16x256x256_S4x32x256x256_d1 := by
  after_results_simp

end Stretch

/-! ## Along the program

The valuations the program passes through, from an arbitrary start `W0`, the two kernels' results `r0` and `r1` put in
their buffers where the kernels run. Buffers carried across a stretch are not written by it. -/

section Composed

variable (W0 : Valuation τ sig (Elt F)) (r0 : (⟨S16384x4x64, .f32⟩ : BufTy).Contents (Elt F)) (r1 : (⟨S4096x4x256, .f32⟩ : BufTy).Contents (Elt F))

/-- Before the first kernel. -/
abbrev W1 : Valuation τ sig (Elt F) := after hostOps0 W0
/-- The first kernel's result in place. -/
abbrev W2 : Valuation τ sig (Elt F) := Function.update (W1 W0) (Proc.devRef .tc main_v5) r0
abbrev W3 : Valuation τ sig (Elt F) := after hostOps1 (W2 W0 r0)
abbrev W4 : Valuation τ sig (Elt F) := after hostOps1_1 (W3 W0 r0)
/-- Before the second kernel. -/
abbrev W5 : Valuation τ sig (Elt F) := after hostOps1_2 (W4 W0 r0)
/-- The second kernel's result in place. -/
abbrev W6 : Valuation τ sig (Elt F) := Function.update (W5 W0 r0) (Proc.devRef .tc main_v15) r1
abbrev W7 : Valuation τ sig (Elt F) := after hostOps2 (W6 W0 r0 r1)
abbrev W8 : Valuation τ sig (Elt F) := after hostOps2_1 (W7 W0 r0 r1)
/-- At the end. -/
abbrev W9 : Valuation τ sig (Elt F) := after hostOps2_2 (W8 W0 r0 r1)

variable (V : Valuation τ sig (Elt F))

theorem f0_arg0 : after hostOps0 V (Proc.devRef .tc main_arg0) = V (Proc.devRef .tc main_arg0) := by after_results_simp
theorem f11_v8 : after hostOps1_1 V (Proc.devRef .tc main_v8) = V (Proc.devRef .tc main_v8) := by after_results_simp
theorem f12_v8 : after hostOps1_2 V (Proc.devRef .tc main_v8) = V (Proc.devRef .tc main_v8) := by after_results_simp
theorem f2_v8 : after hostOps2 V (Proc.devRef .tc main_v8) = V (Proc.devRef .tc main_v8) := by after_results_simp
theorem f21_v8 : after hostOps2_1 V (Proc.devRef .tc main_v8) = V (Proc.devRef .tc main_v8) := by after_results_simp

/-- The first kernel's operand. -/
theorem W1_v4 : W1 W0 (Proc.devRef .tc main_v4) = pre0 (W0 (Proc.devRef .tc main_arg0)) := h0_v4 W0

/-- The argument's buffer still holds the argument when the second half is cut from it. -/
theorem W2_arg0 : W2 W0 r0 (Proc.devRef .tc main_arg0) = W0 (Proc.devRef .tc main_arg0) := by
  show Function.update (W1 W0) (Proc.devRef .tc main_v5) r0 (Proc.devRef .tc main_arg0) = _
  rw [Function.update_of_ne (devRef_ne_of_ne (by decide) : (Proc.devRef .tc main_arg0 : DevRef τ sig) ≠ Proc.devRef .tc main_v5)]
  exact f0_arg0 W0

/-- The second kernel's operand. -/
theorem W5_v14 : W5 W0 r0 (Proc.devRef .tc main_v14)
    = pre1 (rollA (extractStridedSlice S4x32x256x256 ![0, 32, 0, 0] (W0 (Proc.devRef .tc main_arg0) : (⟨S4x64x256x256, .f32⟩ : BufTy).Contents (Elt F)) slices_S4x64x256x256_S4x32x256x256_0_32_0_0)) := by
  show after hostOps1_2 (after hostOps1_1 (after hostOps1 (W2 W0 r0))) (Proc.devRef .tc main_v14) = _
  rw [h12_v14, h11_v10, h1_v9, W2_arg0]

/-- The first half of the result, carried to the end. -/
theorem W8_v8 : W8 W0 r0 r1 (Proc.devRef .tc main_v8) = post0 r0 := by
  show after hostOps2_1 (after hostOps2 (Function.update (after hostOps1_2 (after hostOps1_1 (after hostOps1 (W2 W0 r0))))
    (Proc.devRef .tc main_v15) r1)) (Proc.devRef .tc main_v8) = _
  rw [f21_v8, f2_v8,
    Function.update_of_ne (devRef_ne_of_ne (by decide) : (Proc.devRef .tc main_v8 : DevRef τ sig) ≠ Proc.devRef .tc main_v15),
    f12_v8, f11_v8, h1_v8]
  show post0 (Function.update (W1 W0) (Proc.devRef .tc main_v5) r0 (Proc.devRef .tc main_v5)) = _
  rw [Function.update_self]

/-- The second half of the result. -/
theorem W8_v19 : W8 W0 r0 r1 (Proc.devRef .tc main_v19) = rollB (post1 r1) := by
  show after hostOps2_1 (after hostOps2 (Function.update (W5 W0 r0) (Proc.devRef .tc main_v15) r1)) (Proc.devRef .tc main_v19) = _
  rw [h21_v19, h2_v18, Function.update_self]

/-- The result: the first kernel's result laid back, beside the second's laid back and shifted back. -/
theorem W9_v20 : W9 W0 r0 r1 (Proc.devRef .tc main_v20)
    = concatenate S4x32x256x256 1 [⟨S4x16x256x256, post0 r0⟩, ⟨S4x16x256x256, rollB (post1 r1)⟩]
        concatenates_S4x16x256x256_S4x16x256x256_S4x32x256x256_d1 := by
  show after hostOps2_2 (W8 W0 r0 r1) (Proc.devRef .tc main_v20) = _
  rw [h22_v20, W8_v8, W8_v19]

end Composed

end Cert.KernelIdeal.Host

end
-- ==== Proof.LibIdxRank78.lean ====
/-
  Indices of rank 7 and rank 8 by their coordinates.

  An array that keeps batch, head, channel, window row, row inside the window, window column and column inside the
  window apart has rank 7; with a leading query/value axis, rank 8. `ix7` / `ix8` build such an index from its
  coordinates, `eq_ix7` / `eq_ix8` say every index of that rank is of this form (a coordinate of `ix7 …` computes by
  `rfl`), and `rowMajor_val_seven` / `rowMajor_val_eight` spell the row-major position of an index as one sum of
  products, which is what a reshape's position equation is stated in.
-/
import Idealize.ShloMosaic.Lib.ValueIdx

namespace Cert.Idx

open Idealize.ShloMosaic

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g
/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a; match a with | ⟨0, _⟩ => rfl | ⟨1, _⟩ => rfl | ⟨2, _⟩ => rfl | ⟨3, _⟩ => rfl | ⟨4, _⟩ => rfl | ⟨5, _⟩ => rfl | ⟨6, _⟩ => rfl

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h
/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

end Cert.Idx
-- ==== Proof.Spec.lean ====
/-
  Windowed self-attention, as one function of the input.

  Each window holds T tokens (T = 64 for the 8×8 windows, T = 256 for the 16×16 ones) and four channels per head. With
  `q c t` the query/key entry of channel `c` at token `t` and `v c s` the value entry, the window's result is

      out q v c t = ∑ s, v c s · p t s,   p t s = exp (S t s − M t) / ∑ s', exp (S t s' − M t),
      S t s = ∑ c, q c t · q c s,        M t = max over s of S t s (the fold of max from −∞),

  on the extended reals: no scaling of the scores, the row maximum subtracted before the exponential, the exact
  quotient. Both programs compute this per window; they differ only in how the windows are laid out in memory.

  Two layouts of the same function are named here. `region0` / `region1` read the window's rows from a tensor
  `tt[a, n, c, t]` (a = 0 queries, a = 1 values; n the window's number). `y7_0` / `y7_1` read them from the input cut into
  windows, `X[b, a, h, c, i, p, j, q]` (batch, query/value, head, channel, window row, row inside, window column, column
  inside), token (p, q) numbered p · w + q for window width w, and give the result at (b, h, c, i, p, j, q).
-/
import Idealize.ShloMosaic.PureOps.Ideal
import Idealize.ShloMosaic.Lib.ValueIdx
import proofs.«107732_j64072322122319_2_alg».proof.Proof.LibIdxRank78

noncomputable section

namespace Cert.WinAttn

open Idealize.ShloMosaic Idealize.ShloMosaic.ValueIdx Cert.Idx

section Window

variable {T : Nat}

/-- The score of token `s` for token `t`: the inner product of their query rows over the four channels. -/
def score (q : Fin 4 → Fin T → EReal) (t s : Fin T) : EReal := ∑ c : Fin 4, q c t * q c s
/-- The largest score of row `t`: the fold of `max` over the tokens from −∞. -/
def rowMax (q : Fin 4 → Fin T → EReal) (t : Fin T) : EReal :=
  (Finset.univ : Finset (Fin T)).fold max (Ideal.ofBits .f32 0xFF800000#32) (fun s => score q t s)
/-- The unnormalised weight: the exponential of the score less the row's maximum. -/
def weight (q : Fin 4 → Fin T → EReal) (t s : Fin T) : EReal := Ideal.exp (score q t s - rowMax q t)
/-- The row's normaliser. -/
def norm (q : Fin 4 → Fin T → EReal) (t : Fin T) : EReal := ∑ s : Fin T, weight q t s
/-- The attention weight of token `s` for token `t`. -/
def prob (q : Fin 4 → Fin T → EReal) (t s : Fin T) : EReal := Ideal.div (weight q t s) (norm q t)
/-- The window's result at channel `c`, token `t`: the values averaged by the attention weights. -/
def out (q v : Fin 4 → Fin T → EReal) (c : Fin 4) (t : Fin T) : EReal := ∑ s : Fin T, v c s * prob q t s

end Window

/-! ## From the staged tensor `tt[a, n, c, t]` -/

/-- 8×8 windows: window `n` of 16384, channel `c`, token `t` of 64. -/
def region0 (tt : (⟨4, ![2, 16384, 4, 64]⟩ : Shape).Idx → EReal) (n : Fin 16384) (c : Fin 4) (t : Fin 64) : EReal :=
  out (fun c' t' => tt (ix4 (0 : Fin 2) n c' t')) (fun c' s => tt (ix4 (1 : Fin 2) n c' s)) c t
/-- 16×16 windows: window `n` of 4096, channel `c`, token `t` of 256. -/
def region1 (tt : (⟨4, ![2, 4096, 4, 256]⟩ : Shape).Idx → EReal) (n : Fin 4096) (c : Fin 4) (t : Fin 256) : EReal :=
  out (fun c' t' => tt (ix4 (0 : Fin 2) n c' t')) (fun c' s => tt (ix4 (1 : Fin 2) n c' s)) c t

/-! ## From the input cut into windows, `X[b, a, h, c, i, p, j, q]` -/

/-- Token `t` of an 8×8 window is row `t / 8`, column `t % 8`. -/
def row8 (t : Fin 64) : Fin 8 := ⟨t.val / 8, by omega⟩
def col8 (t : Fin 64) : Fin 8 := ⟨t.val % 8, by omega⟩
def tok8 (p q : Fin 8) : Fin 64 := ⟨p.val * 8 + q.val, by omega⟩
/-- Token `t` of a 16×16 window is row `t / 16`, column `t % 16`. -/
def row16 (t : Fin 256) : Fin 16 := ⟨t.val / 16, by omega⟩
def col16 (t : Fin 256) : Fin 16 := ⟨t.val % 16, by omega⟩
def tok16 (p q : Fin 16) : Fin 256 := ⟨p.val * 16 + q.val, by omega⟩

/-- 8×8 windows, 32 × 32 of them per image and head. -/
def y7_0 (X : (⟨8, ![4, 2, 4, 4, 32, 8, 32, 8]⟩ : Shape).Idx → EReal)
    (b : Fin 4) (h : Fin 4) (c : Fin 4) (i : Fin 32) (p : Fin 8) (j : Fin 32) (q : Fin 8) : EReal :=
  out (fun c' t => X (ix8 b (0 : Fin 2) h c' i (row8 t) j (col8 t)))
    (fun c' s => X (ix8 b (1 : Fin 2) h c' i (row8 s) j (col8 s))) c (tok8 p q)
/-- 16×16 windows, 16 × 16 of them per image and head. -/
def y7_1 (X : (⟨8, ![4, 2, 4, 4, 16, 16, 16, 16]⟩ : Shape).Idx → EReal)
    (b : Fin 4) (h : Fin 4) (c : Fin 4) (i : Fin 16) (p : Fin 16) (j : Fin 16) (q : Fin 16) : EReal :=
  out (fun c' t => X (ix8 b (0 : Fin 2) h c' i (row16 t) j (col16 t)))
    (fun c' s => X (ix8 b (1 : Fin 2) h c' i (row16 s) j (col16 s))) c (tok16 p q)

end Cert.WinAttn

end
-- ==== Proof.KPay.lean ====
/-
  The kernel bodies' stored value, read at an index.

  Each kernel body holds a block of windows. Per window n it forms the scores S[n, t, s] = ∑ c, q[n, c, t] · q[n, c, s]
  (a batched product contracting the channel axis), the row maxima M[n, t] (a reduction of the last axis from −∞, kept as
  a column and broadcast back along the row), the weights exp (S − M), the row sums Z[n, t] (again kept as a column and
  broadcast back), the quotient, and the second batched product out[n, c, t] = ∑ s, v[n, c, s] · p[n, t, s]. Read at the
  index (n, c, t) that is the window function of the specification, applied to window n's rows of the two loaded blocks.

  Every step is stated once for any number of windows N and any number of tokens T, with indices written by their
  coordinates; the two kernels are the instances (N, T) = (128, 64) and (32, 256).
-/
import Idealize.ShloMosaic.PureOps.Ideal.Laws
import Idealize.ShloMosaic.Lib.ValueLayout
import proofs.«107732_j64072322122319_2_alg».proof.Proof.Gen.KernelIdeal.Skeleton
import proofs.«107732_j64072322122319_2_alg».proof.Proof.Spec

noncomputable section

namespace Cert.KernelIdeal.Pay

open Cert.KernelIdeal Idealize.ShloMosaic Idealize.ShloMosaic.ValueIdx Cert.Idx

/-! ## The non-pointwise operations at an index, for any extents -/

section Generic

variable {N C T : Nat}

/-- The first product: both operands [N, C, T], the channel axis contracted, the window axis batched. At (n, t, s) it is
    the sum over the channels of the products of the two operands' entries at tokens t and s. -/
theorem matmul_scores_apply {φ₁ φ₂ : FTy}
    (w : DotDims.WF ⟨3, ![N, C, T]⟩ ⟨3, ![N, C, T]⟩ ⟨3, ![N, T, T]⟩ [1] [1] [2] [2] [0] [0])
    (prec : Option ContractPrecision) (A : FVec Ideal ⟨3, ![N, C, T]⟩ φ₁) (B : FVec Ideal ⟨3, ![N, C, T]⟩ φ₂)
    (n : Fin N) (t s : Fin T) :
    matmul (⟨[1], [1], [2], [2], [0], [0], w⟩ : DotDims _ _ _) prec A B
        (constant (F := Ideal) ⟨3, ![N, T, T]⟩ .f32 0x00000000#32) (ix3 n t s)
      = ∑ c : Fin C, A (ix3 n c t) * B (ix3 n c s) := by
  show FloatOps.matmul _ prec A B _ (ix3 n t s) = _
  rw [Ideal.matmul_constant_zero_apply,
    ← Equiv.sum_comp (contrEquiv1 (⟨[1], [1], [2], [2], [0], [0], w⟩ : DotDims _ _ _) C rfl rfl).symm]
  refine Finset.sum_congr rfl fun c _ => ?_
  have c3 := contrEquiv1_symm_val
    (⟨[1], [1], [2], [2], [0], [0], w⟩ : DotDims ⟨3, ![N, C, T]⟩ ⟨3, ![N, C, T]⟩ ⟨3, ![N, T, T]⟩) C rfl rfl c
  have l3 : (⟨[1], [1], [2], [2], [0], [0], w⟩ : DotDims ⟨3, ![N, C, T]⟩ ⟨3, ![N, C, T]⟩ ⟨3, ![N, T, T]⟩).lhsIdx (ix3 n t s)
      ((contrEquiv1 _ C rfl rfl).symm c) = ix3 n c t := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![N, C, T]⟩ ⟨3, ![N, C, T]⟩ ⟨3, ![N, T, T]⟩).rhsIdx (ix3 n t s)
      ((contrEquiv1 _ C rfl rfl).symm c) = ix3 n c s := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- The second product: the values [N, C, T] against the weights [N, T, T], both contracting their last axis, the window
    axis batched. At (n, c, t) it is the sum over the tokens s of value (n, c, s) times weight (n, t, s). -/
theorem matmul_values_apply {φ₁ φ₂ : FTy}
    (w : DotDims.WF ⟨3, ![N, C, T]⟩ ⟨3, ![N, T, T]⟩ ⟨3, ![N, C, T]⟩ [2] [2] [1] [1] [0] [0])
    (prec : Option ContractPrecision) (V : FVec Ideal ⟨3, ![N, C, T]⟩ φ₁) (P : FVec Ideal ⟨3, ![N, T, T]⟩ φ₂)
    (n : Fin N) (c : Fin C) (t : Fin T) :
    matmul (⟨[2], [2], [1], [1], [0], [0], w⟩ : DotDims _ _ _) prec V P
        (constant (F := Ideal) ⟨3, ![N, C, T]⟩ .f32 0x00000000#32) (ix3 n c t)
      = ∑ s : Fin T, V (ix3 n c s) * P (ix3 n t s) := by
  show FloatOps.matmul _ prec V P _ (ix3 n c t) = _
  rw [Ideal.matmul_constant_zero_apply,
    ← Equiv.sum_comp (contrEquiv1 (⟨[2], [2], [1], [1], [0], [0], w⟩ : DotDims _ _ _) T rfl rfl).symm]
  refine Finset.sum_congr rfl fun s _ => ?_
  have c3 := contrEquiv1_symm_val
    (⟨[2], [2], [1], [1], [0], [0], w⟩ : DotDims ⟨3, ![N, C, T]⟩ ⟨3, ![N, T, T]⟩ ⟨3, ![N, C, T]⟩) T rfl rfl s
  have l3 : (⟨[2], [2], [1], [1], [0], [0], w⟩ : DotDims ⟨3, ![N, C, T]⟩ ⟨3, ![N, T, T]⟩ ⟨3, ![N, C, T]⟩).lhsIdx (ix3 n c t)
      ((contrEquiv1 _ T rfl rfl).symm s) = ix3 n c s := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![N, C, T]⟩ ⟨3, ![N, T, T]⟩ ⟨3, ![N, C, T]⟩).rhsIdx (ix3 n c t)
      ((contrEquiv1 _ T rfl rfl).symm s) = ix3 n t s := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The source index of a reduction of the last axis: over the result index (n, t), coordinate k is (n, t, k). -/
theorem lift_last {S : Nat} (h : (⟨3, ![N, T, S]⟩ : Shape).Reduces [2] ⟨2, ![N, T]⟩) (n : Fin N) (t : Fin T) (k : Fin S) :
    h.lift (ix2 n t) k = ix3 n t k := by
  funext ax; apply Fin.ext
  match ax with
  | ⟨0, _⟩ => rfl
  | ⟨1, _⟩ => rfl
  | ⟨2, _⟩ => rfl

/-- A row's maximum: the reduction of the last axis by the maximum, at (n, t), is the fold of the maximum from the
    accumulator's value over the row's entries. -/
theorem rowMax_apply {S : Nat} {φ : FTy} (src : FVec Ideal ⟨3, ![N, T, S]⟩ φ) (acc : BitVec φ.bits)
    (h : (⟨3, ![N, T, S]⟩ : Shape).Reduces [2] ⟨2, ![N, T]⟩) (hφ : FKind.Formats φ)
    (hacc : acc = FKind.maximumf.neutral φ hφ) (n : Fin N) (t : Fin T) :
    multiReduction (F := Ideal) .maximumf [2] ⟨2, ![N, T]⟩ src acc h hφ hacc (ix2 n t)
      = (Finset.univ : Finset (Fin S)).fold max (Ideal.ofBits φ acc) (fun s => src (ix3 n t s)) := by
  refine (Ideal.multiReduction_maximumf_single src acc h hφ hacc (ix2 n t)).trans ?_
  have e : (src ∘ h.lift (ix2 n t)) = fun s : Fin S => src (ix3 n t s) :=
    funext fun s => congrArg src (lift_last h n t s)
  exact congrArg (fun f => Finset.fold max (Ideal.ofBits φ acc) f (Finset.univ : Finset (Fin S))) e

/-- A row's sum: the reduction of the last axis by addition, at (n, t), is the sum of the row's entries. -/
theorem rowSum_apply {S : Nat} {φ : FTy} (src : FVec Ideal ⟨3, ![N, T, S]⟩ φ) (acc : BitVec φ.bits)
    (h : (⟨3, ![N, T, S]⟩ : Shape).Reduces [2] ⟨2, ![N, T]⟩) (hφ : FKind.Formats φ)
    (hacc : acc = FKind.add.neutral φ hφ) (n : Fin N) (t : Fin T) :
    multiReduction (F := Ideal) .add [2] ⟨2, ![N, T]⟩ src acc h hφ hacc (ix2 n t) = ∑ s : Fin S, src (ix3 n t s) := by
  refine (Ideal.multiReduction_add_single src acc h hφ hacc (ix2 n t)).trans ?_
  exact Finset.sum_congr rfl fun s _ => congrArg src (lift_last h n t s)

/-- An [a, b] array cast to [a, b, 1] (a reduced axis kept as a unit axis) reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] (a column repeated along the row) reads, at (i, j, k), the operand's one
    entry of row (i, j). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Generic

/-! ## One body, stage by stage, for any number of windows and tokens

The stages are written out over the two loaded blocks. Window n's query rows are (c, t) ↦ v0 (0, n, c, t), its value rows
(c, s) ↦ v2 (0, n, c, s). -/

section Body

set_option quotPrecheck false

variable {N T : Nat}
  (hc1 : (⟨4, ![1, N, 4, T]⟩ : Shape).ShapeCasts ⟨3, ![N, 4, T]⟩)
  (w1 : DotDims.WF ⟨3, ![N, 4, T]⟩ ⟨3, ![N, 4, T]⟩ ⟨3, ![N, T, T]⟩ [1] [1] [2] [2] [0] [0])
  (hred : (⟨3, ![N, T, T]⟩ : Shape).Reduces [2] ⟨2, ![N, T]⟩)
  (hc2 : (⟨2, ![N, T]⟩ : Shape).ShapeCasts ⟨3, ![N, T, 1]⟩)
  (hb : (⟨3, ![N, T, 1]⟩ : Shape).Broadcasts ⟨3, ![N, T, T]⟩)
  (hlt : FTy.bits .bf16 < FTy.bits .f32)
  (w2 : DotDims.WF ⟨3, ![N, 4, T]⟩ ⟨3, ![N, T, T]⟩ ⟨3, ![N, 4, T]⟩ [2] [2] [1] [1] [0] [0])
  (hφ : FKind.Formats .f32)
  (hmax : (0xFF800000#32 : BitVec 32) = FKind.maximumf.neutral .f32 hφ)
  (hadd : (0x00000000#32 : BitVec 32) = FKind.add.neutral .f32 hφ)
  (v0 v2 : FVec Ideal ⟨4, ![1, N, 4, T]⟩ .bf16)

/-- The queries without the leading unit axis. -/
local notation "stQ" => shapeCast ⟨3, ![N, 4, T]⟩ v0 hc1
/-- The values without the leading unit axis. -/
local notation "stV" => shapeCast ⟨3, ![N, 4, T]⟩ v2 hc1
/-- The scores. -/
local notation "stS" =>
  matmul (F := Ideal) (⟨[1], [1], [2], [2], [0], [0], w1⟩ : DotDims ⟨3, ![N, 4, T]⟩ ⟨3, ![N, 4, T]⟩ ⟨3, ![N, T, T]⟩) none
    stQ stQ (constant (F := Ideal) ⟨3, ![N, T, T]⟩ .f32 0x00000000#32)
/-- The row maxima. -/
local notation "stM" => multiReduction (F := Ideal) .maximumf [2] ⟨2, ![N, T]⟩ stS 0xFF800000#32 hred hφ hmax
/-- The row maxima along the rows. -/
local notation "stMc" => broadcastTo ⟨3, ![N, T, T]⟩ (shapeCast ⟨3, ![N, T, 1]⟩ stM hc2) hb
/-- The weights. -/
local notation "stE" => exp (F := Ideal) (subf (F := Ideal) stS stMc)
/-- The row sums. -/
local notation "stZ" => multiReduction (F := Ideal) .add [2] ⟨2, ![N, T]⟩ stE 0x00000000#32 hred hφ hadd
/-- The row sums along the rows. -/
local notation "stZc" => broadcastTo ⟨3, ![N, T, T]⟩ (shapeCast ⟨3, ![N, T, 1]⟩ stZ hc2) hb
/-- The attention weights. -/
local notation "stP" => truncf (F := Ideal) .bf16 (divf (F := Ideal) stE stZc) hlt
/-- The result. -/
local notation "stO" =>
  matmul (F := Ideal) (⟨[2], [2], [1], [1], [0], [0], w2⟩ : DotDims ⟨3, ![N, 4, T]⟩ ⟨3, ![N, T, T]⟩ ⟨3, ![N, 4, T]⟩) none
    stV stP (constant (F := Ideal) ⟨3, ![N, 4, T]⟩ .f32 0x00000000#32)

theorem queries_apply (n : Fin N) (c : Fin 4) (t : Fin T) : stQ (ix3 n c t) = v0 (ix4 (0 : Fin 1) n c t) :=
  shapeCast_1abc_abc_apply v0 hc1 n c t

theorem values_apply (n : Fin N) (c : Fin 4) (s : Fin T) : stV (ix3 n c s) = v2 (ix4 (0 : Fin 1) n c s) :=
  shapeCast_1abc_abc_apply v2 hc1 n c s

theorem scores_apply (n : Fin N) (t s : Fin T) :
    stS (ix3 n t s) = Cert.WinAttn.score (fun c' t' => v0 (ix4 (0 : Fin 1) n c' t')) t s :=
  (matmul_scores_apply w1 none stQ stQ n t s).trans
    (Finset.sum_congr rfl fun c _ => congrArg₂ (· * ·) (queries_apply hc1 v0 n c t) (queries_apply hc1 v0 n c s))

theorem rowMax_eq (n : Fin N) (t : Fin T) :
    stM (ix2 n t) = Cert.WinAttn.rowMax (fun c' t' => v0 (ix4 (0 : Fin 1) n c' t')) t :=
  (rowMax_apply stS 0xFF800000#32 hred hφ hmax n t).trans
    (congrArg (fun f => Finset.fold max (Ideal.ofBits .f32 0xFF800000#32) f (Finset.univ : Finset (Fin T)))
      (funext fun s => scores_apply hc1 w1 v0 n t s))

theorem rowMaxCol_apply (n : Fin N) (t s : Fin T) :
    stMc (ix3 n t s) = Cert.WinAttn.rowMax (fun c' t' => v0 (ix4 (0 : Fin 1) n c' t')) t :=
  (broadcastTo_ab1_abc_apply _ hb n t s).trans
    ((shapeCast_ab_ab1_apply _ hc2 n t (0 : Fin 1)).trans (rowMax_eq hc1 w1 hred hφ hmax v0 n t))

theorem weights_apply (n : Fin N) (t s : Fin T) :
    stE (ix3 n t s) = Cert.WinAttn.weight (fun c' t' => v0 (ix4 (0 : Fin 1) n c' t')) t s :=
  congrArg₂ (fun a b : EReal => Ideal.exp (a - b)) (scores_apply hc1 w1 v0 n t s)
    (rowMaxCol_apply hc1 w1 hred hc2 hb hφ hmax v0 n t s)

theorem norm_eq (n : Fin N) (t : Fin T) :
    stZ (ix2 n t) = Cert.WinAttn.norm (fun c' t' => v0 (ix4 (0 : Fin 1) n c' t')) t :=
  (rowSum_apply stE 0x00000000#32 hred hφ hadd n t).trans
    (Finset.sum_congr rfl fun s _ => weights_apply hc1 w1 hred hc2 hb hφ hmax v0 n t s)

theorem normCol_apply (n : Fin N) (t s : Fin T) :
    stZc (ix3 n t s) = Cert.WinAttn.norm (fun c' t' => v0 (ix4 (0 : Fin 1) n c' t')) t :=
  (broadcastTo_ab1_abc_apply _ hb n t s).trans
    ((shapeCast_ab_ab1_apply _ hc2 n t (0 : Fin 1)).trans (norm_eq hc1 w1 hred hc2 hb hφ hmax hadd v0 n t))

theorem probs_apply (n : Fin N) (t s : Fin T) :
    stP (ix3 n t s) = Cert.WinAttn.prob (fun c' t' => v0 (ix4 (0 : Fin 1) n c' t')) t s :=
  congrArg₂ Ideal.div (weights_apply hc1 w1 hred hc2 hb hφ hmax v0 n t s)
    (normCol_apply hc1 w1 hred hc2 hb hφ hmax hadd v0 n t s)

/-- The body's stored value at (n, c, t) is the window function of window n's rows. -/
theorem body_apply (n : Fin N) (c : Fin 4) (t : Fin T) :
    stO (ix3 n c t)
      = Cert.WinAttn.out (fun c' t' => v0 (ix4 (0 : Fin 1) n c' t')) (fun c' s => v2 (ix4 (0 : Fin 1) n c' s)) c t :=
  (matmul_values_apply w2 none stV stP n c t).trans
    (Finset.sum_congr rfl fun s _ => congrArg₂ (· * ·) (values_apply hc1 v2 n c s)
      (probs_apply hc1 w1 hred hc2 hb hlt hφ hmax hadd v0 n t s))

end Body

/-! ## The two kernels -/

section Kernels

variable [Cert.KernelIdeal.Facts]

open Cert.KernelIdeal.Facts₀

/-- The first kernel's stored value (8×8 windows: 64 tokens, 128 windows per block) at (n, c, t). -/
theorem pay0_apply (v0 v2 : Vec Ideal S1x128x4x64 .bf16) (n : Fin 128) (c : Fin 4) (t : Fin 64) :
    Gen.k0_pay1 (F := Ideal) v0 v2 (ix3 n c t)
      = Cert.WinAttn.out (fun c' t' => v0 (ix4 (0 : Fin 1) n c' t')) (fun c' s => v2 (ix4 (0 : Fin 1) n c' s)) c t := by
  unfold Gen.k0_pay1
  exact body_apply shapeCasts_S1x128x4x64_S128x4x64 dot_S128x4x64_S128x4x64_S128x64x64_1_1_2_2_0_0_wf
    reduces_S128x64x64_S128x64 shapeCasts_S128x64_S128x64x1 broadcasts_S128x64x1_S128x64x64 bitsLt_bf16_f32
    dot_S128x4x64_S128x64x64_S128x4x64_2_2_1_1_0_0_wf (.inl rfl) rfl rfl v0 v2 n c t

/-- The second kernel's stored value (16×16 windows: 256 tokens, 32 windows per block) at (n, c, t). -/
theorem pay1_apply (v0 v2 : Vec Ideal S1x32x4x256 .bf16) (n : Fin 32) (c : Fin 4) (t : Fin 256) :
    Gen.k1_pay1 (F := Ideal) v0 v2 (ix3 n c t)
      = Cert.WinAttn.out (fun c' t' => v0 (ix4 (0 : Fin 1) n c' t')) (fun c' s => v2 (ix4 (0 : Fin 1) n c' s)) c t := by
  unfold Gen.k1_pay1
  exact body_apply shapeCasts_S1x32x4x256_S32x4x256 dot_S32x4x256_S32x4x256_S32x256x256_1_1_2_2_0_0_wf
    reduces_S32x256x256_S32x256 shapeCasts_S32x256_S32x256x1 broadcasts_S32x256x1_S32x256x256 bitsLt_bf16_f32
    dot_S32x4x256_S32x256x256_S32x4x256_2_2_1_1_0_0_wf (.inl rfl) rfl rfl v0 v2 n c t

end Kernels

end Cert.KernelIdeal.Pay

end
-- ==== Proof.KChain.lean ====
/-
  The host operations around each kernel call, in window coordinates.

  The input X[b, a, h, c, i, p, j, q] (batch, query/value, head, channel, window row, row inside, window column, column
  inside) is transposed to [a, b, h, i, j, c, p, q] and flattened to the staged tensor tt[a, n, c, t] with window number
  n = ((b · 4 + h) · W + i) · W + j (W windows per side) and token t = p · w + q (window width w). The call's result
  R[n, c, t] is cut back to [b, h, i, j, c, p, q] and transposed to [b, h, c, i, p, j, q]. So if R holds, per window, the
  window function of the staged tensor's rows, the final array holds at (b, h, c, i, p, j, q) the window function of the
  input's rows of window (b, h, i, j), at token (p, q).
-/
import Idealize.ShloMosaic.PureOps.Ideal
import Idealize.ShloMosaic.Lib.ValueLayout
import proofs.«107732_j64072322122319_2_alg».proof.KernelIdeal
import proofs.«107732_j64072322122319_2_alg».proof.Proof.Spec

noncomputable section

namespace Cert.KernelIdeal.Chain

open Cert.KernelIdeal Idealize.ShloMosaic Idealize.ShloMosaic.ValueIdx Cert.Idx Cert.WinAttn

variable [Cert.KernelIdeal.Facts]

open Cert.KernelIdeal.Facts₀

/-! ## 8×8 windows, 32 × 32 of them per image and head -/

/-- The number of window (b, h, i, j). -/
def win0 (b h : Fin 4) (i j : Fin 32) : Fin 16384 := ⟨((b.val * 4 + h.val) * 32 + i.val) * 32 + j.val, by omega⟩

/-- The staged tensor at (a, window (b, h, i, j), c, t) is the input at (b, a, h, c, i, row of t, j, column of t). -/
theorem staged0_apply (X : FVec Ideal S4x2x4x4x32x8x32x8 .f32) (a : Fin 2) (b h : Fin 4) (i j : Fin 32) (c : Fin 4)
    (t : Fin 64) :
    truncf (F := Ideal) .bf16 (shapeCast S2x16384x4x64 (transpose S2x4x4x32x32x4x8x8 [1, 0, 2, 4, 6, 3, 5, 7] X
        transposes_S4x2x4x4x32x8x32x8_S2x4x4x32x32x4x8x8_1_0_2_4_6_3_5_7) shapeCasts_S2x4x4x32x32x4x8x8_S2x16384x4x64)
        bitsLt_bf16_f32 (ix4 a (win0 b h i j) c t)
      = X (ix8 b a h c i (row8 t) j (col8 t)) := by
  refine (truncf_apply (φ := .f32) (ψ := .bf16) _ bitsLt_bf16_f32 _).trans ?_
  refine (shapeCast_apply _ shapeCasts_S2x4x4x32x32x4x8x8_S2x16384x4x64 (ix4 a (win0 b h i j) c t)
    (ix8 a b h i j c (row8 t) (col8 t)) ?_).trans ?_
  · rw [rowMajor_val_eight, Shape.rowMajor_val_four]
    show ((((((a.val * 4 + b.val) * 4 + h.val) * 32 + i.val) * 32 + j.val) * 4 + c.val) * 8 + t.val / 8) * 8 + t.val % 8
      = ((a.val * 16384 + (((b.val * 4 + h.val) * 32 + i.val) * 32 + j.val)) * 4 + c.val) * 64 + t.val
    omega
  · exact transpose_apply _ X transposes_S4x2x4x4x32x8x32x8_S2x4x4x32x32x4x8x8_1_0_2_4_6_3_5_7
      (ix8 a b h i j c (row8 t) (col8 t)) (ix8 b a h c i (row8 t) j (col8 t)) fun r =>
      match r with
      | ⟨0, _⟩ => rfl | ⟨1, _⟩ => rfl | ⟨2, _⟩ => rfl | ⟨3, _⟩ => rfl
      | ⟨4, _⟩ => rfl | ⟨5, _⟩ => rfl | ⟨6, _⟩ => rfl | ⟨7, _⟩ => rfl

/-- The result array, cut back into windows and transposed, at (b, h, c, i, p, j, q) is the call's result at
    (window (b, h, i, j), c, token (p, q)). -/
theorem unstaged0_apply {α : Type} (R : S16384x4x64.Idx → α) (b h c : Fin 4) (i : Fin 32) (p : Fin 8) (j : Fin 32)
    (q : Fin 8) :
    transpose S4x4x4x32x8x32x8 [0, 1, 4, 2, 5, 3, 6] (shapeCast S4x4x32x32x4x8x8 R shapeCasts_S16384x4x64_S4x4x32x32x4x8x8)
        transposes_S4x4x32x32x4x8x8_S4x4x4x32x8x32x8_0_1_4_2_5_3_6 (ix7 b h c i p j q)
      = R (ix3 (win0 b h i j) c (tok8 p q)) := by
  refine (transpose_apply _ _ transposes_S4x4x32x32x4x8x8_S4x4x4x32x8x32x8_0_1_4_2_5_3_6 (ix7 b h c i p j q)
    (ix7 b h i j c p q) fun r =>
      match r with
      | ⟨0, _⟩ => rfl | ⟨1, _⟩ => rfl | ⟨2, _⟩ => rfl | ⟨3, _⟩ => rfl
      | ⟨4, _⟩ => rfl | ⟨5, _⟩ => rfl | ⟨6, _⟩ => rfl).trans ?_
  refine shapeCast_apply R shapeCasts_S16384x4x64_S4x4x32x32x4x8x8 (ix7 b h i j c p q)
    (ix3 (win0 b h i j) c (tok8 p q)) ?_
  rw [rowMajor_val_seven, Shape.rowMajor_val_three]
  show ((((b.val * 4 + h.val) * 32 + i.val) * 32 + j.val) * 4 + c.val) * 64 + (p.val * 8 + q.val)
    = (((((b.val * 4 + h.val) * 32 + i.val) * 32 + j.val) * 4 + c.val) * 8 + p.val) * 8 + q.val
  omega

/-- The call in window coordinates: if the call's result is, per window, the window function of the staged tensor's
    rows, then the final array at (b, h, c, i, p, j, q) is the window function of the input's rows of window
    (b, h, i, j) at channel c, token (p, q). -/
theorem chain0 (X : FVec Ideal S4x2x4x4x32x8x32x8 .f32) (R : FVec Ideal S16384x4x64 .f32)
    (hR : ∀ (n : Fin 16384) (c : Fin 4) (t : Fin 64), R (ix3 n c t) = Cert.WinAttn.region0
        (truncf .bf16 (shapeCast S2x16384x4x64 (transpose S2x4x4x32x32x4x8x8 [1, 0, 2, 4, 6, 3, 5, 7] X
          transposes_S4x2x4x4x32x8x32x8_S2x4x4x32x32x4x8x8_1_0_2_4_6_3_5_7) shapeCasts_S2x4x4x32x32x4x8x8_S2x16384x4x64)
          bitsLt_bf16_f32) n c t)
    (b h c : Fin 4) (i : Fin 32) (p : Fin 8) (j : Fin 32) (q : Fin 8) :
    transpose S4x4x4x32x8x32x8 [0, 1, 4, 2, 5, 3, 6] (shapeCast S4x4x32x32x4x8x8 R shapeCasts_S16384x4x64_S4x4x32x32x4x8x8)
        transposes_S4x4x32x32x4x8x8_S4x4x4x32x8x32x8_0_1_4_2_5_3_6 (ix7 b h c i p j q)
      = Cert.WinAttn.y7_0 X b h c i p j q := by
  refine (unstaged0_apply R b h c i p j q).trans ((hR (win0 b h i j) c (tok8 p q)).trans ?_)
  unfold Cert.WinAttn.region0 Cert.WinAttn.y7_0
  exact congrArg₂ (fun qf vf => Cert.WinAttn.out qf vf c (tok8 p q))
    (funext fun c' => funext fun t' => staged0_apply X (0 : Fin 2) b h i j c' t')
    (funext fun c' => funext fun s => staged0_apply X (1 : Fin 2) b h i j c' s)

/-! ## 16×16 windows, 16 × 16 of them per image and head -/

/-- The number of window (b, h, i, j). -/
def win1 (b h : Fin 4) (i j : Fin 16) : Fin 4096 := ⟨((b.val * 4 + h.val) * 16 + i.val) * 16 + j.val, by omega⟩

/-- The staged tensor at (a, window (b, h, i, j), c, t) is the input at (b, a, h, c, i, row of t, j, column of t). -/
theorem staged1_apply (X : FVec Ideal S4x2x4x4x16x16x16x16 .f32) (a : Fin 2) (b h : Fin 4) (i j : Fin 16) (c : Fin 4)
    (t : Fin 256) :
    truncf (F := Ideal) .bf16 (shapeCast S2x4096x4x256 (transpose S2x4x4x16x16x4x16x16 [1, 0, 2, 4, 6, 3, 5, 7] X
        transposes_S4x2x4x4x16x16x16x16_S2x4x4x16x16x4x16x16_1_0_2_4_6_3_5_7) shapeCasts_S2x4x4x16x16x4x16x16_S2x4096x4x256)
        bitsLt_bf16_f32 (ix4 a (win1 b h i j) c t)
      = X (ix8 b a h c i (row16 t) j (col16 t)) := by
  refine (truncf_apply (φ := .f32) (ψ := .bf16) _ bitsLt_bf16_f32 _).trans ?_
  refine (shapeCast_apply _ shapeCasts_S2x4x4x16x16x4x16x16_S2x4096x4x256 (ix4 a (win1 b h i j) c t)
    (ix8 a b h i j c (row16 t) (col16 t)) ?_).trans ?_
  · rw [rowMajor_val_eight, Shape.rowMajor_val_four]
    show ((((((a.val * 4 + b.val) * 4 + h.val) * 16 + i.val) * 16 + j.val) * 4 + c.val) * 16 + t.val / 16) * 16 + t.val % 16
      = ((a.val * 4096 + (((b.val * 4 + h.val) * 16 + i.val) * 16 + j.val)) * 4 + c.val) * 256 + t.val
    omega
  · exact transpose_apply _ X transposes_S4x2x4x4x16x16x16x16_S2x4x4x16x16x4x16x16_1_0_2_4_6_3_5_7
      (ix8 a b h i j c (row16 t) (col16 t)) (ix8 b a h c i (row16 t) j (col16 t)) fun r =>
      match r with
      | ⟨0, _⟩ => rfl | ⟨1, _⟩ => rfl | ⟨2, _⟩ => rfl | ⟨3, _⟩ => rfl
      | ⟨4, _⟩ => rfl | ⟨5, _⟩ => rfl | ⟨6, _⟩ => rfl | ⟨7, _⟩ => rfl

/-- The result array, cut back into windows and transposed, at (b, h, c, i, p, j, q) is the call's result at
    (window (b, h, i, j), c, token (p, q)). -/
theorem unstaged1_apply {α : Type} (R : S4096x4x256.Idx → α) (b h c : Fin 4) (i : Fin 16) (p : Fin 16) (j : Fin 16)
    (q : Fin 16) :
    transpose S4x4x4x16x16x16x16 [0, 1, 4, 2, 5, 3, 6] (shapeCast S4x4x16x16x4x16x16 R shapeCasts_S4096x4x256_S4x4x16x16x4x16x16)
        transposes_S4x4x16x16x4x16x16_S4x4x4x16x16x16x16_0_1_4_2_5_3_6 (ix7 b h c i p j q)
      = R (ix3 (win1 b h i j) c (tok16 p q)) := by
  refine (transpose_apply _ _ transposes_S4x4x16x16x4x16x16_S4x4x4x16x16x16x16_0_1_4_2_5_3_6 (ix7 b h c i p j q)
    (ix7 b h i j c p q) fun r =>
      match r with
      | ⟨0, _⟩ => rfl | ⟨1, _⟩ => rfl | ⟨2, _⟩ => rfl | ⟨3, _⟩ => rfl
      | ⟨4, _⟩ => rfl | ⟨5, _⟩ => rfl | ⟨6, _⟩ => rfl).trans ?_
  refine shapeCast_apply R shapeCasts_S4096x4x256_S4x4x16x16x4x16x16 (ix7 b h i j c p q)
    (ix3 (win1 b h i j) c (tok16 p q)) ?_
  rw [rowMajor_val_seven, Shape.rowMajor_val_three]
  show ((((b.val * 4 + h.val) * 16 + i.val) * 16 + j.val) * 4 + c.val) * 256 + (p.val * 16 + q.val)
    = (((((b.val * 4 + h.val) * 16 + i.val) * 16 + j.val) * 4 + c.val) * 16 + p.val) * 16 + q.val
  omega

/-- The call in window coordinates: if the call's result is, per window, the window function of the staged tensor's
    rows, then the final array at (b, h, c, i, p, j, q) is the window function of the input's rows of window
    (b, h, i, j) at channel c, token (p, q). -/
theorem chain1 (X : FVec Ideal S4x2x4x4x16x16x16x16 .f32) (R : FVec Ideal S4096x4x256 .f32)
    (hR : ∀ (n : Fin 4096) (c : Fin 4) (t : Fin 256), R (ix3 n c t) = Cert.WinAttn.region1
        (truncf .bf16 (shapeCast S2x4096x4x256 (transpose S2x4x4x16x16x4x16x16 [1, 0, 2, 4, 6, 3, 5, 7] X
          transposes_S4x2x4x4x16x16x16x16_S2x4x4x16x16x4x16x16_1_0_2_4_6_3_5_7) shapeCasts_S2x4x4x16x16x4x16x16_S2x4096x4x256)
          bitsLt_bf16_f32) n c t)
    (b h c : Fin 4) (i : Fin 16) (p : Fin 16) (j : Fin 16) (q : Fin 16) :
    transpose S4x4x4x16x16x16x16 [0, 1, 4, 2, 5, 3, 6] (shapeCast S4x4x16x16x4x16x16 R shapeCasts_S4096x4x256_S4x4x16x16x4x16x16)
        transposes_S4x4x16x16x4x16x16_S4x4x4x16x16x16x16_0_1_4_2_5_3_6 (ix7 b h c i p j q)
      = Cert.WinAttn.y7_1 X b h c i p j q := by
  refine (unstaged1_apply R b h c i p j q).trans ((hR (win1 b h i j) c (tok16 p q)).trans ?_)
  unfold Cert.WinAttn.region1 Cert.WinAttn.y7_1
  exact congrArg₂ (fun qf vf => Cert.WinAttn.out qf vf c (tok16 p q))
    (funext fun c' => funext fun t' => staged1_apply X (0 : Fin 2) b h i j c' t')
    (funext fun c' => funext fun s => staged1_apply X (1 : Fin 2) b h i j c' s)

end Cert.KernelIdeal.Chain

end
-- ==== Proof.KChainG.lean ====
/-
  Each call's result array as one function of the staged tensor, and the host operations around it.

  The staged tensor tt[a, n, c, t] holds window n's query rows (a = 0) and value rows (a = 1). The call's result array is
  the window function of those rows, at (n, c, t). Cut back into windows and transposed, it is the window function of
  the input's rows of each window.
-/
import proofs.«107732_j64072322122319_2_alg».proof.Proof.KChain

noncomputable section

namespace Cert.KernelIdeal.Hand

open Cert.KernelIdeal Idealize.ShloMosaic

/-- The first call's result array as one function of the staged tensor: window i 0, channel i 1, token i 2. -/
def G0 (tt : S2x16384x4x64.Idx → EReal) : S16384x4x64.Idx → EReal :=
  fun i => Cert.WinAttn.region0 tt (i 0) (i 1) (i 2)

/-- The second call's result array as one function of the staged tensor: window i 0, channel i 1, token i 2. -/
def G1 (tt : S2x4096x4x256.Idx → EReal) : S4096x4x256.Idx → EReal :=
  fun i => Cert.WinAttn.region1 tt (i 0) (i 1) (i 2)

end Cert.KernelIdeal.Hand

namespace Cert.KernelIdeal.Chain

open Cert.KernelIdeal Idealize.ShloMosaic Idealize.ShloMosaic.ValueIdx Cert.Idx Cert.WinAttn

variable [Cert.KernelIdeal.Facts]

open Cert.KernelIdeal.Facts₀

/-- The 8×8 call with its result array the window function of the staged tensor: the final array at
    (b, h, c, i, p, j, q) is the window function of the input's rows of window (b, h, i, j) at channel c, token (p, q). -/
theorem chainG0 (X : FVec Ideal S4x2x4x4x32x8x32x8 .f32) (b h c : Fin 4) (i : Fin 32) (p : Fin 8) (j : Fin 32) (q : Fin 8) :
    transpose S4x4x4x32x8x32x8 [0, 1, 4, 2, 5, 3, 6] (shapeCast S4x4x32x32x4x8x8 (Cert.KernelIdeal.Hand.G0
        (truncf .bf16 (shapeCast S2x16384x4x64 (transpose S2x4x4x32x32x4x8x8 [1, 0, 2, 4, 6, 3, 5, 7] X
          transposes_S4x2x4x4x32x8x32x8_S2x4x4x32x32x4x8x8_1_0_2_4_6_3_5_7) shapeCasts_S2x4x4x32x32x4x8x8_S2x16384x4x64)
          bitsLt_bf16_f32)) shapeCasts_S16384x4x64_S4x4x32x32x4x8x8)
        transposes_S4x4x32x32x4x8x8_S4x4x4x32x8x32x8_0_1_4_2_5_3_6 (ix7 b h c i p j q)
      = Cert.WinAttn.y7_0 X b h c i p j q :=
  chain0 X _ (fun _ _ _ => rfl) b h c i p j q

/-- So the final array is any function that is the window function at every index. -/
theorem chainG0_eq (X : FVec Ideal S4x2x4x4x32x8x32x8 .f32) (f : S4x4x4x32x8x32x8.Idx → EReal)
    (hf : ∀ (b h c : Fin 4) (i : Fin 32) (p : Fin 8) (j : Fin 32) (q : Fin 8),
      f (ix7 b h c i p j q) = Cert.WinAttn.y7_0 X b h c i p j q) :
    transpose S4x4x4x32x8x32x8 [0, 1, 4, 2, 5, 3, 6] (shapeCast S4x4x32x32x4x8x8 (Cert.KernelIdeal.Hand.G0
        (truncf .bf16 (shapeCast S2x16384x4x64 (transpose S2x4x4x32x32x4x8x8 [1, 0, 2, 4, 6, 3, 5, 7] X
          transposes_S4x2x4x4x32x8x32x8_S2x4x4x32x32x4x8x8_1_0_2_4_6_3_5_7) shapeCasts_S2x4x4x32x32x4x8x8_S2x16384x4x64)
          bitsLt_bf16_f32)) shapeCasts_S16384x4x64_S4x4x32x32x4x8x8)
        transposes_S4x4x32x32x4x8x8_S4x4x4x32x8x32x8_0_1_4_2_5_3_6 = f := by
  funext x
  obtain ⟨b, h, c, i, p, j, q, rfl⟩ : ∃ (b h c : Fin 4) (i : Fin 32) (p : Fin 8) (j : Fin 32) (q : Fin 8),
      x = ix7 b h c i p j q := ⟨x 0, x 1, x 2, x 3, x 4, x 5, x 6, eq_ix7 x⟩
  exact (chainG0 X b h c i p j q).trans (hf b h c i p j q).symm

/-- The 16×16 call with its result array the window function of the staged tensor: the final array at
    (b, h, c, i, p, j, q) is the window function of the input's rows of window (b, h, i, j) at channel c, token (p, q). -/
theorem chainG1 (X : FVec Ideal S4x2x4x4x16x16x16x16 .f32) (b h c : Fin 4) (i : Fin 16) (p : Fin 16) (j : Fin 16) (q : Fin 16) :
    transpose S4x4x4x16x16x16x16 [0, 1, 4, 2, 5, 3, 6] (shapeCast S4x4x16x16x4x16x16 (Cert.KernelIdeal.Hand.G1
        (truncf .bf16 (shapeCast S2x4096x4x256 (transpose S2x4x4x16x16x4x16x16 [1, 0, 2, 4, 6, 3, 5, 7] X
          transposes_S4x2x4x4x16x16x16x16_S2x4x4x16x16x4x16x16_1_0_2_4_6_3_5_7) shapeCasts_S2x4x4x16x16x4x16x16_S2x4096x4x256)
          bitsLt_bf16_f32)) shapeCasts_S4096x4x256_S4x4x16x16x4x16x16)
        transposes_S4x4x16x16x4x16x16_S4x4x4x16x16x16x16_0_1_4_2_5_3_6 (ix7 b h c i p j q)
      = Cert.WinAttn.y7_1 X b h c i p j q :=
  chain1 X _ (fun _ _ _ => rfl) b h c i p j q

/-- So the final array is any function that is the window function at every index. -/
theorem chainG1_eq (X : FVec Ideal S4x2x4x4x16x16x16x16 .f32) (f : S4x4x4x16x16x16x16.Idx → EReal)
    (hf : ∀ (b h c : Fin 4) (i : Fin 16) (p : Fin 16) (j : Fin 16) (q : Fin 16),
      f (ix7 b h c i p j q) = Cert.WinAttn.y7_1 X b h c i p j q) :
    transpose S4x4x4x16x16x16x16 [0, 1, 4, 2, 5, 3, 6] (shapeCast S4x4x16x16x4x16x16 (Cert.KernelIdeal.Hand.G1
        (truncf .bf16 (shapeCast S2x4096x4x256 (transpose S2x4x4x16x16x4x16x16 [1, 0, 2, 4, 6, 3, 5, 7] X
          transposes_S4x2x4x4x16x16x16x16_S2x4x4x16x16x4x16x16_1_0_2_4_6_3_5_7) shapeCasts_S2x4x4x16x16x4x16x16_S2x4096x4x256)
          bitsLt_bf16_f32)) shapeCasts_S4096x4x256_S4x4x16x16x4x16x16)
        transposes_S4x4x16x16x4x16x16_S4x4x4x16x16x16x16_0_1_4_2_5_3_6 = f := by
  funext x
  obtain ⟨b, h, c, i, p, j, q, rfl⟩ : ∃ (b h c : Fin 4) (i : Fin 16) (p : Fin 16) (j : Fin 16) (q : Fin 16),
      x = ix7 b h c i p j q := ⟨x 0, x 1, x 2, x 3, x 4, x 5, x 6, eq_ix7 x⟩
  exact (chainG1 X b h c i p j q).trans (hf b h c i p j q).symm

end Cert.KernelIdeal.Chain

end
-- ==== Proof.KIArr.lean ====
/-
  What each pallas_call leaves in its result array, as one function of the staged tensor.

  At grid point `t` the body is handed block (0, t) and block (1, t) of the staged tensor — the query rows and the value
  rows of a run of consecutive windows — and writes block `t` of the result array. Its stored value at (n, c, s) is the
  attention of the block's window `n`; an element of a block sits in its array at block index × block size + its own
  coordinate, so that is the attention of the tensor's window t · (windows per block) + n. The result blocks tile the
  result array (window `r` is written at point r / (windows per block)), so after the last point the array is that
  function everywhere.
-/
import proofs.«107732_j64072322122319_2_alg».proof.Proof.KIBody
import proofs.«107732_j64072322122319_2_alg».proof.Proof.Spec
import proofs.«107732_j64072322122319_2_alg».proof.Proof.KPay
import proofs.«107732_j64072322122319_2_alg».proof.Proof.KChainG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Cert.Idx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Pipeline 0 -/

/-- The index maps over the grid: at point `t` the query window is block (0, t), the value window block (1, t) of the
    staged tensor, the result window block `t` of the result array. -/
theorem idx_facts0 : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 4) = 1 ∧ win0_1.index t (1 : Fin 4) = t.val ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- Where an element of the query block sits in the staged tensor. -/
theorem emb0_0 (t : Fin cfg0.N) (n : Fin 128) (c : Fin 4) (s : Fin 64) :
    ((cfg0.win 0).blk t).view.emb (ix4 (0 : Fin 1) n c s) = ix4 (0 : Fin 2) (⟨t.val * 128 + n.val, by have := t.isLt; have := n.isLt; have hN : cfg0.N = 128 := N_0; omega⟩ : Fin 16384) c s := by
  obtain ⟨e0, e1, e2, e3, -⟩ := idx_facts0 t
  funext a; apply Fin.ext
  match a with
  | ⟨0, _⟩ => show win0_0.index t (0 : Fin 4) * 1 + 1 * 0 = 0; omega
  | ⟨1, _⟩ => show win0_0.index t (1 : Fin 4) * 128 + 1 * n.val = t.val * 128 + n.val; omega
  | ⟨2, _⟩ => show win0_0.index t (2 : Fin 4) * 4 + 1 * c.val = c.val; omega
  | ⟨3, _⟩ => show win0_0.index t (3 : Fin 4) * 64 + 1 * s.val = s.val; omega
/-- Where an element of the value block sits in the staged tensor. -/
theorem emb0_1 (t : Fin cfg0.N) (n : Fin 128) (c : Fin 4) (s : Fin 64) :
    ((cfg0.win 1).blk t).view.emb (ix4 (0 : Fin 1) n c s) = ix4 (1 : Fin 2) (⟨t.val * 128 + n.val, by have := t.isLt; have := n.isLt; have hN : cfg0.N = 128 := N_0; omega⟩ : Fin 16384) c s := by
  obtain ⟨-, -, -, -, e0, e1, e2, e3, -⟩ := idx_facts0 t
  funext a; apply Fin.ext
  match a with
  | ⟨0, _⟩ => show win0_1.index t (0 : Fin 4) * 1 + 1 * 0 = 1; omega
  | ⟨1, _⟩ => show win0_1.index t (1 : Fin 4) * 128 + 1 * n.val = t.val * 128 + n.val; omega
  | ⟨2, _⟩ => show win0_1.index t (2 : Fin 4) * 4 + 1 * c.val = c.val; omega
  | ⟨3, _⟩ => show win0_1.index t (3 : Fin 4) * 64 + 1 * s.val = s.val; omega
/-- Where an element of the result block sits in the result array. -/
theorem emb0_2 (t : Fin cfg0.N) (n : Fin 128) (c : Fin 4) (s : Fin 64) :
    ((cfg0.win 2).blk t).view.emb (ix3 n c s) = ix3 (⟨t.val * 128 + n.val, by have := t.isLt; have := n.isLt; have hN : cfg0.N = 128 := N_0; omega⟩ : Fin 16384) c s := by
  obtain ⟨-, -, -, -, -, -, -, -, e0, e1, e2⟩ := idx_facts0 t
  funext a; apply Fin.ext
  match a with
  | ⟨0, _⟩ => show win0_2.index t (0 : Fin 3) * 128 + 1 * n.val = t.val * 128 + n.val; omega
  | ⟨1, _⟩ => show win0_2.index t (1 : Fin 3) * 4 + 1 * c.val = c.val; omega
  | ⟨2, _⟩ => show win0_2.index t (2 : Fin 3) * 64 + 1 * s.val = s.val; omega

/-- WHAT POINT `t` WRITES BACK is block `t` of `G0` of the staged tensor as the region finds it: the body's stored
    value at (n, c, s) is the attention of the block's window `n`, whose rows are window `t · 128 + n`'s of the tensor. -/
theorem flushed_eq0 (c : Dev nD) (t : Fin cfg0.N) :
    (dat0 V c).flushed 2 t = ((cfg0.win 2).blk t).view.read (Elt Ideal) (G0 (V c main_v4)) := by
  show (cfg0.win 2).cut (grid0.coords t) ((dat0 V c).after 2 t) = _
  rw [after0_2]
  unfold out0_2
  rw [View.canon_unit_zero hz3]
  simp only [View.ld_unit_zero (S := S1x128x4x64) hz4]
  funext j
  obtain ⟨n, ch, s, rfl⟩ : ∃ (n : Fin 128) (ch : Fin 4) (s : Fin 64), j = ix3 n ch s := ⟨j 0, j 1, j 2, eq_ix3 j⟩
  show k0_pay1 (iblk0 V c 0 t) (iblk0 V c 1 t) (ix3 n ch s) = G0 (V c main_v4) (((cfg0.win 2).blk t).view.emb (ix3 n ch s))
  rw [emb0_2]
  refine (Cert.KernelIdeal.Pay.pay0_apply _ _ n ch s).trans ?_
  show Cert.WinAttn.out (fun c' t' => V c main_v4 (((cfg0.win 0).blk t).view.emb (ix4 (0 : Fin 1) n c' t')))
      (fun c' s' => V c main_v4 (((cfg0.win 1).blk t).view.emb (ix4 (0 : Fin 1) n c' s'))) ch s = _
  exact congrArg₂ (fun qf vf => Cert.WinAttn.out qf vf ch s)
    (funext fun c' => funext fun t' => congrArg (fun x => V c main_v4 x) (emb0_0 t n c' t'))
    (funext fun c' => funext fun s' => congrArg (fun x => V c main_v4 x) (emb0_1 t n c' s'))

/-- An index of the result array is in point `t`'s block iff each coordinate is in the block's range on its axis. -/
theorem mem_blk0 (t : Fin cfg0.N) (i : S16384x4x64.Idx) :
    i ∈ ((cfg0.win 2).blk t).view.set ↔ ∀ a : Fin 3, win0_2.index t a * S128x4x64.size a ≤ (i a).val ∧ (i a).val < win0_2.index t a * S128x4x64.size a + S128x4x64.size a := by
  show i ∈ ((View.whole main_v5).slice (win0_2.rect t)).set ↔ _
  rw [View.set_slice_whole, Rect.mem_set_unit]
  exact Iff.rfl

/-- Every index of the result array is in some point's block: window `r` is written at point `r / 128`. -/
theorem cover0 (i : S16384x4x64.Idx) : ∃ t : Fin cfg0.N, (cfg0.win 2).flush t = true ∧ i ∈ ((cfg0.win 2).blk t).view.set := by
  have hi0 : (i 0).val < 16384 := (i 0).isLt
  have hi1 : (i 1).val < 4 := (i 1).isLt
  have hi2 : (i 2).val < 64 := (i 2).isLt
  let t : Fin cfg0.N := ⟨(i 0).val / 128, by have hN : cfg0.N = 128 := N_0; omega⟩
  obtain ⟨-, -, -, -, -, -, -, -, e0, e1, e2⟩ := idx_facts0 t
  have et : t.val = (i 0).val / 128 := rfl
  refine ⟨t, flush0_2 t, ?_⟩
  rw [mem_blk0]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 4 ≤ (i 1).val ∧ (i 1).val < win0_2.index t (1 : Fin 3) * 4 + 4; omega
  | ⟨2, _⟩ => show win0_2.index t (2 : Fin 3) * 64 ≤ (i 2).val ∧ (i 2).val < win0_2.index t (2 : Fin 3) * 64 + 64; omega

/-- THE RESULT ARRAY after the pallas_call: `G0` of the staged tensor as the region finds it. -/
theorem final0 (c : Dev nD) : (dat0 V c).arrAt 2 cfg0.N = G0 (V c main_v4) :=
  (dat0 V c).arrAt_eq_of_cover 2 (G0 (V c main_v4)) (fun t _ => flushed_eq0 V c t) (cover0)

/-! ## Pipeline 1 -/

/-- The index maps over the grid: at point `t` the query window is block (0, t), the value window block (1, t) of the
    staged tensor, the result window block `t` of the result array. -/
theorem idx_facts1 : ∀ t : Fin cfg1.N,
    win1_0.index t (0 : Fin 4) = 0 ∧ win1_0.index t (1 : Fin 4) = t.val ∧ win1_0.index t (2 : Fin 4) = 0 ∧ win1_0.index t (3 : Fin 4) = 0
    ∧ win1_1.index t (0 : Fin 4) = 1 ∧ win1_1.index t (1 : Fin 4) = t.val ∧ win1_1.index t (2 : Fin 4) = 0 ∧ win1_1.index t (3 : Fin 4) = 0
    ∧ win1_2.index t (0 : Fin 3) = t.val ∧ win1_2.index t (1 : Fin 3) = 0 ∧ win1_2.index t (2 : Fin 3) = 0 :=
  (by decide +kernel : ∀ t : Fin grid1.N, _)

/-- Where an element of the query block sits in the staged tensor. -/
theorem emb1_0 (t : Fin cfg1.N) (n : Fin 32) (c : Fin 4) (s : Fin 256) :
    ((cfg1.win 0).blk t).view.emb (ix4 (0 : Fin 1) n c s) = ix4 (0 : Fin 2) (⟨t.val * 32 + n.val, by have := t.isLt; have := n.isLt; have hN : cfg1.N = 128 := N_1; omega⟩ : Fin 4096) c s := by
  obtain ⟨e0, e1, e2, e3, -⟩ := idx_facts1 t
  funext a; apply Fin.ext
  match a with
  | ⟨0, _⟩ => show win1_0.index t (0 : Fin 4) * 1 + 1 * 0 = 0; omega
  | ⟨1, _⟩ => show win1_0.index t (1 : Fin 4) * 32 + 1 * n.val = t.val * 32 + n.val; omega
  | ⟨2, _⟩ => show win1_0.index t (2 : Fin 4) * 4 + 1 * c.val = c.val; omega
  | ⟨3, _⟩ => show win1_0.index t (3 : Fin 4) * 256 + 1 * s.val = s.val; omega
/-- Where an element of the value block sits in the staged tensor. -/
theorem emb1_1 (t : Fin cfg1.N) (n : Fin 32) (c : Fin 4) (s : Fin 256) :
    ((cfg1.win 1).blk t).view.emb (ix4 (0 : Fin 1) n c s) = ix4 (1 : Fin 2) (⟨t.val * 32 + n.val, by have := t.isLt; have := n.isLt; have hN : cfg1.N = 128 := N_1; omega⟩ : Fin 4096) c s := by
  obtain ⟨-, -, -, -, e0, e1, e2, e3, -⟩ := idx_facts1 t
  funext a; apply Fin.ext
  match a with
  | ⟨0, _⟩ => show win1_1.index t (0 : Fin 4) * 1 + 1 * 0 = 1; omega
  | ⟨1, _⟩ => show win1_1.index t (1 : Fin 4) * 32 + 1 * n.val = t.val * 32 + n.val; omega
  | ⟨2, _⟩ => show win1_1.index t (2 : Fin 4) * 4 + 1 * c.val = c.val; omega
  | ⟨3, _⟩ => show win1_1.index t (3 : Fin 4) * 256 + 1 * s.val = s.val; omega
/-- Where an element of the result block sits in the result array. -/
theorem emb1_2 (t : Fin cfg1.N) (n : Fin 32) (c : Fin 4) (s : Fin 256) :
    ((cfg1.win 2).blk t).view.emb (ix3 n c s) = ix3 (⟨t.val * 32 + n.val, by have := t.isLt; have := n.isLt; have hN : cfg1.N = 128 := N_1; omega⟩ : Fin 4096) c s := by
  obtain ⟨-, -, -, -, -, -, -, -, e0, e1, e2⟩ := idx_facts1 t
  funext a; apply Fin.ext
  match a with
  | ⟨0, _⟩ => show win1_2.index t (0 : Fin 3) * 32 + 1 * n.val = t.val * 32 + n.val; omega
  | ⟨1, _⟩ => show win1_2.index t (1 : Fin 3) * 4 + 1 * c.val = c.val; omega
  | ⟨2, _⟩ => show win1_2.index t (2 : Fin 3) * 256 + 1 * s.val = s.val; omega

/-- WHAT POINT `t` WRITES BACK is block `t` of `G1` of the staged tensor as the region finds it: the body's stored
    value at (n, c, s) is the attention of the block's window `n`, whose rows are window `t · 32 + n`'s of the tensor. -/
theorem flushed_eq1 (c : Dev nD) (t : Fin cfg1.N) :
    (dat1 V c).flushed 2 t = ((cfg1.win 2).blk t).view.read (Elt Ideal) (G1 (V c main_v14)) := by
  show (cfg1.win 2).cut (grid1.coords t) ((dat1 V c).after 2 t) = _
  rw [after1_2]
  unfold out1_2
  rw [View.canon_unit_zero hz3]
  simp only [View.ld_unit_zero (S := S1x32x4x256) hz4]
  funext j
  obtain ⟨n, ch, s, rfl⟩ : ∃ (n : Fin 32) (ch : Fin 4) (s : Fin 256), j = ix3 n ch s := ⟨j 0, j 1, j 2, eq_ix3 j⟩
  show k1_pay1 (iblk1 V c 0 t) (iblk1 V c 1 t) (ix3 n ch s) = G1 (V c main_v14) (((cfg1.win 2).blk t).view.emb (ix3 n ch s))
  rw [emb1_2]
  refine (Cert.KernelIdeal.Pay.pay1_apply _ _ n ch s).trans ?_
  show Cert.WinAttn.out (fun c' t' => V c main_v14 (((cfg1.win 0).blk t).view.emb (ix4 (0 : Fin 1) n c' t')))
      (fun c' s' => V c main_v14 (((cfg1.win 1).blk t).view.emb (ix4 (0 : Fin 1) n c' s'))) ch s = _
  exact congrArg₂ (fun qf vf => Cert.WinAttn.out qf vf ch s)
    (funext fun c' => funext fun t' => congrArg (fun x => V c main_v14 x) (emb1_0 t n c' t'))
    (funext fun c' => funext fun s' => congrArg (fun x => V c main_v14 x) (emb1_1 t n c' s'))

/-- An index of the result array is in point `t`'s block iff each coordinate is in the block's range on its axis. -/
theorem mem_blk1 (t : Fin cfg1.N) (i : S4096x4x256.Idx) :
    i ∈ ((cfg1.win 2).blk t).view.set ↔ ∀ a : Fin 3, win1_2.index t a * S32x4x256.size a ≤ (i a).val ∧ (i a).val < win1_2.index t a * S32x4x256.size a + S32x4x256.size a := by
  show i ∈ ((View.whole main_v15).slice (win1_2.rect t)).set ↔ _
  rw [View.set_slice_whole, Rect.mem_set_unit]
  exact Iff.rfl

/-- Every index of the result array is in some point's block: window `r` is written at point `r / 32`. -/
theorem cover1 (i : S4096x4x256.Idx) : ∃ t : Fin cfg1.N, (cfg1.win 2).flush t = true ∧ i ∈ ((cfg1.win 2).blk t).view.set := by
  have hi0 : (i 0).val < 4096 := (i 0).isLt
  have hi1 : (i 1).val < 4 := (i 1).isLt
  have hi2 : (i 2).val < 256 := (i 2).isLt
  let t : Fin cfg1.N := ⟨(i 0).val / 32, by have hN : cfg1.N = 128 := N_1; omega⟩
  obtain ⟨-, -, -, -, -, -, -, -, e0, e1, e2⟩ := idx_facts1 t
  have et : t.val = (i 0).val / 32 := rfl
  refine ⟨t, flush1_2 t, ?_⟩
  rw [mem_blk1]
  intro a
  match a with
  | ⟨0, _⟩ => show win1_2.index t (0 : Fin 3) * 32 ≤ (i 0).val ∧ (i 0).val < win1_2.index t (0 : Fin 3) * 32 + 32; omega
  | ⟨1, _⟩ => show win1_2.index t (1 : Fin 3) * 4 ≤ (i 1).val ∧ (i 1).val < win1_2.index t (1 : Fin 3) * 4 + 4; omega
  | ⟨2, _⟩ => show win1_2.index t (2 : Fin 3) * 256 ≤ (i 2).val ∧ (i 2).val < win1_2.index t (2 : Fin 3) * 256 + 256; omega

/-- THE RESULT ARRAY after the pallas_call: `G1` of the staged tensor as the region finds it. -/
theorem final1 (c : Dev nD) : (dat1 V c).arrAt 2 cfg1.N = G1 (V c main_v14) :=
  (dat1 V c).arrAt_eq_of_cover 2 (G1 (V c main_v14)) (fun t _ => flushed_eq1 V c t) (cover1)

end Cert.KernelIdeal.Hand

end
-- ==== Proof.RChainDef.lean ====
/-
  The reference's window attention as one function of the windowed input: the definitions.

  From the input cut into windows, X[b, a, h, c, i, p, j, q] (batch, query/value, head, channel, window row, row inside,
  window column, column inside), the reference moves the channel last and the two window coordinates forward, flattens
  the window's rows and columns into one token axis (token p·w + q), takes queries (a = 0) and values (a = 1), forms
  the scores q·qᵀ over the channels, subtracts each row's maximum, exponentiates, divides by the row sum, multiplies
  by the values, and undoes the layout. `refChain0` (8×8 windows) and `refChain1` (16×16 windows) are these
  compositions as single terms, one constructor per operation; the stages (`tok`, `qry`, `val`, `sco`, `mx`, `wgt`,
  `nrm`, `prb`, `res`) name their sub-terms, and `refChain0_eq` / `refChain1_eq` say each chain is the composition
  of its stages.
-/
import proofs.«107732_j64072322122319_2_alg».proof.ReferenceIdeal
import Idealize.ShloMosaic.Lib.Pipeline.Value
import Idealize.ShloMosaic.Lib.ValueIdx
import Idealize.ShloMosaic.PureOps.Ideal.Laws

noncomputable section

namespace Cert.ReferenceIdeal.Chain

open Cert.ReferenceIdeal Cert.ReferenceIdeal.Facts₀ Idealize.ShloMosaic Idealize.ShloMosaic.ValueIdx

variable [Cert.ReferenceIdeal.Facts]

/-- The reference's operations on the 8×8 windows, composed. -/
def refChain0 (X : FVec Ideal S4x2x4x4x32x8x32x8 .f32) : FVec Ideal S4x4x4x32x8x32x8 .f32 :=
  transpose S4x4x4x32x8x32x8 [0, 1, 6, 2, 4, 3, 5] (shapeCast _ (Host.dotGeneral (F := Ideal) dot_S4x4x32x32x64x64_S4x4x32x32x64x4_S4x4x32x32x64x4_5_4_4_5_0123_0123 none (Host.divf (F := Ideal) (Host.exp (F := Ideal) (subf (Host.dotGeneral (F := Ideal) dot_S4x4x32x32x64x4_S4x4x32x32x64x4_S4x4x32x32x64x64_5_5_4_4_0123_0123 none (shapeCast _ (extractStridedSlice S1x4x4x32x32x64x4 ![0, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_0_0_0_0_0_0_0) shapeCasts_S1x4x4x32x32x64x4_S4x4x32x32x64x4) (shapeCast _ (extractStridedSlice S1x4x4x32x32x64x4 ![0, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_0_0_0_0_0_0_0) shapeCasts_S1x4x4x32x32x64x4_S4x4x32x32x64x4)) (broadcastInDim S4x4x32x32x64x64 ![0, 1, 2, 3, 4, 5] bcast_S4x4x32x32x64x1_S4x4x32x32x64x64_0_1_2_3_4_5 (broadcastInDim S4x4x32x32x64x1 ![0, 1, 2, 3, 4] bcast_S4x4x32x32x64_S4x4x32x32x64x1_0_1_2_3_4 (maximumf (broadcastInDim S4x4x32x32x64 ![] bcast_S_S4x4x32x32x64 (constant (F := Ideal) S_ .f32 0xFF800000#32)) (Host.reduce (FloatOps.maximumf (F := Ideal)) (Host.dotGeneral (F := Ideal) dot_S4x4x32x32x64x4_S4x4x32x32x64x4_S4x4x32x32x64x64_5_5_4_4_0123_0123 none (shapeCast _ (extractStridedSlice S1x4x4x32x32x64x4 ![0, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_0_0_0_0_0_0_0) shapeCasts_S1x4x4x32x32x64x4_S4x4x32x32x64x4) (shapeCast _ (extractStridedSlice S1x4x4x32x32x64x4 ![0, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_0_0_0_0_0_0_0) shapeCasts_S1x4x4x32x32x64x4_S4x4x32x32x64x4)) (constant (F := Ideal) S_ .f32 0xFF800000#32) reducesTo_S4x4x32x32x64x64_S4x4x32x32x64_d5 h_S_)))))) (broadcastInDim S4x4x32x32x64x64 ![0, 1, 2, 3, 4, 5] bcast_S4x4x32x32x64x1_S4x4x32x32x64x64_0_1_2_3_4_5 (broadcastInDim S4x4x32x32x64x1 ![0, 1, 2, 3, 4] bcast_S4x4x32x32x64_S4x4x32x32x64x1_0_1_2_3_4 (Host.reduceAdd (F := Ideal) (Host.exp (F := Ideal) (subf (Host.dotGeneral (F := Ideal) dot_S4x4x32x32x64x4_S4x4x32x32x64x4_S4x4x32x32x64x64_5_5_4_4_0123_0123 none (shapeCast _ (extractStridedSlice S1x4x4x32x32x64x4 ![0, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_0_0_0_0_0_0_0) shapeCasts_S1x4x4x32x32x64x4_S4x4x32x32x64x4) (shapeCast _ (extractStridedSlice S1x4x4x32x32x64x4 ![0, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_0_0_0_0_0_0_0) shapeCasts_S1x4x4x32x32x64x4_S4x4x32x32x64x4)) (broadcastInDim S4x4x32x32x64x64 ![0, 1, 2, 3, 4, 5] bcast_S4x4x32x32x64x1_S4x4x32x32x64x64_0_1_2_3_4_5 (broadcastInDim S4x4x32x32x64x1 ![0, 1, 2, 3, 4] bcast_S4x4x32x32x64_S4x4x32x32x64x1_0_1_2_3_4 (maximumf (broadcastInDim S4x4x32x32x64 ![] bcast_S_S4x4x32x32x64 (constant (F := Ideal) S_ .f32 0xFF800000#32)) (Host.reduce (FloatOps.maximumf (F := Ideal)) (Host.dotGeneral (F := Ideal) dot_S4x4x32x32x64x4_S4x4x32x32x64x4_S4x4x32x32x64x64_5_5_4_4_0123_0123 none (shapeCast _ (extractStridedSlice S1x4x4x32x32x64x4 ![0, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_0_0_0_0_0_0_0) shapeCasts_S1x4x4x32x32x64x4_S4x4x32x32x64x4) (shapeCast _ (extractStridedSlice S1x4x4x32x32x64x4 ![0, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_0_0_0_0_0_0_0) shapeCasts_S1x4x4x32x32x64x4_S4x4x32x32x64x4)) (constant (F := Ideal) S_ .f32 0xFF800000#32) reducesTo_S4x4x32x32x64x64_S4x4x32x32x64_d5 h_S_)))))) (constant (F := Ideal) S_ .f32 0x00000000#32) reducesTo_S4x4x32x32x64x64_S4x4x32x32x64_d5 h_S_)))) (shapeCast _ (extractStridedSlice S1x4x4x32x32x64x4 ![1, 0, 0, 0, 0, 0, 0] (shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4) slices_S2x4x4x32x32x64x4_S1x4x4x32x32x64x4_1_0_0_0_0_0_0) shapeCasts_S1x4x4x32x32x64x4_S4x4x32x32x64x4)) shapeCasts_S4x4x32x32x64x4_S4x4x32x32x8x8x4) transposes_S4x4x32x32x8x8x4_S4x4x4x32x8x32x8_0_1_6_2_4_3_5

/-- The reference's operations on the 16×16 windows, composed. -/
def refChain1 (X : FVec Ideal S4x2x4x4x16x16x16x16 .f32) : FVec Ideal S4x4x4x16x16x16x16 .f32 :=
  transpose S4x4x4x16x16x16x16 [0, 1, 6, 2, 4, 3, 5] (shapeCast _ (Host.dotGeneral (F := Ideal) dot_S4x4x16x16x256x256_S4x4x16x16x256x4_S4x4x16x16x256x4_5_4_4_5_0123_0123 none (Host.divf (F := Ideal) (Host.exp (F := Ideal) (subf (Host.dotGeneral (F := Ideal) dot_S4x4x16x16x256x4_S4x4x16x16x256x4_S4x4x16x16x256x256_5_5_4_4_0123_0123 none (shapeCast _ (extractStridedSlice S1x4x4x16x16x256x4 ![0, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_0_0_0_0_0_0_0) shapeCasts_S1x4x4x16x16x256x4_S4x4x16x16x256x4) (shapeCast _ (extractStridedSlice S1x4x4x16x16x256x4 ![0, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_0_0_0_0_0_0_0) shapeCasts_S1x4x4x16x16x256x4_S4x4x16x16x256x4)) (broadcastInDim S4x4x16x16x256x256 ![0, 1, 2, 3, 4, 5] bcast_S4x4x16x16x256x1_S4x4x16x16x256x256_0_1_2_3_4_5 (broadcastInDim S4x4x16x16x256x1 ![0, 1, 2, 3, 4] bcast_S4x4x16x16x256_S4x4x16x16x256x1_0_1_2_3_4 (maximumf (broadcastInDim S4x4x16x16x256 ![] bcast_S_S4x4x16x16x256 (constant (F := Ideal) S_ .f32 0xFF800000#32)) (Host.reduce (FloatOps.maximumf (F := Ideal)) (Host.dotGeneral (F := Ideal) dot_S4x4x16x16x256x4_S4x4x16x16x256x4_S4x4x16x16x256x256_5_5_4_4_0123_0123 none (shapeCast _ (extractStridedSlice S1x4x4x16x16x256x4 ![0, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_0_0_0_0_0_0_0) shapeCasts_S1x4x4x16x16x256x4_S4x4x16x16x256x4) (shapeCast _ (extractStridedSlice S1x4x4x16x16x256x4 ![0, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_0_0_0_0_0_0_0) shapeCasts_S1x4x4x16x16x256x4_S4x4x16x16x256x4)) (constant (F := Ideal) S_ .f32 0xFF800000#32) reducesTo_S4x4x16x16x256x256_S4x4x16x16x256_d5 h_S_)))))) (broadcastInDim S4x4x16x16x256x256 ![0, 1, 2, 3, 4, 5] bcast_S4x4x16x16x256x1_S4x4x16x16x256x256_0_1_2_3_4_5 (broadcastInDim S4x4x16x16x256x1 ![0, 1, 2, 3, 4] bcast_S4x4x16x16x256_S4x4x16x16x256x1_0_1_2_3_4 (Host.reduceAdd (F := Ideal) (Host.exp (F := Ideal) (subf (Host.dotGeneral (F := Ideal) dot_S4x4x16x16x256x4_S4x4x16x16x256x4_S4x4x16x16x256x256_5_5_4_4_0123_0123 none (shapeCast _ (extractStridedSlice S1x4x4x16x16x256x4 ![0, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_0_0_0_0_0_0_0) shapeCasts_S1x4x4x16x16x256x4_S4x4x16x16x256x4) (shapeCast _ (extractStridedSlice S1x4x4x16x16x256x4 ![0, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_0_0_0_0_0_0_0) shapeCasts_S1x4x4x16x16x256x4_S4x4x16x16x256x4)) (broadcastInDim S4x4x16x16x256x256 ![0, 1, 2, 3, 4, 5] bcast_S4x4x16x16x256x1_S4x4x16x16x256x256_0_1_2_3_4_5 (broadcastInDim S4x4x16x16x256x1 ![0, 1, 2, 3, 4] bcast_S4x4x16x16x256_S4x4x16x16x256x1_0_1_2_3_4 (maximumf (broadcastInDim S4x4x16x16x256 ![] bcast_S_S4x4x16x16x256 (constant (F := Ideal) S_ .f32 0xFF800000#32)) (Host.reduce (FloatOps.maximumf (F := Ideal)) (Host.dotGeneral (F := Ideal) dot_S4x4x16x16x256x4_S4x4x16x16x256x4_S4x4x16x16x256x256_5_5_4_4_0123_0123 none (shapeCast _ (extractStridedSlice S1x4x4x16x16x256x4 ![0, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_0_0_0_0_0_0_0) shapeCasts_S1x4x4x16x16x256x4_S4x4x16x16x256x4) (shapeCast _ (extractStridedSlice S1x4x4x16x16x256x4 ![0, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_0_0_0_0_0_0_0) shapeCasts_S1x4x4x16x16x256x4_S4x4x16x16x256x4)) (constant (F := Ideal) S_ .f32 0xFF800000#32) reducesTo_S4x4x16x16x256x256_S4x4x16x16x256_d5 h_S_)))))) (constant (F := Ideal) S_ .f32 0x00000000#32) reducesTo_S4x4x16x16x256x256_S4x4x16x16x256_d5 h_S_)))) (shapeCast _ (extractStridedSlice S1x4x4x16x16x256x4 ![1, 0, 0, 0, 0, 0, 0] (shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4) slices_S2x4x4x16x16x256x4_S1x4x4x16x16x256x4_1_0_0_0_0_0_0) shapeCasts_S1x4x4x16x16x256x4_S4x4x16x16x256x4)) shapeCasts_S4x4x16x16x256x4_S4x4x16x16x16x16x4) transposes_S4x4x16x16x16x16x4_S4x4x4x16x16x16x16_0_1_6_2_4_3_5

/-! ## 8×8 windows: the stages

Each stage is spelled exactly as it stands inside `refChain0`, so that `refChain0` is their composition by unfolding. -/

/-- Channel last, the two window coordinates forward, then the window's rows and columns flattened to one token axis. -/
def tok0 (X : FVec Ideal S4x2x4x4x32x8x32x8 .f32) : FVec Ideal S2x4x4x32x32x64x4 .f32 :=
  shapeCast _ (transpose S2x4x4x32x32x8x8x4 [1, 0, 2, 4, 6, 5, 7, 3] X transposes_S4x2x4x4x32x8x32x8_S2x4x4x32x32x8x8x4_1_0_2_4_6_5_7_3) shapeCasts_S2x4x4x32x32x8x8x4_S2x4x4x32x32x64x4

/-- The queries: the part a = 0, its unit axis dropped. -/
def qry0 (X : FVec Ideal S4x2x4x4x32x8x32x8 .f32) : FVec Ideal S4x4x32x32x64x4 .f32 :=
  shapeCast _ (extractStridedSlice S1x4x4x32x32x64x4 ![0, 0, 0, 0, 0, 0, 0] (tok0 X) slices_S2x4x4x32x32x64x4_S1x4x4x32x32x64x4_0_0_0_0_0_0_0) shapeCasts_S1x4x4x32x32x64x4_S4x4x32x32x64x4

/-- The values: the part a = 1, its unit axis dropped. -/
def val0 (X : FVec Ideal S4x2x4x4x32x8x32x8 .f32) : FVec Ideal S4x4x32x32x64x4 .f32 :=
  shapeCast _ (extractStridedSlice S1x4x4x32x32x64x4 ![1, 0, 0, 0, 0, 0, 0] (tok0 X) slices_S2x4x4x32x32x64x4_S1x4x4x32x32x64x4_1_0_0_0_0_0_0) shapeCasts_S1x4x4x32x32x64x4_S4x4x32x32x64x4

/-- The scores: queries against queries, contracted over the channel. -/
def sco0 (X : FVec Ideal S4x2x4x4x32x8x32x8 .f32) : FVec Ideal S4x4x32x32x64x64 .f32 :=
  Host.dotGeneral (F := Ideal) dot_S4x4x32x32x64x4_S4x4x32x32x64x4_S4x4x32x32x64x64_5_5_4_4_0123_0123 none (qry0 X) (qry0 X)

/-- Each row's largest score (the maximum with −∞ taken once more, as the reference does). -/
def mx0 (X : FVec Ideal S4x2x4x4x32x8x32x8 .f32) : FVec Ideal S4x4x32x32x64 .f32 :=
  maximumf (broadcastInDim S4x4x32x32x64 ![] bcast_S_S4x4x32x32x64 (constant (F := Ideal) S_ .f32 0xFF800000#32)) (Host.reduce (FloatOps.maximumf (F := Ideal)) (sco0 X) (constant (F := Ideal) S_ .f32 0xFF800000#32) reducesTo_S4x4x32x32x64x64_S4x4x32x32x64_d5 h_S_)

/-- The unnormalised weights. -/
def wgt0 (X : FVec Ideal S4x2x4x4x32x8x32x8 .f32) : FVec Ideal S4x4x32x32x64x64 .f32 :=
  Host.exp (F := Ideal) (subf (sco0 X) (broadcastInDim S4x4x32x32x64x64 ![0, 1, 2, 3, 4, 5] bcast_S4x4x32x32x64x1_S4x4x32x32x64x64_0_1_2_3_4_5 (broadcastInDim S4x4x32x32x64x1 ![0, 1, 2, 3, 4] bcast_S4x4x32x32x64_S4x4x32x32x64x1_0_1_2_3_4 (mx0 X))))

/-- The rows' normalisers. -/
def nrm0 (X : FVec Ideal S4x2x4x4x32x8x32x8 .f32) : FVec Ideal S4x4x32x32x64 .f32 :=
  Host.reduceAdd (F := Ideal) (wgt0 X) (constant (F := Ideal) S_ .f32 0x00000000#32) reducesTo_S4x4x32x32x64x64_S4x4x32x32x64_d5 h_S_

/-- The attention weights. -/
def prb0 (X : FVec Ideal S4x2x4x4x32x8x32x8 .f32) : FVec Ideal S4x4x32x32x64x64 .f32 :=
  Host.divf (F := Ideal) (wgt0 X) (broadcastInDim S4x4x32x32x64x64 ![0, 1, 2, 3, 4, 5] bcast_S4x4x32x32x64x1_S4x4x32x32x64x64_0_1_2_3_4_5 (broadcastInDim S4x4x32x32x64x1 ![0, 1, 2, 3, 4] bcast_S4x4x32x32x64_S4x4x32x32x64x1_0_1_2_3_4 (nrm0 X)))

/-- The weighted values, still in the token layout. -/
def res0 (X : FVec Ideal S4x2x4x4x32x8x32x8 .f32) : FVec Ideal S4x4x32x32x64x4 .f32 :=
  Host.dotGeneral (F := Ideal) dot_S4x4x32x32x64x64_S4x4x32x32x64x4_S4x4x32x32x64x4_5_4_4_5_0123_0123 none (prb0 X) (val0 X)

/-- `refChain0` is the composition of the stages. -/
theorem refChain0_eq (X : FVec Ideal S4x2x4x4x32x8x32x8 .f32) :
    refChain0 X = transpose S4x4x4x32x8x32x8 [0, 1, 6, 2, 4, 3, 5] (shapeCast _ (res0 X) shapeCasts_S4x4x32x32x64x4_S4x4x32x32x8x8x4) transposes_S4x4x32x32x8x8x4_S4x4x4x32x8x32x8_0_1_6_2_4_3_5 := rfl

/-! ## 16×16 windows: the stages

Each stage is spelled exactly as it stands inside `refChain1`, so that `refChain1` is their composition by unfolding. -/

/-- Channel last, the two window coordinates forward, then the window's rows and columns flattened to one token axis. -/
def tok1 (X : FVec Ideal S4x2x4x4x16x16x16x16 .f32) : FVec Ideal S2x4x4x16x16x256x4 .f32 :=
  shapeCast _ (transpose S2x4x4x16x16x16x16x4 [1, 0, 2, 4, 6, 5, 7, 3] X transposes_S4x2x4x4x16x16x16x16_S2x4x4x16x16x16x16x4_1_0_2_4_6_5_7_3) shapeCasts_S2x4x4x16x16x16x16x4_S2x4x4x16x16x256x4

/-- The queries: the part a = 0, its unit axis dropped. -/
def qry1 (X : FVec Ideal S4x2x4x4x16x16x16x16 .f32) : FVec Ideal S4x4x16x16x256x4 .f32 :=
  shapeCast _ (extractStridedSlice S1x4x4x16x16x256x4 ![0, 0, 0, 0, 0, 0, 0] (tok1 X) slices_S2x4x4x16x16x256x4_S1x4x4x16x16x256x4_0_0_0_0_0_0_0) shapeCasts_S1x4x4x16x16x256x4_S4x4x16x16x256x4

/-- The values: the part a = 1, its unit axis dropped. -/
def val1 (X : FVec Ideal S4x2x4x4x16x16x16x16 .f32) : FVec Ideal S4x4x16x16x256x4 .f32 :=
  shapeCast _ (extractStridedSlice S1x4x4x16x16x256x4 ![1, 0, 0, 0, 0, 0, 0] (tok1 X) slices_S2x4x4x16x16x256x4_S1x4x4x16x16x256x4_1_0_0_0_0_0_0) shapeCasts_S1x4x4x16x16x256x4_S4x4x16x16x256x4

/-- The scores: queries against queries, contracted over the channel. -/
def sco1 (X : FVec Ideal S4x2x4x4x16x16x16x16 .f32) : FVec Ideal S4x4x16x16x256x256 .f32 :=
  Host.dotGeneral (F := Ideal) dot_S4x4x16x16x256x4_S4x4x16x16x256x4_S4x4x16x16x256x256_5_5_4_4_0123_0123 none (qry1 X) (qry1 X)

/-- Each row's largest score (the maximum with −∞ taken once more, as the reference does). -/
def mx1 (X : FVec Ideal S4x2x4x4x16x16x16x16 .f32) : FVec Ideal S4x4x16x16x256 .f32 :=
  maximumf (broadcastInDim S4x4x16x16x256 ![] bcast_S_S4x4x16x16x256 (constant (F := Ideal) S_ .f32 0xFF800000#32)) (Host.reduce (FloatOps.maximumf (F := Ideal)) (sco1 X) (constant (F := Ideal) S_ .f32 0xFF800000#32) reducesTo_S4x4x16x16x256x256_S4x4x16x16x256_d5 h_S_)

/-- The unnormalised weights. -/
def wgt1 (X : FVec Ideal S4x2x4x4x16x16x16x16 .f32) : FVec Ideal S4x4x16x16x256x256 .f32 :=
  Host.exp (F := Ideal) (subf (sco1 X) (broadcastInDim S4x4x16x16x256x256 ![0, 1, 2, 3, 4, 5] bcast_S4x4x16x16x256x1_S4x4x16x16x256x256_0_1_2_3_4_5 (broadcastInDim S4x4x16x16x256x1 ![0, 1, 2, 3, 4] bcast_S4x4x16x16x256_S4x4x16x16x256x1_0_1_2_3_4 (mx1 X))))

/-- The rows' normalisers. -/
def nrm1 (X : FVec Ideal S4x2x4x4x16x16x16x16 .f32) : FVec Ideal S4x4x16x16x256 .f32 :=
  Host.reduceAdd (F := Ideal) (wgt1 X) (constant (F := Ideal) S_ .f32 0x00000000#32) reducesTo_S4x4x16x16x256x256_S4x4x16x16x256_d5 h_S_

/-- The attention weights. -/
def prb1 (X : FVec Ideal S4x2x4x4x16x16x16x16 .f32) : FVec Ideal S4x4x16x16x256x256 .f32 :=
  Host.divf (F := Ideal) (wgt1 X) (broadcastInDim S4x4x16x16x256x256 ![0, 1, 2, 3, 4, 5] bcast_S4x4x16x16x256x1_S4x4x16x16x256x256_0_1_2_3_4_5 (broadcastInDim S4x4x16x16x256x1 ![0, 1, 2, 3, 4] bcast_S4x4x16x16x256_S4x4x16x16x256x1_0_1_2_3_4 (nrm1 X)))

/-- The weighted values, still in the token layout. -/
def res1 (X : FVec Ideal S4x2x4x4x16x16x16x16 .f32) : FVec Ideal S4x4x16x16x256x4 .f32 :=
  Host.dotGeneral (F := Ideal) dot_S4x4x16x16x256x256_S4x4x16x16x256x4_S4x4x16x16x256x4_5_4_4_5_0123_0123 none (prb1 X) (val1 X)

/-- `refChain1` is the composition of the stages. -/
theorem refChain1_eq (X : FVec Ideal S4x2x4x4x16x16x16x16 .f32) :
    refChain1 X = transpose S4x4x4x16x16x16x16 [0, 1, 6, 2, 4, 3, 5] (shapeCast _ (res1 X) shapeCasts_S4x4x16x16x256x4_S4x4x16x16x16x16x4) transposes_S4x4x16x16x16x16x4_S4x4x4x16x16x16x16_0_1_6_2_4_3_5 := rfl

end Cert.ReferenceIdeal.Chain

end
-- ==== Proof.RChainIdx0.lean ====
/-
  The two contractions of the 8×8 window attention, read axis by axis.

  The library gives a contraction's operand indices as functions of the result index and the contraction index,
  defined by cases on which list of the dimension numbers an operand axis is in. For the score contraction (queries
  against queries over the channel) and the result contraction (weights against values over the tokens) these lemmas
  say, for each operand axis, which coordinate of the result index or of the contraction index it reads.
-/
import proofs.«107732_j64072322122319_2_alg».proof.ReferenceIdeal
import Idealize.ShloMosaic.Lib.ValueIdx

noncomputable section

namespace Cert.ReferenceIdeal.Chain

open Cert.ReferenceIdeal Cert.ReferenceIdeal.Facts₀ Idealize.ShloMosaic

variable [Cert.ReferenceIdeal.Facts]

/-- The score contraction's operand coordinates (the library's contraction index read axis by axis). -/
theorem sco0_l_0 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.lhsIdx i q 0).val = (i 0).val := by
  unfold DotDims.lhsIdx
  rw [dif_pos (show (0 : Fin S4x4x32x32x64x4.rank) ∈ dot_S4x4x32x32x64x4_S4x4x32x32x64x4_S4x4x32x32x64x64_5_5_4_4_0123_0123.lhsBatch by show (0 : Fin 6) ∈ ([0, 1, 2, 3] : List (Fin 6)); decide)]
  rfl
theorem sco0_l_1 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.lhsIdx i q 1).val = (i 1).val := by
  unfold DotDims.lhsIdx
  rw [dif_pos (show (1 : Fin S4x4x32x32x64x4.rank) ∈ dot_S4x4x32x32x64x4_S4x4x32x32x64x4_S4x4x32x32x64x64_5_5_4_4_0123_0123.lhsBatch by show (1 : Fin 6) ∈ ([0, 1, 2, 3] : List (Fin 6)); decide)]
  rfl
theorem sco0_l_2 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.lhsIdx i q 2).val = (i 2).val := by
  unfold DotDims.lhsIdx
  rw [dif_pos (show (2 : Fin S4x4x32x32x64x4.rank) ∈ dot_S4x4x32x32x64x4_S4x4x32x32x64x4_S4x4x32x32x64x64_5_5_4_4_0123_0123.lhsBatch by show (2 : Fin 6) ∈ ([0, 1, 2, 3] : List (Fin 6)); decide)]
  rfl
theorem sco0_l_3 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.lhsIdx i q 3).val = (i 3).val := by
  unfold DotDims.lhsIdx
  rw [dif_pos (show (3 : Fin S4x4x32x32x64x4.rank) ∈ dot_S4x4x32x32x64x4_S4x4x32x32x64x4_S4x4x32x32x64x64_5_5_4_4_0123_0123.lhsBatch by show (3 : Fin 6) ∈ ([0, 1, 2, 3] : List (Fin 6)); decide)]
  rfl
theorem sco0_l_4 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.lhsIdx i q 4).val = (i 4).val := by
  unfold DotDims.lhsIdx
  rw [dif_neg (show ¬(4 : Fin S4x4x32x32x64x4.rank) ∈ dot_S4x4x32x32x64x4_S4x4x32x32x64x4_S4x4x32x32x64x64_5_5_4_4_0123_0123.lhsBatch by show ¬(4 : Fin 6) ∈ ([0, 1, 2, 3] : List (Fin 6)); decide), dif_pos (show (4 : Fin S4x4x32x32x64x4.rank) ∈ dot_S4x4x32x32x64x4_S4x4x32x32x64x4_S4x4x32x32x64x64_5_5_4_4_0123_0123.lhsNonContracting by show (4 : Fin 6) ∈ ([4] : List (Fin 6)); decide)]
  rfl
theorem sco0_l_5 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.lhsIdx i q 5).val = (q ⟨0, by show 0 < 1; exact Nat.zero_lt_one⟩).val :=
  dot_S4x4x32x32x64x4_S4x4x32x32x64x4_S4x4x32x32x64x64_5_5_4_4_0123_0123.lhsIdx_val_of_single rfl i q
theorem sco0_r_0 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.rhsIdx i q 0).val = (i 0).val := by
  unfold DotDims.rhsIdx
  rw [dif_pos (show (0 : Fin S4x4x32x32x64x4.rank) ∈ dot_S4x4x32x32x64x4_S4x4x32x32x64x4_S4x4x32x32x64x64_5_5_4_4_0123_0123.rhsBatch by show (0 : Fin 6) ∈ ([0, 1, 2, 3] : List (Fin 6)); decide)]
  rfl
theorem sco0_r_1 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.rhsIdx i q 1).val = (i 1).val := by
  unfold DotDims.rhsIdx
  rw [dif_pos (show (1 : Fin S4x4x32x32x64x4.rank) ∈ dot_S4x4x32x32x64x4_S4x4x32x32x64x4_S4x4x32x32x64x64_5_5_4_4_0123_0123.rhsBatch by show (1 : Fin 6) ∈ ([0, 1, 2, 3] : List (Fin 6)); decide)]
  rfl
theorem sco0_r_2 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.rhsIdx i q 2).val = (i 2).val := by
  unfold DotDims.rhsIdx
  rw [dif_pos (show (2 : Fin S4x4x32x32x64x4.rank) ∈ dot_S4x4x32x32x64x4_S4x4x32x32x64x4_S4x4x32x32x64x64_5_5_4_4_0123_0123.rhsBatch by show (2 : Fin 6) ∈ ([0, 1, 2, 3] : List (Fin 6)); decide)]
  rfl
theorem sco0_r_3 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.rhsIdx i q 3).val = (i 3).val := by
  unfold DotDims.rhsIdx
  rw [dif_pos (show (3 : Fin S4x4x32x32x64x4.rank) ∈ dot_S4x4x32x32x64x4_S4x4x32x32x64x4_S4x4x32x32x64x64_5_5_4_4_0123_0123.rhsBatch by show (3 : Fin 6) ∈ ([0, 1, 2, 3] : List (Fin 6)); decide)]
  rfl
theorem sco0_r_4 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.rhsIdx i q 4).val = (i 5).val := by
  unfold DotDims.rhsIdx
  rw [dif_neg (show ¬(4 : Fin S4x4x32x32x64x4.rank) ∈ dot_S4x4x32x32x64x4_S4x4x32x32x64x4_S4x4x32x32x64x64_5_5_4_4_0123_0123.rhsBatch by show ¬(4 : Fin 6) ∈ ([0, 1, 2, 3] : List (Fin 6)); decide), dif_pos (show (4 : Fin S4x4x32x32x64x4.rank) ∈ dot_S4x4x32x32x64x4_S4x4x32x32x64x4_S4x4x32x32x64x64_5_5_4_4_0123_0123.rhsNonContracting by show (4 : Fin 6) ∈ ([4] : List (Fin 6)); decide)]
  rfl
theorem sco0_r_5 (i : S4x4x32x32x64x64.Idx) (q : dot_S4x4x32x32x64x4_S4x4x32x32x64x4_S4x4x32x32x64x64_5_5_4_4_0123_0123.contr.Idx) :
    (dot_S4x4x32x32x64x4_S4x4x32x32x64x4_S4x4x32x32x64x64_5_5_4_4_0123_0123.rhsIdx i q 5).val = (q ⟨0, by show 0 < 1; exact Nat.zero_lt_one⟩).val :=
  dot_S4x4x32x32x64x4_S4x4x32x32x64x4_S4x4x32x32x64x64_5_5_4_4_0123_0123.rhsIdx_val_of_single rfl i q

/-- The result contraction's operand coordinates (the library's contraction index read axis by axis). -/
theorem res0_l_0 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.lhsIdx i q 0).val = (i 0).val := by
  unfold DotDims.lhsIdx
  rw [dif_pos (show (0 : Fin S4x4x32x32x64x64.rank) ∈ dot_S4x4x32x32x64x64_S4x4x32x32x64x4_S4x4x32x32x64x4_5_4_4_5_0123_0123.lhsBatch by show (0 : Fin 6) ∈ ([0, 1, 2, 3] : List (Fin 6)); decide)]
  rfl
theorem res0_l_1 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.lhsIdx i q 1).val = (i 1).val := by
  unfold DotDims.lhsIdx
  rw [dif_pos (show (1 : Fin S4x4x32x32x64x64.rank) ∈ dot_S4x4x32x32x64x64_S4x4x32x32x64x4_S4x4x32x32x64x4_5_4_4_5_0123_0123.lhsBatch by show (1 : Fin 6) ∈ ([0, 1, 2, 3] : List (Fin 6)); decide)]
  rfl
theorem res0_l_2 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.lhsIdx i q 2).val = (i 2).val := by
  unfold DotDims.lhsIdx
  rw [dif_pos (show (2 : Fin S4x4x32x32x64x64.rank) ∈ dot_S4x4x32x32x64x64_S4x4x32x32x64x4_S4x4x32x32x64x4_5_4_4_5_0123_0123.lhsBatch by show (2 : Fin 6) ∈ ([0, 1, 2, 3] : List (Fin 6)); decide)]
  rfl
theorem res0_l_3 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.lhsIdx i q 3).val = (i 3).val := by
  unfold DotDims.lhsIdx
  rw [dif_pos (show (3 : Fin S4x4x32x32x64x64.rank) ∈ dot_S4x4x32x32x64x64_S4x4x32x32x64x4_S4x4x32x32x64x4_5_4_4_5_0123_0123.lhsBatch by show (3 : Fin 6) ∈ ([0, 1, 2, 3] : List (Fin 6)); decide)]
  rfl
theorem res0_l_4 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.lhsIdx i q 4).val = (i 4).val := by
  unfold DotDims.lhsIdx
  rw [dif_neg (show ¬(4 : Fin S4x4x32x32x64x64.rank) ∈ dot_S4x4x32x32x64x64_S4x4x32x32x64x4_S4x4x32x32x64x4_5_4_4_5_0123_0123.lhsBatch by show ¬(4 : Fin 6) ∈ ([0, 1, 2, 3] : List (Fin 6)); decide), dif_pos (show (4 : Fin S4x4x32x32x64x64.rank) ∈ dot_S4x4x32x32x64x64_S4x4x32x32x64x4_S4x4x32x32x64x4_5_4_4_5_0123_0123.lhsNonContracting by show (4 : Fin 6) ∈ ([4] : List (Fin 6)); decide)]
  rfl
theorem res0_l_5 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.lhsIdx i q 5).val = (q ⟨0, by show 0 < 1; exact Nat.zero_lt_one⟩).val :=
  dot_S4x4x32x32x64x64_S4x4x32x32x64x4_S4x4x32x32x64x4_5_4_4_5_0123_0123.lhsIdx_val_of_single rfl i q
theorem res0_r_0 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.rhsIdx i q 0).val = (i 0).val := by
  unfold DotDims.rhsIdx
  rw [dif_pos (show (0 : Fin S4x4x32x32x64x4.rank) ∈ dot_S4x4x32x32x64x64_S4x4x32x32x64x4_S4x4x32x32x64x4_5_4_4_5_0123_0123.rhsBatch by show (0 : Fin 6) ∈ ([0, 1, 2, 3] : List (Fin 6)); decide)]
  rfl
theorem res0_r_1 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.rhsIdx i q 1).val = (i 1).val := by
  unfold DotDims.rhsIdx
  rw [dif_pos (show (1 : Fin S4x4x32x32x64x4.rank) ∈ dot_S4x4x32x32x64x64_S4x4x32x32x64x4_S4x4x32x32x64x4_5_4_4_5_0123_0123.rhsBatch by show (1 : Fin 6) ∈ ([0, 1, 2, 3] : List (Fin 6)); decide)]
  rfl
theorem res0_r_2 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.rhsIdx i q 2).val = (i 2).val := by
  unfold DotDims.rhsIdx
  rw [dif_pos (show (2 : Fin S4x4x32x32x64x4.rank) ∈ dot_S4x4x32x32x64x64_S4x4x32x32x64x4_S4x4x32x32x64x4_5_4_4_5_0123_0123.rhsBatch by show (2 : Fin 6) ∈ ([0, 1, 2, 3] : List (Fin 6)); decide)]
  rfl
theorem res0_r_3 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.rhsIdx i q 3).val = (i 3).val := by
  unfold DotDims.rhsIdx
  rw [dif_pos (show (3 : Fin S4x4x32x32x64x4.rank) ∈ dot_S4x4x32x32x64x64_S4x4x32x32x64x4_S4x4x32x32x64x4_5_4_4_5_0123_0123.rhsBatch by show (3 : Fin 6) ∈ ([0, 1, 2, 3] : List (Fin 6)); decide)]
  rfl
theorem res0_r_4 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.rhsIdx i q 4).val = (q ⟨0, by show 0 < 1; exact Nat.zero_lt_one⟩).val :=
  dot_S4x4x32x32x64x64_S4x4x32x32x64x4_S4x4x32x32x64x4_5_4_4_5_0123_0123.rhsIdx_val_of_single rfl i q
theorem res0_r_5 (i : S4x4x32x32x64x4.Idx) (q : dot_S4x4x32x32x64x64_S4x4x32x32x64x4_S4x4x32x32x64x4_5_4_4_5_0123_0123.contr.Idx) :
    (dot_S4x4x32x32x64x64_S4x4x32x32x64x4_S4x4x32x32x64x4_5_4_4_5_0123_0123.rhsIdx i q 5).val = (i 5).val := by
  unfold DotDims.rhsIdx
  rw [dif_neg (show ¬(5 : Fin S4x4x32x32x64x4.rank) ∈ dot_S4x4x32x32x64x64_S4x4x32x32x64x4_S4x4x32x32x64x4_5_4_4_5_0123_0123.rhsBatch by show ¬(5 : Fin 6) ∈ ([0, 1, 2, 3] : List (Fin 6)); decide), dif_pos (show (5 : Fin S4x4x32x32x64x4.rank) ∈ dot_S4x4x32x32x64x64_S4x4x32x32x64x4_S4x4x32x32x64x4_5_4_4_5_0123_0123.rhsNonContracting by show (5 : Fin 6) ∈ ([5] : List (Fin 6)); decide)]
  rfl

end Cert.ReferenceIdeal.Chain

end
-- ==== Proof.RChain0.lean ====
/-
  The reference's 8×8 window attention read at an index.

  `refChain0` at (b, h, c, i, p, j, q) is the window's attention result `Cert.WinAttn.y7_0`. Each stage is read at an
  index built from its coordinates: a transpose permutes coordinates, a reshape keeps the row-major position (token
  p·w + q on the token axis), a contraction is a finite sum over the contracted coordinate, the maximum-reduction is
  the fold of max over the row from −∞ (so taking the maximum with −∞ once more changes nothing), and the
  sum-reduction is the finite sum from 0.
-/
import proofs.«107732_j64072322122319_2_alg».proof.Proof.RChainDef
import proofs.«107732_j64072322122319_2_alg».proof.Proof.RChainIdx0
import Idealize.ShloMosaic.Lib.Pipeline.Value
import Idealize.ShloMosaic.Lib.ValueIdx
import Idealize.ShloMosaic.Lib.ValueIdxRank6
import Idealize.ShloMosaic.PureOps.Ideal.Laws
import Idealize.ShloMosaic.PureOps.Reduce
import proofs.«107732_j64072322122319_2_alg».proof.Proof.LibIdxRank78
import proofs.«107732_j64072322122319_2_alg».proof.Proof.Spec

noncomputable section

namespace Cert.ReferenceIdeal.Chain

open Cert.ReferenceIdeal Cert.ReferenceIdeal.Facts₀ Idealize.ShloMosaic Idealize.ShloMosaic.ValueIdx Cert.Idx

variable [Cert.ReferenceIdeal.Facts]

/-! ## 8×8 windows: each stage at an index -/

theorem tok0_apply (X : FVec Ideal S4x2x4x4x32x8x32x8 .f32) (a : Fin 2) (b h : Fin 4) (i j : Fin 32) (t : Fin 64) (c : Fin 4) :
    tok0 X (ix7 a b h i j t c) = X (ix8 b a h c i (Cert.WinAttn.row8 t) j (Cert.WinAttn.col8 t)) := by
  unfold tok0
  refine (shapeCast_apply _ shapeCasts_S2x4x4x32x32x8x8x4_S2x4x4x32x32x64x4 (ix7 a b h i j t c)
    (ix8 a b h i j (Cert.WinAttn.row8 t) (Cert.WinAttn.col8 t) c) ?_).trans ?_
  · rw [rowMajor_val_eight, rowMajor_val_seven]
    show ((((((a.val * 4 + b.val) * 4 + h.val) * 32 + i.val) * 32 + j.val) * 8 + t.val / 8) * 8 + t.val % 8) * 4 + c.val
      = (((((a.val * 4 + b.val) * 4 + h.val) * 32 + i.val) * 32 + j.val) * 64 + t.val) * 4 + c.val
    omega
  · exact transpose_apply [1, 0, 2, 4, 6, 5, 7, 3] X transposes_S4x2x4x4x32x8x32x8_S2x4x4x32x32x8x8x4_1_0_2_4_6_5_7_3
      (ix8 a b h i j (Cert.WinAttn.row8 t) (Cert.WinAttn.col8 t) c) (ix8 b a h c i (Cert.WinAttn.row8 t) j (Cert.WinAttn.col8 t))
      (fun r => match r with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)

theorem qry0_apply (X : FVec Ideal S4x2x4x4x32x8x32x8 .f32) (b h : Fin 4) (i j : Fin 32) (t : Fin 64) (c : Fin 4) :
    qry0 X (ix6 b h i j t c) = X (ix8 b (0 : Fin 2) h c i (Cert.WinAttn.row8 t) j (Cert.WinAttn.col8 t)) := by
  unfold qry0
  refine (shapeCast_apply _ shapeCasts_S1x4x4x32x32x64x4_S4x4x32x32x64x4 (ix6 b h i j t c) (ix7 (0 : Fin 1) b h i j t c) ?_).trans ?_
  · rw [rowMajor_val_seven, Shape.rowMajor_val_six]
    show (((((0 * 4 + b.val) * 4 + h.val) * 32 + i.val) * 32 + j.val) * 64 + t.val) * 4 + c.val
      = ((((b.val * 4 + h.val) * 32 + i.val) * 32 + j.val) * 64 + t.val) * 4 + c.val
    omega
  refine (extractStridedSlice_apply ![0, 0, 0, 0, 0, 0, 0] (tok0 X) slices_S2x4x4x32x32x64x4_S1x4x4x32x32x64x4_0_0_0_0_0_0_0
    (ix7 (0 : Fin 1) b h i j t c) (ix7 (0 : Fin 2) b h i j t c) (fun r => match r with
      | ⟨0, _⟩ => by show 0 = 0 + 0; rfl
      | ⟨1, _⟩ => by show b.val = 0 + b.val; omega
      | ⟨2, _⟩ => by show h.val = 0 + h.val; omega
      | ⟨3, _⟩ => by show i.val = 0 + i.val; omega
      | ⟨4, _⟩ => by show j.val = 0 + j.val; omega
      | ⟨5, _⟩ => by show t.val = 0 + t.val; omega
      | ⟨6, _⟩ => by show c.val = 0 + c.val; omega)).trans ?_
  exact tok0_apply X 0 b h i j t c

theorem val0_apply (X : FVec Ideal S4x2x4x4x32x8x32x8 .f32) (b h : Fin 4) (i j : Fin 32) (t : Fin 64) (c : Fin 4) :
    val0 X (ix6 b h i j t c) = X (ix8 b (1 : Fin 2) h c i (Cert.WinAttn.row8 t) j (Cert.WinAttn.col8 t)) := by
  unfold val0
  refine (shapeCast_apply _ shapeCasts_S1x4x4x32x32x64x4_S4x4x32x32x64x4 (ix6 b h i j t c) (ix7 (0 : Fin 1) b h i j t c) ?_).trans ?_
  · rw [rowMajor_val_seven, Shape.rowMajor_val_six]
    show (((((0 * 4 + b.val) * 4 + h.val) * 32 + i.val) * 32 + j.val) * 64 + t.val) * 4 + c.val
      = ((((b.val * 4 + h.val) * 32 + i.val) * 32 + j.val) * 64 + t.val) * 4 + c.val
    omega
  refine (extractStridedSlice_apply ![1, 0, 0, 0, 0, 0, 0] (tok0 X) slices_S2x4x4x32x32x64x4_S1x4x4x32x32x64x4_1_0_0_0_0_0_0
    (ix7 (0 : Fin 1) b h i j t c) (ix7 (1 : Fin 2) b h i j t c) (fun r => match r with
      | ⟨0, _⟩ => by show 1 = 1 + 0; rfl
      | ⟨1, _⟩ => by show b.val = 0 + b.val; omega
      | ⟨2, _⟩ => by show h.val = 0 + h.val; omega
      | ⟨3, _⟩ => by show i.val = 0 + i.val; omega
      | ⟨4, _⟩ => by show j.val = 0 + j.val; omega
      | ⟨5, _⟩ => by show t.val = 0 + t.val; omega
      | ⟨6, _⟩ => by show c.val = 0 + c.val; omega)).trans ?_
  exact tok0_apply X 1 b h i j t c

theorem sco0_apply (X : FVec Ideal S4x2x4x4x32x8x32x8 .f32) (b h : Fin 4) (i j : Fin 32) (t s : Fin 64) :
    sco0 X (ix6 b h i j t s)
      = Cert.WinAttn.score (fun c' t' => X (ix8 b (0 : Fin 2) h c' i (Cert.WinAttn.row8 t') j (Cert.WinAttn.col8 t'))) t s := by
  unfold sco0 Cert.WinAttn.score
  simp only [Host.dotGeneral]
  rw [Ideal.dotGeneral_apply, ← Equiv.sum_comp (ValueIdx.contrEquiv1 dot_S4x4x32x32x64x4_S4x4x32x32x64x4_S4x4x32x32x64x64_5_5_4_4_0123_0123 4 rfl rfl).symm]
  refine Finset.sum_congr rfl fun k _ => ?_
  have hk := ValueIdx.contrEquiv1_symm_val dot_S4x4x32x32x64x4_S4x4x32x32x64x4_S4x4x32x32x64x64_5_5_4_4_0123_0123 4 rfl rfl k
  have el : dot_S4x4x32x32x64x4_S4x4x32x32x64x4_S4x4x32x32x64x64_5_5_4_4_0123_0123.lhsIdx (ix6 b h i j t s) ((ValueIdx.contrEquiv1 dot_S4x4x32x32x64x4_S4x4x32x32x64x4_S4x4x32x32x64x64_5_5_4_4_0123_0123 4 rfl rfl).symm k) = ix6 b h i j t k :=
    funext fun a => Fin.ext (by
      match a with
      | ⟨0, _⟩ => exact sco0_l_0 _ _
      | ⟨1, _⟩ => exact sco0_l_1 _ _
      | ⟨2, _⟩ => exact sco0_l_2 _ _
      | ⟨3, _⟩ => exact sco0_l_3 _ _
      | ⟨4, _⟩ => exact sco0_l_4 _ _
      | ⟨5, _⟩ => exact (sco0_l_5 _ _).trans hk)
  have er : dot_S4x4x32x32x64x4_S4x4x32x32x64x4_S4x4x32x32x64x64_5_5_4_4_0123_0123.rhsIdx (ix6 b h i j t s) ((ValueIdx.contrEquiv1 dot_S4x4x32x32x64x4_S4x4x32x32x64x4_S4x4x32x32x64x64_5_5_4_4_0123_0123 4 rfl rfl).symm k) = ix6 b h i j s k :=
    funext fun a => Fin.ext (by
      match a with
      | ⟨0, _⟩ => exact sco0_r_0 _ _
      | ⟨1, _⟩ => exact sco0_r_1 _ _
      | ⟨2, _⟩ => exact sco0_r_2 _ _
      | ⟨3, _⟩ => exact sco0_r_3 _ _
      | ⟨4, _⟩ => exact sco0_r_4 _ _
      | ⟨5, _⟩ => exact (sco0_r_5 _ _).trans hk)
  rw [el, er, qry0_apply, qry0_apply]

/-- A per-row value broadcast back over its row: at (…, t, s) it is the value at (…, t). -/
theorem bc0_apply (y : FVec Ideal S4x4x32x32x64 .f32) (b h : Fin 4) (i j : Fin 32) (t s : Fin 64) :
    broadcastInDim S4x4x32x32x64x64 ![0, 1, 2, 3, 4, 5] bcast_S4x4x32x32x64x1_S4x4x32x32x64x64_0_1_2_3_4_5
        (broadcastInDim S4x4x32x32x64x1 ![0, 1, 2, 3, 4] bcast_S4x4x32x32x64_S4x4x32x32x64x1_0_1_2_3_4 y) (ix6 b h i j t s)
      = y (ix5 b h i j t) := by
  refine (broadcastInDim_apply _ bcast_S4x4x32x32x64x1_S4x4x32x32x64x64_0_1_2_3_4_5 _ (ix6 b h i j t s) (ix6 b h i j t (0 : Fin 1))
    (fun a => match a with
      | ⟨0, _⟩ => by show b.val = if (4 : Nat) = 1 then 0 else b.val; rw [if_neg (by decide)]
      | ⟨1, _⟩ => by show h.val = if (4 : Nat) = 1 then 0 else h.val; rw [if_neg (by decide)]
      | ⟨2, _⟩ => by show i.val = if (32 : Nat) = 1 then 0 else i.val; rw [if_neg (by decide)]
      | ⟨3, _⟩ => by show j.val = if (32 : Nat) = 1 then 0 else j.val; rw [if_neg (by decide)]
      | ⟨4, _⟩ => by show t.val = if (64 : Nat) = 1 then 0 else t.val; rw [if_neg (by decide)]
      | ⟨5, _⟩ => by show 0 = if (1 : Nat) = 1 then 0 else s.val; rw [if_pos rfl])).trans ?_
  exact broadcastInDim_apply _ bcast_S4x4x32x32x64_S4x4x32x32x64x1_0_1_2_3_4 y (ix6 b h i j t (0 : Fin 1)) (ix5 b h i j t)
    (fun a => match a with
      | ⟨0, _⟩ => by show b.val = if (4 : Nat) = 1 then 0 else b.val; rw [if_neg (by decide)]
      | ⟨1, _⟩ => by show h.val = if (4 : Nat) = 1 then 0 else h.val; rw [if_neg (by decide)]
      | ⟨2, _⟩ => by show i.val = if (32 : Nat) = 1 then 0 else i.val; rw [if_neg (by decide)]
      | ⟨3, _⟩ => by show j.val = if (32 : Nat) = 1 then 0 else j.val; rw [if_neg (by decide)]
      | ⟨4, _⟩ => by show t.val = if (64 : Nat) = 1 then 0 else t.val; rw [if_neg (by decide)])

/-- The row maximum: the fold of max over the row's scores from −∞; the further maximum with −∞ is absorbed, the
    fold being at least its initial value. -/
theorem mx0_apply (X : FVec Ideal S4x2x4x4x32x8x32x8 .f32) (b h : Fin 4) (i j : Fin 32) (t : Fin 64) :
    mx0 X (ix5 b h i j t)
      = Cert.WinAttn.rowMax (fun c' t' => X (ix8 b (0 : Fin 2) h c' i (Cert.WinAttn.row8 t') j (Cert.WinAttn.col8 t'))) t := by
  unfold mx0 Cert.WinAttn.rowMax
  generalize (0xFF800000#32 : BitVec 32) = w
  have hR : S4x4x32x32x64x64.Reduces [5] S4x4x32x32x64 := by decide
  have h1 : broadcastInDim S4x4x32x32x64 ![] bcast_S_S4x4x32x32x64 (constant (F := Ideal) S_ .f32 w) (ix5 b h i j t) = Ideal.ofBits .f32 w :=
    broadcastInDim_apply _ bcast_S_S4x4x32x32x64 (constant (F := Ideal) S_ .f32 w) (ix5 b h i j t) ix0 (fun a => a.elim0)
  have h2 : Host.reduce (FloatOps.maximumf (F := Ideal)) (sco0 X) (constant (F := Ideal) S_ .f32 w) reducesTo_S4x4x32x32x64x64_S4x4x32x32x64_d5 h_S_ (ix5 b h i j t)
      = (Finset.univ : Finset (Fin 64)).fold max (Ideal.ofBits .f32 w)
          (fun s => Cert.WinAttn.score (fun c' t' => X (ix8 b (0 : Fin 2) h c' i (Cert.WinAttn.row8 t') j (Cert.WinAttn.col8 t'))) t s) := by
    refine (Host.reduce_eq_fold_single (FloatOps.maximumf (F := Ideal)) (sco0 X) (constant (F := Ideal) S_ .f32 w)
      reducesTo_S4x4x32x32x64x64_S4x4x32x32x64_d5 hR h_S_ (ix5 b h i j t)).trans ?_
    refine (Finset.fold_congr (g := fun s : Fin 64 =>
      Cert.WinAttn.score (fun c' t' => X (ix8 b (0 : Fin 2) h c' i (Cert.WinAttn.row8 t') j (Cert.WinAttn.col8 t'))) t s)
      (fun (s : Fin 64) _ => ?_)).trans rfl
    refine (congrArg (sco0 X) (show hR.lift (ix5 b h i j t) s = ix6 b h i j t s from funext fun a => Fin.ext (by
      match a with
      | ⟨0, _⟩ => rfl | ⟨1, _⟩ => rfl | ⟨2, _⟩ => rfl | ⟨3, _⟩ => rfl | ⟨4, _⟩ => rfl | ⟨5, _⟩ => rfl))).trans ?_
    exact sco0_apply X b h i j t s
  refine (maximumf_apply _ _ _).trans ?_
  rw [h1, h2]
  exact max_eq_right ((Finset.le_fold_max _).2 (Or.inl le_rfl))

theorem wgt0_apply (X : FVec Ideal S4x2x4x4x32x8x32x8 .f32) (b h : Fin 4) (i j : Fin 32) (t s : Fin 64) :
    wgt0 X (ix6 b h i j t s)
      = Cert.WinAttn.weight (fun c' t' => X (ix8 b (0 : Fin 2) h c' i (Cert.WinAttn.row8 t') j (Cert.WinAttn.col8 t'))) t s := by
  unfold wgt0 Cert.WinAttn.weight
  show Ideal.exp (sco0 X (ix6 b h i j t s) - _) = _
  rw [bc0_apply, sco0_apply, mx0_apply]

/-- The normaliser: the reference's sum from 0 over the row. -/
theorem nrm0_apply (X : FVec Ideal S4x2x4x4x32x8x32x8 .f32) (b h : Fin 4) (i j : Fin 32) (t : Fin 64) :
    nrm0 X (ix5 b h i j t)
      = Cert.WinAttn.norm (fun c' t' => X (ix8 b (0 : Fin 2) h c' i (Cert.WinAttn.row8 t') j (Cert.WinAttn.col8 t'))) t := by
  unfold nrm0 Cert.WinAttn.norm
  have hR : S4x4x32x32x64x64.Reduces [5] S4x4x32x32x64 := by decide
  simp only [Host.reduceAdd, Ideal.hostReduceAdd_def]
  rw [Ideal.hostReduceAdd_single reducesTo_S4x4x32x32x64x64_S4x4x32x32x64_d5 hR]
  refine (congrArg (· + _) ((ValueIdx.constant_apply _ _).trans Ideal.ofBits_zero_f32)).trans ?_
  refine (zero_add _).trans ?_
  refine Finset.sum_congr rfl fun (s : Fin 64) _ => ?_
  refine (congrArg (wgt0 X) (show hR.lift (ix5 b h i j t) s = ix6 b h i j t s from funext fun a => Fin.ext (by
    match a with
    | ⟨0, _⟩ => rfl | ⟨1, _⟩ => rfl | ⟨2, _⟩ => rfl | ⟨3, _⟩ => rfl | ⟨4, _⟩ => rfl | ⟨5, _⟩ => rfl))).trans ?_
  exact wgt0_apply X b h i j t s

theorem prb0_apply (X : FVec Ideal S4x2x4x4x32x8x32x8 .f32) (b h : Fin 4) (i j : Fin 32) (t s : Fin 64) :
    prb0 X (ix6 b h i j t s)
      = Cert.WinAttn.prob (fun c' t' => X (ix8 b (0 : Fin 2) h c' i (Cert.WinAttn.row8 t') j (Cert.WinAttn.col8 t'))) t s := by
  unfold prb0 Cert.WinAttn.prob
  show Ideal.div (wgt0 X (ix6 b h i j t s)) _ = _
  rw [bc0_apply, wgt0_apply, nrm0_apply]

theorem res0_apply (X : FVec Ideal S4x2x4x4x32x8x32x8 .f32) (b h : Fin 4) (i j : Fin 32) (t : Fin 64) (c : Fin 4) :
    res0 X (ix6 b h i j t c)
      = Cert.WinAttn.out (fun c' t' => X (ix8 b (0 : Fin 2) h c' i (Cert.WinAttn.row8 t') j (Cert.WinAttn.col8 t')))
          (fun c' s => X (ix8 b (1 : Fin 2) h c' i (Cert.WinAttn.row8 s) j (Cert.WinAttn.col8 s))) c t := by
  unfold res0 Cert.WinAttn.out
  simp only [Host.dotGeneral]
  rw [Ideal.dotGeneral_apply, ← Equiv.sum_comp (ValueIdx.contrEquiv1 dot_S4x4x32x32x64x64_S4x4x32x32x64x4_S4x4x32x32x64x4_5_4_4_5_0123_0123 64 rfl rfl).symm]
  refine Finset.sum_congr rfl fun k _ => ?_
  have hk := ValueIdx.contrEquiv1_symm_val dot_S4x4x32x32x64x64_S4x4x32x32x64x4_S4x4x32x32x64x4_5_4_4_5_0123_0123 64 rfl rfl k
  have el : dot_S4x4x32x32x64x64_S4x4x32x32x64x4_S4x4x32x32x64x4_5_4_4_5_0123_0123.lhsIdx (ix6 b h i j t c) ((ValueIdx.contrEquiv1 dot_S4x4x32x32x64x64_S4x4x32x32x64x4_S4x4x32x32x64x4_5_4_4_5_0123_0123 64 rfl rfl).symm k) = ix6 b h i j t k :=
    funext fun a => Fin.ext (by
      match a with
      | ⟨0, _⟩ => exact res0_l_0 _ _
      | ⟨1, _⟩ => exact res0_l_1 _ _
      | ⟨2, _⟩ => exact res0_l_2 _ _
      | ⟨3, _⟩ => exact res0_l_3 _ _
      | ⟨4, _⟩ => exact res0_l_4 _ _
      | ⟨5, _⟩ => exact (res0_l_5 _ _).trans hk)
  have er : dot_S4x4x32x32x64x64_S4x4x32x32x64x4_S4x4x32x32x64x4_5_4_4_5_0123_0123.rhsIdx (ix6 b h i j t c) ((ValueIdx.contrEquiv1 dot_S4x4x32x32x64x64_S4x4x32x32x64x4_S4x4x32x32x64x4_5_4_4_5_0123_0123 64 rfl rfl).symm k) = ix6 b h i j k c :=
    funext fun a => Fin.ext (by
      match a with
      | ⟨0, _⟩ => exact res0_r_0 _ _
      | ⟨1, _⟩ => exact res0_r_1 _ _
      | ⟨2, _⟩ => exact res0_r_2 _ _
      | ⟨3, _⟩ => exact res0_r_3 _ _
      | ⟨4, _⟩ => exact (res0_r_4 _ _).trans hk
      | ⟨5, _⟩ => exact res0_r_5 _ _)
  rw [el, er, prb0_apply, val0_apply]
  exact mul_comm _ _

/-- The 8×8 chain at (b, h, c, i, p, j, q): the window's attention result at channel c, token p·8 + q. -/
theorem refChain0_apply (X : FVec Ideal S4x2x4x4x32x8x32x8 .f32) (b h c : Fin 4) (i : Fin 32) (p : Fin 8) (j : Fin 32) (q : Fin 8) :
    refChain0 X (ix7 b h c i p j q) = Cert.WinAttn.y7_0 X b h c i p j q := by
  rw [refChain0_eq]
  refine (transpose_apply [0, 1, 6, 2, 4, 3, 5] _ transposes_S4x4x32x32x8x8x4_S4x4x4x32x8x32x8_0_1_6_2_4_3_5
    (ix7 b h c i p j q) (ix7 b h i j p q c) (fun r => match r with
      | ⟨0, _⟩ => rfl | ⟨1, _⟩ => rfl | ⟨2, _⟩ => rfl | ⟨3, _⟩ => rfl | ⟨4, _⟩ => rfl | ⟨5, _⟩ => rfl | ⟨6, _⟩ => rfl)).trans ?_
  refine (shapeCast_apply (res0 X) shapeCasts_S4x4x32x32x64x4_S4x4x32x32x8x8x4 (ix7 b h i j p q c)
    (ix6 b h i j (Cert.WinAttn.tok8 p q) c) ?_).trans ?_
  · rw [Shape.rowMajor_val_six, rowMajor_val_seven]
    show ((((b.val * 4 + h.val) * 32 + i.val) * 32 + j.val) * 64 + (p.val * 8 + q.val)) * 4 + c.val
      = (((((b.val * 4 + h.val) * 32 + i.val) * 32 + j.val) * 8 + p.val) * 8 + q.val) * 4 + c.val
    omega
  exact res0_apply X b h i j (Cert.WinAttn.tok8 p q) c

end Cert.ReferenceIdeal.Chain

end
-- ==== Proof.RChainIdx1.lean ====
/-
  The two contractions of the 16×16 window attention, read axis by axis.

  The library gives a contraction's operand indices as functions of the result index and the contraction index,
  defined by cases on which list of the dimension numbers an operand axis is in. For the score contraction (queries
  against queries over the channel) and the result contraction (weights against values over the tokens) these lemmas
  say, for each operand axis, which coordinate of the result index or of the contraction index it reads.
-/
import proofs.«107732_j64072322122319_2_alg».proof.ReferenceIdeal
import Idealize.ShloMosaic.Lib.ValueIdx

noncomputable section

namespace Cert.ReferenceIdeal.Chain

open Cert.ReferenceIdeal Cert.ReferenceIdeal.Facts₀ Idealize.ShloMosaic

variable [Cert.ReferenceIdeal.Facts]

/-- The score contraction's operand coordinates (the library's contraction index read axis by axis). -/
theorem sco1_l_0 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.lhsIdx i q 0).val = (i 0).val := by
  unfold DotDims.lhsIdx
  rw [dif_pos (show (0 : Fin S4x4x16x16x256x4.rank) ∈ dot_S4x4x16x16x256x4_S4x4x16x16x256x4_S4x4x16x16x256x256_5_5_4_4_0123_0123.lhsBatch by show (0 : Fin 6) ∈ ([0, 1, 2, 3] : List (Fin 6)); decide)]
  rfl
theorem sco1_l_1 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.lhsIdx i q 1).val = (i 1).val := by
  unfold DotDims.lhsIdx
  rw [dif_pos (show (1 : Fin S4x4x16x16x256x4.rank) ∈ dot_S4x4x16x16x256x4_S4x4x16x16x256x4_S4x4x16x16x256x256_5_5_4_4_0123_0123.lhsBatch by show (1 : Fin 6) ∈ ([0, 1, 2, 3] : List (Fin 6)); decide)]
  rfl
theorem sco1_l_2 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.lhsIdx i q 2).val = (i 2).val := by
  unfold DotDims.lhsIdx
  rw [dif_pos (show (2 : Fin S4x4x16x16x256x4.rank) ∈ dot_S4x4x16x16x256x4_S4x4x16x16x256x4_S4x4x16x16x256x256_5_5_4_4_0123_0123.lhsBatch by show (2 : Fin 6) ∈ ([0, 1, 2, 3] : List (Fin 6)); decide)]
  rfl
theorem sco1_l_3 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.lhsIdx i q 3).val = (i 3).val := by
  unfold DotDims.lhsIdx
  rw [dif_pos (show (3 : Fin S4x4x16x16x256x4.rank) ∈ dot_S4x4x16x16x256x4_S4x4x16x16x256x4_S4x4x16x16x256x256_5_5_4_4_0123_0123.lhsBatch by show (3 : Fin 6) ∈ ([0, 1, 2, 3] : List (Fin 6)); decide)]
  rfl
theorem sco1_l_4 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.lhsIdx i q 4).val = (i 4).val := by
  unfold DotDims.lhsIdx
  rw [dif_neg (show ¬(4 : Fin S4x4x16x16x256x4.rank) ∈ dot_S4x4x16x16x256x4_S4x4x16x16x256x4_S4x4x16x16x256x256_5_5_4_4_0123_0123.lhsBatch by show ¬(4 : Fin 6) ∈ ([0, 1, 2, 3] : List (Fin 6)); decide), dif_pos (show (4 : Fin S4x4x16x16x256x4.rank) ∈ dot_S4x4x16x16x256x4_S4x4x16x16x256x4_S4x4x16x16x256x256_5_5_4_4_0123_0123.lhsNonContracting by show (4 : Fin 6) ∈ ([4] : List (Fin 6)); decide)]
  rfl
theorem sco1_l_5 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.lhsIdx i q 5).val = (q ⟨0, by show 0 < 1; exact Nat.zero_lt_one⟩).val :=
  dot_S4x4x16x16x256x4_S4x4x16x16x256x4_S4x4x16x16x256x256_5_5_4_4_0123_0123.lhsIdx_val_of_single rfl i q
theorem sco1_r_0 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.rhsIdx i q 0).val = (i 0).val := by
  unfold DotDims.rhsIdx
  rw [dif_pos (show (0 : Fin S4x4x16x16x256x4.rank) ∈ dot_S4x4x16x16x256x4_S4x4x16x16x256x4_S4x4x16x16x256x256_5_5_4_4_0123_0123.rhsBatch by show (0 : Fin 6) ∈ ([0, 1, 2, 3] : List (Fin 6)); decide)]
  rfl
theorem sco1_r_1 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.rhsIdx i q 1).val = (i 1).val := by
  unfold DotDims.rhsIdx
  rw [dif_pos (show (1 : Fin S4x4x16x16x256x4.rank) ∈ dot_S4x4x16x16x256x4_S4x4x16x16x256x4_S4x4x16x16x256x256_5_5_4_4_0123_0123.rhsBatch by show (1 : Fin 6) ∈ ([0, 1, 2, 3] : List (Fin 6)); decide)]
  rfl
theorem sco1_r_2 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.rhsIdx i q 2).val = (i 2).val := by
  unfold DotDims.rhsIdx
  rw [dif_pos (show (2 : Fin S4x4x16x16x256x4.rank) ∈ dot_S4x4x16x16x256x4_S4x4x16x16x256x4_S4x4x16x16x256x256_5_5_4_4_0123_0123.rhsBatch by show (2 : Fin 6) ∈ ([0, 1, 2, 3] : List (Fin 6)); decide)]
  rfl
theorem sco1_r_3 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.rhsIdx i q 3).val = (i 3).val := by
  unfold DotDims.rhsIdx
  rw [dif_pos (show (3 : Fin S4x4x16x16x256x4.rank) ∈ dot_S4x4x16x16x256x4_S4x4x16x16x256x4_S4x4x16x16x256x256_5_5_4_4_0123_0123.rhsBatch by show (3 : Fin 6) ∈ ([0, 1, 2, 3] : List (Fin 6)); decide)]
  rfl
theorem sco1_r_4 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.rhsIdx i q 4).val = (i 5).val := by
  unfold DotDims.rhsIdx
  rw [dif_neg (show ¬(4 : Fin S4x4x16x16x256x4.rank) ∈ dot_S4x4x16x16x256x4_S4x4x16x16x256x4_S4x4x16x16x256x256_5_5_4_4_0123_0123.rhsBatch by show ¬(4 : Fin 6) ∈ ([0, 1, 2, 3] : List (Fin 6)); decide), dif_pos (show (4 : Fin S4x4x16x16x256x4.rank) ∈ dot_S4x4x16x16x256x4_S4x4x16x16x256x4_S4x4x16x16x256x256_5_5_4_4_0123_0123.rhsNonContracting by show (4 : Fin 6) ∈ ([4] : List (Fin 6)); decide)]
  rfl
theorem sco1_r_5 (i : S4x4x16x16x256x256.Idx) (q : dot_S4x4x16x16x256x4_S4x4x16x16x256x4_S4x4x16x16x256x256_5_5_4_4_0123_0123.contr.Idx) :
    (dot_S4x4x16x16x256x4_S4x4x16x16x256x4_S4x4x16x16x256x256_5_5_4_4_0123_0123.rhsIdx i q 5).val = (q ⟨0, by show 0 < 1; exact Nat.zero_lt_one⟩).val :=
  dot_S4x4x16x16x256x4_S4x4x16x16x256x4_S4x4x16x16x256x256_5_5_4_4_0123_0123.rhsIdx_val_of_single rfl i q

/-- The result contraction's operand coordinates (the library's contraction index read axis by axis). -/
theorem res1_l_0 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.lhsIdx i q 0).val = (i 0).val := by
  unfold DotDims.lhsIdx
  rw [dif_pos (show (0 : Fin S4x4x16x16x256x256.rank) ∈ dot_S4x4x16x16x256x256_S4x4x16x16x256x4_S4x4x16x16x256x4_5_4_4_5_0123_0123.lhsBatch by show (0 : Fin 6) ∈ ([0, 1, 2, 3] : List (Fin 6)); decide)]
  rfl
theorem res1_l_1 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.lhsIdx i q 1).val = (i 1).val := by
  unfold DotDims.lhsIdx
  rw [dif_pos (show (1 : Fin S4x4x16x16x256x256.rank) ∈ dot_S4x4x16x16x256x256_S4x4x16x16x256x4_S4x4x16x16x256x4_5_4_4_5_0123_0123.lhsBatch by show (1 : Fin 6) ∈ ([0, 1, 2, 3] : List (Fin 6)); decide)]
  rfl
theorem res1_l_2 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.lhsIdx i q 2).val = (i 2).val := by
  unfold DotDims.lhsIdx
  rw [dif_pos (show (2 : Fin S4x4x16x16x256x256.rank) ∈ dot_S4x4x16x16x256x256_S4x4x16x16x256x4_S4x4x16x16x256x4_5_4_4_5_0123_0123.lhsBatch by show (2 : Fin 6) ∈ ([0, 1, 2, 3] : List (Fin 6)); decide)]
  rfl
theorem res1_l_3 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.lhsIdx i q 3).val = (i 3).val := by
  unfold DotDims.lhsIdx
  rw [dif_pos (show (3 : Fin S4x4x16x16x256x256.rank) ∈ dot_S4x4x16x16x256x256_S4x4x16x16x256x4_S4x4x16x16x256x4_5_4_4_5_0123_0123.lhsBatch by show (3 : Fin 6) ∈ ([0, 1, 2, 3] : List (Fin 6)); decide)]
  rfl
theorem res1_l_4 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.lhsIdx i q 4).val = (i 4).val := by
  unfold DotDims.lhsIdx
  rw [dif_neg (show ¬(4 : Fin S4x4x16x16x256x256.rank) ∈ dot_S4x4x16x16x256x256_S4x4x16x16x256x4_S4x4x16x16x256x4_5_4_4_5_0123_0123.lhsBatch by show ¬(4 : Fin 6) ∈ ([0, 1, 2, 3] : List (Fin 6)); decide), dif_pos (show (4 : Fin S4x4x16x16x256x256.rank) ∈ dot_S4x4x16x16x256x256_S4x4x16x16x256x4_S4x4x16x16x256x4_5_4_4_5_0123_0123.lhsNonContracting by show (4 : Fin 6) ∈ ([4] : List (Fin 6)); decide)]
  rfl
theorem res1_l_5 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.lhsIdx i q 5).val = (q ⟨0, by show 0 < 1; exact Nat.zero_lt_one⟩).val :=
  dot_S4x4x16x16x256x256_S4x4x16x16x256x4_S4x4x16x16x256x4_5_4_4_5_0123_0123.lhsIdx_val_of_single rfl i q
theorem res1_r_0 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.rhsIdx i q 0).val = (i 0).val := by
  unfold DotDims.rhsIdx
  rw [dif_pos (show (0 : Fin S4x4x16x16x256x4.rank) ∈ dot_S4x4x16x16x256x256_S4x4x16x16x256x4_S4x4x16x16x256x4_5_4_4_5_0123_0123.rhsBatch by show (0 : Fin 6) ∈ ([0, 1, 2, 3] : List (Fin 6)); decide)]
  rfl
theorem res1_r_1 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.rhsIdx i q 1).val = (i 1).val := by
  unfold DotDims.rhsIdx
  rw [dif_pos (show (1 : Fin S4x4x16x16x256x4.rank) ∈ dot_S4x4x16x16x256x256_S4x4x16x16x256x4_S4x4x16x16x256x4_5_4_4_5_0123_0123.rhsBatch by show (1 : Fin 6) ∈ ([0, 1, 2, 3] : List (Fin 6)); decide)]
  rfl
theorem res1_r_2 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.rhsIdx i q 2).val = (i 2).val := by
  unfold DotDims.rhsIdx
  rw [dif_pos (show (2 : Fin S4x4x16x16x256x4.rank) ∈ dot_S4x4x16x16x256x256_S4x4x16x16x256x4_S4x4x16x16x256x4_5_4_4_5_0123_0123.rhsBatch by show (2 : Fin 6) ∈ ([0, 1, 2, 3] : List (Fin 6)); decide)]
  rfl
theorem res1_r_3 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.rhsIdx i q 3).val = (i 3).val := by
  unfold DotDims.rhsIdx
  rw [dif_pos (show (3 : Fin S4x4x16x16x256x4.rank) ∈ dot_S4x4x16x16x256x256_S4x4x16x16x256x4_S4x4x16x16x256x4_5_4_4_5_0123_0123.rhsBatch by show (3 : Fin 6) ∈ ([0, 1, 2, 3] : List (Fin 6)); decide)]
  rfl
theorem res1_r_4 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.rhsIdx i q 4).val = (q ⟨0, by show 0 < 1; exact Nat.zero_lt_one⟩).val :=
  dot_S4x4x16x16x256x256_S4x4x16x16x256x4_S4x4x16x16x256x4_5_4_4_5_0123_0123.rhsIdx_val_of_single rfl i q
theorem res1_r_5 (i : S4x4x16x16x256x4.Idx) (q : dot_S4x4x16x16x256x256_S4x4x16x16x256x4_S4x4x16x16x256x4_5_4_4_5_0123_0123.contr.Idx) :
    (dot_S4x4x16x16x256x256_S4x4x16x16x256x4_S4x4x16x16x256x4_5_4_4_5_0123_0123.rhsIdx i q 5).val = (i 5).val := by
  unfold DotDims.rhsIdx
  rw [dif_neg (show ¬(5 : Fin S4x4x16x16x256x4.rank) ∈ dot_S4x4x16x16x256x256_S4x4x16x16x256x4_S4x4x16x16x256x4_5_4_4_5_0123_0123.rhsBatch by show ¬(5 : Fin 6) ∈ ([0, 1, 2, 3] : List (Fin 6)); decide), dif_pos (show (5 : Fin S4x4x16x16x256x4.rank) ∈ dot_S4x4x16x16x256x256_S4x4x16x16x256x4_S4x4x16x16x256x4_5_4_4_5_0123_0123.rhsNonContracting by show (5 : Fin 6) ∈ ([5] : List (Fin 6)); decide)]
  rfl

end Cert.ReferenceIdeal.Chain

end
-- ==== Proof.RChain1.lean ====
/-
  The reference's 16×16 window attention read at an index.

  `refChain1` at (b, h, c, i, p, j, q) is the window's attention result `Cert.WinAttn.y7_1`. Each stage is read at an
  index built from its coordinates: a transpose permutes coordinates, a reshape keeps the row-major position (token
  p·w + q on the token axis), a contraction is a finite sum over the contracted coordinate, the maximum-reduction is
  the fold of max over the row from −∞ (so taking the maximum with −∞ once more changes nothing), and the
  sum-reduction is the finite sum from 0.
-/
import proofs.«107732_j64072322122319_2_alg».proof.Proof.RChainDef
import proofs.«107732_j64072322122319_2_alg».proof.Proof.RChainIdx1
import Idealize.ShloMosaic.Lib.Pipeline.Value
import Idealize.ShloMosaic.Lib.ValueIdx
import Idealize.ShloMosaic.Lib.ValueIdxRank6
import Idealize.ShloMosaic.PureOps.Ideal.Laws
import Idealize.ShloMosaic.PureOps.Reduce
import proofs.«107732_j64072322122319_2_alg».proof.Proof.LibIdxRank78
import proofs.«107732_j64072322122319_2_alg».proof.Proof.Spec

noncomputable section

namespace Cert.ReferenceIdeal.Chain

open Cert.ReferenceIdeal Cert.ReferenceIdeal.Facts₀ Idealize.ShloMosaic Idealize.ShloMosaic.ValueIdx Cert.Idx

variable [Cert.ReferenceIdeal.Facts]

/-! ## 16×16 windows: each stage at an index -/

theorem tok1_apply (X : FVec Ideal S4x2x4x4x16x16x16x16 .f32) (a : Fin 2) (b h : Fin 4) (i j : Fin 16) (t : Fin 256) (c : Fin 4) :
    tok1 X (ix7 a b h i j t c) = X (ix8 b a h c i (Cert.WinAttn.row16 t) j (Cert.WinAttn.col16 t)) := by
  unfold tok1
  refine (shapeCast_apply _ shapeCasts_S2x4x4x16x16x16x16x4_S2x4x4x16x16x256x4 (ix7 a b h i j t c)
    (ix8 a b h i j (Cert.WinAttn.row16 t) (Cert.WinAttn.col16 t) c) ?_).trans ?_
  · rw [rowMajor_val_eight, rowMajor_val_seven]
    show ((((((a.val * 4 + b.val) * 4 + h.val) * 16 + i.val) * 16 + j.val) * 16 + t.val / 16) * 16 + t.val % 16) * 4 + c.val
      = (((((a.val * 4 + b.val) * 4 + h.val) * 16 + i.val) * 16 + j.val) * 256 + t.val) * 4 + c.val
    omega
  · exact transpose_apply [1, 0, 2, 4, 6, 5, 7, 3] X transposes_S4x2x4x4x16x16x16x16_S2x4x4x16x16x16x16x4_1_0_2_4_6_5_7_3
      (ix8 a b h i j (Cert.WinAttn.row16 t) (Cert.WinAttn.col16 t) c) (ix8 b a h c i (Cert.WinAttn.row16 t) j (Cert.WinAttn.col16 t))
      (fun r => match r with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)

theorem qry1_apply (X : FVec Ideal S4x2x4x4x16x16x16x16 .f32) (b h : Fin 4) (i j : Fin 16) (t : Fin 256) (c : Fin 4) :
    qry1 X (ix6 b h i j t c) = X (ix8 b (0 : Fin 2) h c i (Cert.WinAttn.row16 t) j (Cert.WinAttn.col16 t)) := by
  unfold qry1
  refine (shapeCast_apply _ shapeCasts_S1x4x4x16x16x256x4_S4x4x16x16x256x4 (ix6 b h i j t c) (ix7 (0 : Fin 1) b h i j t c) ?_).trans ?_
  · rw [rowMajor_val_seven, Shape.rowMajor_val_six]
    show (((((0 * 4 + b.val) * 4 + h.val) * 16 + i.val) * 16 + j.val) * 256 + t.val) * 4 + c.val
      = ((((b.val * 4 + h.val) * 16 + i.val) * 16 + j.val) * 256 + t.val) * 4 + c.val
    omega
  refine (extractStridedSlice_apply ![0, 0, 0, 0, 0, 0, 0] (tok1 X) slices_S2x4x4x16x16x256x4_S1x4x4x16x16x256x4_0_0_0_0_0_0_0
    (ix7 (0 : Fin 1) b h i j t c) (ix7 (0 : Fin 2) b h i j t c) (fun r => match r with
      | ⟨0, _⟩ => by show 0 = 0 + 0; rfl
      | ⟨1, _⟩ => by show b.val = 0 + b.val; omega
      | ⟨2, _⟩ => by show h.val = 0 + h.val; omega
      | ⟨3, _⟩ => by show i.val = 0 + i.val; omega
      | ⟨4, _⟩ => by show j.val = 0 + j.val; omega
      | ⟨5, _⟩ => by show t.val = 0 + t.val; omega
      | ⟨6, _⟩ => by show c.val = 0 + c.val; omega)).trans ?_
  exact tok1_apply X 0 b h i j t c

theorem val1_apply (X : FVec Ideal S4x2x4x4x16x16x16x16 .f32) (b h : Fin 4) (i j : Fin 16) (t : Fin 256) (c : Fin 4) :
    val1 X (ix6 b h i j t c) = X (ix8 b (1 : Fin 2) h c i (Cert.WinAttn.row16 t) j (Cert.WinAttn.col16 t)) := by
  unfold val1
  refine (shapeCast_apply _ shapeCasts_S1x4x4x16x16x256x4_S4x4x16x16x256x4 (ix6 b h i j t c) (ix7 (0 : Fin 1) b h i j t c) ?_).trans ?_
  · rw [rowMajor_val_seven, Shape.rowMajor_val_six]
    show (((((0 * 4 + b.val) * 4 + h.val) * 16 + i.val) * 16 + j.val) * 256 + t.val) * 4 + c.val
      = ((((b.val * 4 + h.val) * 16 + i.val) * 16 + j.val) * 256 + t.val) * 4 + c.val
    omega
  refine (extractStridedSlice_apply ![1, 0, 0, 0, 0, 0, 0] (tok1 X) slices_S2x4x4x16x16x256x4_S1x4x4x16x16x256x4_1_0_0_0_0_0_0
    (ix7 (0 : Fin 1) b h i j t c) (ix7 (1 : Fin 2) b h i j t c) (fun r => match r with
      | ⟨0, _⟩ => by show 1 = 1 + 0; rfl
      | ⟨1, _⟩ => by show b.val = 0 + b.val; omega
      | ⟨2, _⟩ => by show h.val = 0 + h.val; omega
      | ⟨3, _⟩ => by show i.val = 0 + i.val; omega
      | ⟨4, _⟩ => by show j.val = 0 + j.val; omega
      | ⟨5, _⟩ => by show t.val = 0 + t.val; omega
      | ⟨6, _⟩ => by show c.val = 0 + c.val; omega)).trans ?_
  exact tok1_apply X 1 b h i j t c

theorem sco1_apply (X : FVec Ideal S4x2x4x4x16x16x16x16 .f32) (b h : Fin 4) (i j : Fin 16) (t s : Fin 256) :
    sco1 X (ix6 b h i j t s)
      = Cert.WinAttn.score (fun c' t' => X (ix8 b (0 : Fin 2) h c' i (Cert.WinAttn.row16 t') j (Cert.WinAttn.col16 t'))) t s := by
  unfold sco1 Cert.WinAttn.score
  simp only [Host.dotGeneral]
  rw [Ideal.dotGeneral_apply, ← Equiv.sum_comp (ValueIdx.contrEquiv1 dot_S4x4x16x16x256x4_S4x4x16x16x256x4_S4x4x16x16x256x256_5_5_4_4_0123_0123 4 rfl rfl).symm]
  refine Finset.sum_congr rfl fun k _ => ?_
  have hk := ValueIdx.contrEquiv1_symm_val dot_S4x4x16x16x256x4_S4x4x16x16x256x4_S4x4x16x16x256x256_5_5_4_4_0123_0123 4 rfl rfl k
  have el : dot_S4x4x16x16x256x4_S4x4x16x16x256x4_S4x4x16x16x256x256_5_5_4_4_0123_0123.lhsIdx (ix6 b h i j t s) ((ValueIdx.contrEquiv1 dot_S4x4x16x16x256x4_S4x4x16x16x256x4_S4x4x16x16x256x256_5_5_4_4_0123_0123 4 rfl rfl).symm k) = ix6 b h i j t k :=
    funext fun a => Fin.ext (by
      match a with
      | ⟨0, _⟩ => exact sco1_l_0 _ _
      | ⟨1, _⟩ => exact sco1_l_1 _ _
      | ⟨2, _⟩ => exact sco1_l_2 _ _
      | ⟨3, _⟩ => exact sco1_l_3 _ _
      | ⟨4, _⟩ => exact sco1_l_4 _ _
      | ⟨5, _⟩ => exact (sco1_l_5 _ _).trans hk)
  have er : dot_S4x4x16x16x256x4_S4x4x16x16x256x4_S4x4x16x16x256x256_5_5_4_4_0123_0123.rhsIdx (ix6 b h i j t s) ((ValueIdx.contrEquiv1 dot_S4x4x16x16x256x4_S4x4x16x16x256x4_S4x4x16x16x256x256_5_5_4_4_0123_0123 4 rfl rfl).symm k) = ix6 b h i j s k :=
    funext fun a => Fin.ext (by
      match a with
      | ⟨0, _⟩ => exact sco1_r_0 _ _
      | ⟨1, _⟩ => exact sco1_r_1 _ _
      | ⟨2, _⟩ => exact sco1_r_2 _ _
      | ⟨3, _⟩ => exact sco1_r_3 _ _
      | ⟨4, _⟩ => exact sco1_r_4 _ _
      | ⟨5, _⟩ => exact (sco1_r_5 _ _).trans hk)
  rw [el, er, qry1_apply, qry1_apply]

/-- A per-row value broadcast back over its row: at (…, t, s) it is the value at (…, t). -/
theorem bc1_apply (y : FVec Ideal S4x4x16x16x256 .f32) (b h : Fin 4) (i j : Fin 16) (t s : Fin 256) :
    broadcastInDim S4x4x16x16x256x256 ![0, 1, 2, 3, 4, 5] bcast_S4x4x16x16x256x1_S4x4x16x16x256x256_0_1_2_3_4_5
        (broadcastInDim S4x4x16x16x256x1 ![0, 1, 2, 3, 4] bcast_S4x4x16x16x256_S4x4x16x16x256x1_0_1_2_3_4 y) (ix6 b h i j t s)
      = y (ix5 b h i j t) := by
  refine (broadcastInDim_apply _ bcast_S4x4x16x16x256x1_S4x4x16x16x256x256_0_1_2_3_4_5 _ (ix6 b h i j t s) (ix6 b h i j t (0 : Fin 1))
    (fun a => match a with
      | ⟨0, _⟩ => by show b.val = if (4 : Nat) = 1 then 0 else b.val; rw [if_neg (by decide)]
      | ⟨1, _⟩ => by show h.val = if (4 : Nat) = 1 then 0 else h.val; rw [if_neg (by decide)]
      | ⟨2, _⟩ => by show i.val = if (16 : Nat) = 1 then 0 else i.val; rw [if_neg (by decide)]
      | ⟨3, _⟩ => by show j.val = if (16 : Nat) = 1 then 0 else j.val; rw [if_neg (by decide)]
      | ⟨4, _⟩ => by show t.val = if (256 : Nat) = 1 then 0 else t.val; rw [if_neg (by decide)]
      | ⟨5, _⟩ => by show 0 = if (1 : Nat) = 1 then 0 else s.val; rw [if_pos rfl])).trans ?_
  exact broadcastInDim_apply _ bcast_S4x4x16x16x256_S4x4x16x16x256x1_0_1_2_3_4 y (ix6 b h i j t (0 : Fin 1)) (ix5 b h i j t)
    (fun a => match a with
      | ⟨0, _⟩ => by show b.val = if (4 : Nat) = 1 then 0 else b.val; rw [if_neg (by decide)]
      | ⟨1, _⟩ => by show h.val = if (4 : Nat) = 1 then 0 else h.val; rw [if_neg (by decide)]
      | ⟨2, _⟩ => by show i.val = if (16 : Nat) = 1 then 0 else i.val; rw [if_neg (by decide)]
      | ⟨3, _⟩ => by show j.val = if (16 : Nat) = 1 then 0 else j.val; rw [if_neg (by decide)]
      | ⟨4, _⟩ => by show t.val = if (256 : Nat) = 1 then 0 else t.val; rw [if_neg (by decide)])

/-- The row maximum: the fold of max over the row's scores from −∞; the further maximum with −∞ is absorbed, the
    fold being at least its initial value. -/
theorem mx1_apply (X : FVec Ideal S4x2x4x4x16x16x16x16 .f32) (b h : Fin 4) (i j : Fin 16) (t : Fin 256) :
    mx1 X (ix5 b h i j t)
      = Cert.WinAttn.rowMax (fun c' t' => X (ix8 b (0 : Fin 2) h c' i (Cert.WinAttn.row16 t') j (Cert.WinAttn.col16 t'))) t := by
  unfold mx1 Cert.WinAttn.rowMax
  generalize (0xFF800000#32 : BitVec 32) = w
  have hR : S4x4x16x16x256x256.Reduces [5] S4x4x16x16x256 := by decide
  have h1 : broadcastInDim S4x4x16x16x256 ![] bcast_S_S4x4x16x16x256 (constant (F := Ideal) S_ .f32 w) (ix5 b h i j t) = Ideal.ofBits .f32 w :=
    broadcastInDim_apply _ bcast_S_S4x4x16x16x256 (constant (F := Ideal) S_ .f32 w) (ix5 b h i j t) ix0 (fun a => a.elim0)
  have h2 : Host.reduce (FloatOps.maximumf (F := Ideal)) (sco1 X) (constant (F := Ideal) S_ .f32 w) reducesTo_S4x4x16x16x256x256_S4x4x16x16x256_d5 h_S_ (ix5 b h i j t)
      = (Finset.univ : Finset (Fin 256)).fold max (Ideal.ofBits .f32 w)
          (fun s => Cert.WinAttn.score (fun c' t' => X (ix8 b (0 : Fin 2) h c' i (Cert.WinAttn.row16 t') j (Cert.WinAttn.col16 t'))) t s) := by
    refine (Host.reduce_eq_fold_single (FloatOps.maximumf (F := Ideal)) (sco1 X) (constant (F := Ideal) S_ .f32 w)
      reducesTo_S4x4x16x16x256x256_S4x4x16x16x256_d5 hR h_S_ (ix5 b h i j t)).trans ?_
    refine (Finset.fold_congr (g := fun s : Fin 256 =>
      Cert.WinAttn.score (fun c' t' => X (ix8 b (0 : Fin 2) h c' i (Cert.WinAttn.row16 t') j (Cert.WinAttn.col16 t'))) t s)
      (fun (s : Fin 256) _ => ?_)).trans rfl
    refine (congrArg (sco1 X) (show hR.lift (ix5 b h i j t) s = ix6 b h i j t s from funext fun a => Fin.ext (by
      match a with
      | ⟨0, _⟩ => rfl | ⟨1, _⟩ => rfl | ⟨2, _⟩ => rfl | ⟨3, _⟩ => rfl | ⟨4, _⟩ => rfl | ⟨5, _⟩ => rfl))).trans ?_
    exact sco1_apply X b h i j t s
  refine (maximumf_apply _ _ _).trans ?_
  rw [h1, h2]
  exact max_eq_right ((Finset.le_fold_max _).2 (Or.inl le_rfl))

theorem wgt1_apply (X : FVec Ideal S4x2x4x4x16x16x16x16 .f32) (b h : Fin 4) (i j : Fin 16) (t s : Fin 256) :
    wgt1 X (ix6 b h i j t s)
      = Cert.WinAttn.weight (fun c' t' => X (ix8 b (0 : Fin 2) h c' i (Cert.WinAttn.row16 t') j (Cert.WinAttn.col16 t'))) t s := by
  unfold wgt1 Cert.WinAttn.weight
  show Ideal.exp (sco1 X (ix6 b h i j t s) - _) = _
  rw [bc1_apply, sco1_apply, mx1_apply]

/-- The normaliser: the reference's sum from 0 over the row. -/
theorem nrm1_apply (X : FVec Ideal S4x2x4x4x16x16x16x16 .f32) (b h : Fin 4) (i j : Fin 16) (t : Fin 256) :
    nrm1 X (ix5 b h i j t)
      = Cert.WinAttn.norm (fun c' t' => X (ix8 b (0 : Fin 2) h c' i (Cert.WinAttn.row16 t') j (Cert.WinAttn.col16 t'))) t := by
  unfold nrm1 Cert.WinAttn.norm
  have hR : S4x4x16x16x256x256.Reduces [5] S4x4x16x16x256 := by decide
  simp only [Host.reduceAdd, Ideal.hostReduceAdd_def]
  rw [Ideal.hostReduceAdd_single reducesTo_S4x4x16x16x256x256_S4x4x16x16x256_d5 hR]
  refine (congrArg (· + _) ((ValueIdx.constant_apply _ _).trans Ideal.ofBits_zero_f32)).trans ?_
  refine (zero_add _).trans ?_
  refine Finset.sum_congr rfl fun (s : Fin 256) _ => ?_
  refine (congrArg (wgt1 X) (show hR.lift (ix5 b h i j t) s = ix6 b h i j t s from funext fun a => Fin.ext (by
    match a with
    | ⟨0, _⟩ => rfl | ⟨1, _⟩ => rfl | ⟨2, _⟩ => rfl | ⟨3, _⟩ => rfl | ⟨4, _⟩ => rfl | ⟨5, _⟩ => rfl))).trans ?_
  exact wgt1_apply X b h i j t s

theorem prb1_apply (X : FVec Ideal S4x2x4x4x16x16x16x16 .f32) (b h : Fin 4) (i j : Fin 16) (t s : Fin 256) :
    prb1 X (ix6 b h i j t s)
      = Cert.WinAttn.prob (fun c' t' => X (ix8 b (0 : Fin 2) h c' i (Cert.WinAttn.row16 t') j (Cert.WinAttn.col16 t'))) t s := by
  unfold prb1 Cert.WinAttn.prob
  show Ideal.div (wgt1 X (ix6 b h i j t s)) _ = _
  rw [bc1_apply, wgt1_apply, nrm1_apply]

theorem res1_apply (X : FVec Ideal S4x2x4x4x16x16x16x16 .f32) (b h : Fin 4) (i j : Fin 16) (t : Fin 256) (c : Fin 4) :
    res1 X (ix6 b h i j t c)
      = Cert.WinAttn.out (fun c' t' => X (ix8 b (0 : Fin 2) h c' i (Cert.WinAttn.row16 t') j (Cert.WinAttn.col16 t')))
          (fun c' s => X (ix8 b (1 : Fin 2) h c' i (Cert.WinAttn.row16 s) j (Cert.WinAttn.col16 s))) c t := by
  unfold res1 Cert.WinAttn.out
  simp only [Host.dotGeneral]
  rw [Ideal.dotGeneral_apply, ← Equiv.sum_comp (ValueIdx.contrEquiv1 dot_S4x4x16x16x256x256_S4x4x16x16x256x4_S4x4x16x16x256x4_5_4_4_5_0123_0123 256 rfl rfl).symm]
  refine Finset.sum_congr rfl fun k _ => ?_
  have hk := ValueIdx.contrEquiv1_symm_val dot_S4x4x16x16x256x256_S4x4x16x16x256x4_S4x4x16x16x256x4_5_4_4_5_0123_0123 256 rfl rfl k
  have el : dot_S4x4x16x16x256x256_S4x4x16x16x256x4_S4x4x16x16x256x4_5_4_4_5_0123_0123.lhsIdx (ix6 b h i j t c) ((ValueIdx.contrEquiv1 dot_S4x4x16x16x256x256_S4x4x16x16x256x4_S4x4x16x16x256x4_5_4_4_5_0123_0123 256 rfl rfl).symm k) = ix6 b h i j t k :=
    funext fun a => Fin.ext (by
      match a with
      | ⟨0, _⟩ => exact res1_l_0 _ _
      | ⟨1, _⟩ => exact res1_l_1 _ _
      | ⟨2, _⟩ => exact res1_l_2 _ _
      | ⟨3, _⟩ => exact res1_l_3 _ _
      | ⟨4, _⟩ => exact res1_l_4 _ _
      | ⟨5, _⟩ => exact (res1_l_5 _ _).trans hk)
  have er : dot_S4x4x16x16x256x256_S4x4x16x16x256x4_S4x4x16x16x256x4_5_4_4_5_0123_0123.rhsIdx (ix6 b h i j t c) ((ValueIdx.contrEquiv1 dot_S4x4x16x16x256x256_S4x4x16x16x256x4_S4x4x16x16x256x4_5_4_4_5_0123_0123 256 rfl rfl).symm k) = ix6 b h i j k c :=
    funext fun a => Fin.ext (by
      match a with
      | ⟨0, _⟩ => exact res1_r_0 _ _
      | ⟨1, _⟩ => exact res1_r_1 _ _
      | ⟨2, _⟩ => exact res1_r_2 _ _
      | ⟨3, _⟩ => exact res1_r_3 _ _
      | ⟨4, _⟩ => exact (res1_r_4 _ _).trans hk
      | ⟨5, _⟩ => exact res1_r_5 _ _)
  rw [el, er, prb1_apply, val1_apply]
  exact mul_comm _ _

/-- The 16×16 chain at (b, h, c, i, p, j, q): the window's attention result at channel c, token p·16 + q. -/
theorem refChain1_apply (X : FVec Ideal S4x2x4x4x16x16x16x16 .f32) (b h c : Fin 4) (i : Fin 16) (p : Fin 16) (j : Fin 16) (q : Fin 16) :
    refChain1 X (ix7 b h c i p j q) = Cert.WinAttn.y7_1 X b h c i p j q := by
  rw [refChain1_eq]
  refine (transpose_apply [0, 1, 6, 2, 4, 3, 5] _ transposes_S4x4x16x16x16x16x4_S4x4x4x16x16x16x16_0_1_6_2_4_3_5
    (ix7 b h c i p j q) (ix7 b h i j p q c) (fun r => match r with
      | ⟨0, _⟩ => rfl | ⟨1, _⟩ => rfl | ⟨2, _⟩ => rfl | ⟨3, _⟩ => rfl | ⟨4, _⟩ => rfl | ⟨5, _⟩ => rfl | ⟨6, _⟩ => rfl)).trans ?_
  refine (shapeCast_apply (res1 X) shapeCasts_S4x4x16x16x256x4_S4x4x16x16x16x16x4 (ix7 b h i j p q c)
    (ix6 b h i j (Cert.WinAttn.tok16 p q) c) ?_).trans ?_
  · rw [Shape.rowMajor_val_six, rowMajor_val_seven]
    show ((((b.val * 4 + h.val) * 16 + i.val) * 16 + j.val) * 256 + (p.val * 16 + q.val)) * 4 + c.val
      = (((((b.val * 4 + h.val) * 16 + i.val) * 16 + j.val) * 16 + p.val) * 16 + q.val) * 4 + c.val
    omega
  exact res1_apply X b h i j (Cert.WinAttn.tok16 p q) c

end Cert.ReferenceIdeal.Chain

end
-- ==== Proof.RChain.lean ====
/-
  The reference's window attention read at an index: the two results together.

  `refChain0_apply` (8×8 windows) and `refChain1_apply` (16×16 windows) say that the reference's chain of operations,
  as one function of the input cut into windows, is at (b, h, c, i, p, j, q) the window's attention result
  `Cert.WinAttn.y7_0` / `y7_1`. The definitions are in RChainDef, the contractions' index lemmas in RChainIdx0 /
  RChainIdx1, the two proofs in RChain0 / RChain1.
-/
import proofs.«107732_j64072322122319_2_alg».proof.Proof.RChainDef
import proofs.«107732_j64072322122319_2_alg».proof.Proof.RChain0
import proofs.«107732_j64072322122319_2_alg».proof.Proof.RChain1
-- ==== Proof.Bridge.lean ====
/-
  The two programs' window stages meet.

  Around each kernel call the kernel's program stages the input into the tensor tt[a, n, c, t], and cuts the call's result
  array back into windows; with the result array the window function of the staged tensor, the final array is, at
  (b, h, c, i, p, j, q), the window function of the input's rows of window (b, h, i, j). The reference's composed
  operations on the same windowed input are that function too. So the two arrays are equal, for every input.
-/
import proofs.«107732_j64072322122319_2_alg».proof.Proof.KChainG
import proofs.«107732_j64072322122319_2_alg».proof.Proof.RChain

noncomputable section

namespace Cert.Bridge

open Idealize.ShloMosaic Idealize.ShloMosaic.ValueIdx Cert.Idx

variable [Cert.KernelIdeal.Facts] [Cert.ReferenceIdeal.Facts]

open Cert.KernelIdeal Cert.KernelIdeal.Facts₀ in
/-- 8×8 windows: the kernel's staged call, cut back into windows, is the reference's chain. -/
theorem bridge0 (X : FVec Ideal S4x2x4x4x32x8x32x8 .f32) :
    transpose S4x4x4x32x8x32x8 [0, 1, 4, 2, 5, 3, 6] (shapeCast S4x4x32x32x4x8x8 (Cert.KernelIdeal.Hand.G0
        (truncf .bf16 (shapeCast S2x16384x4x64 (transpose S2x4x4x32x32x4x8x8 [1, 0, 2, 4, 6, 3, 5, 7] X
          transposes_S4x2x4x4x32x8x32x8_S2x4x4x32x32x4x8x8_1_0_2_4_6_3_5_7) shapeCasts_S2x4x4x32x32x4x8x8_S2x16384x4x64)
          bitsLt_bf16_f32)) shapeCasts_S16384x4x64_S4x4x32x32x4x8x8)
        transposes_S4x4x32x32x4x8x8_S4x4x4x32x8x32x8_0_1_4_2_5_3_6
      = Cert.ReferenceIdeal.Chain.refChain0 X :=
  Cert.KernelIdeal.Chain.chainG0_eq X _ (Cert.ReferenceIdeal.Chain.refChain0_apply X)

open Cert.KernelIdeal Cert.KernelIdeal.Facts₀ in
/-- 16×16 windows: the kernel's staged call, cut back into windows, is the reference's chain. -/
theorem bridge1 (X : FVec Ideal S4x2x4x4x16x16x16x16 .f32) :
    transpose S4x4x4x16x16x16x16 [0, 1, 4, 2, 5, 3, 6] (shapeCast S4x4x16x16x4x16x16 (Cert.KernelIdeal.Hand.G1
        (truncf .bf16 (shapeCast S2x4096x4x256 (transpose S2x4x4x16x16x4x16x16 [1, 0, 2, 4, 6, 3, 5, 7] X
          transposes_S4x2x4x4x16x16x16x16_S2x4x4x16x16x4x16x16_1_0_2_4_6_3_5_7) shapeCasts_S2x4x4x16x16x4x16x16_S2x4096x4x256)
          bitsLt_bf16_f32)) shapeCasts_S4096x4x256_S4x4x16x16x4x16x16)
        transposes_S4x4x16x16x4x16x16_S4x4x4x16x16x16x16_0_1_4_2_5_3_6
      = Cert.ReferenceIdeal.Chain.refChain1 X :=
  Cert.KernelIdeal.Chain.chainG1_eq X _ (Cert.ReferenceIdeal.Chain.refChain1_apply X)

end Cert.Bridge

end
-- ==== Proof.KIValue.lean ====
/-
  The kernel program's returned array, as a function of the argument.

  Along the program the buffers pass through the host stretches and the two calls. The first call's result array is the
  window function of the staged first half of the channels, the second call's that of the staged, shifted second half;
  each is laid back as an image (the second shifted back) and the two are joined along the channel axis. With the window
  stages read as the reference's composed operations, the returned array is the join of the reference's chain on the
  first half and the shifted-back chain on the shifted second half.
-/
import proofs.«107732_j64072322122319_2_alg».proof.Proof.KIRun
import proofs.«107732_j64072322122319_2_alg».proof.Proof.KHost
import proofs.«107732_j64072322122319_2_alg».proof.Proof.KIArr
import proofs.«107732_j64072322122319_2_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.ValueIdx Cert.Idx
open Idealize.SL Idealize.SL.Sem

variable (m : (ℓ : Loc nD τ sig) → Buf (Elt Ideal) ℓ)

/-! ## The boundary contents are the host stretches' composition, the calls' result arrays put in place -/

/-- The contents the second call is entered with. -/
theorem W5_eq (c : Dev nD) : W5 m c = Host.W5 (W0 m c) ((dat0 (X1 m) c).arrAt 2 cfg0.N) := rfl

/-- The contents at the return. -/
theorem W9_eq (c : Dev nD) :
    W9 m c = Host.W9 (W0 m c) ((dat0 (X1 m) c).arrAt 2 cfg0.N) ((dat1 (X5 m) c).arrAt 2 cfg1.N) := rfl

/-! ## The two calls' result arrays -/

/-- The first call's result array is the window function of the staged first half of the argument's channels. -/
theorem res0_eq (c : Dev nD) :
    (dat0 (X1 m) c).arrAt 2 cfg0.N = G0 (Host.pre0 (F := Ideal) (m ((c : Thread nD τ).loc main_arg0))) :=
  (final0 (X1 m) c).trans (congrArg G0 (Host.W1_v4 (W0 m c)))

/-- The second call's result array is the window function of the staged, shifted second half. -/
theorem res1_eq (c : Dev nD) :
    (dat1 (X5 m) c).arrAt 2 cfg1.N
      = G1 (Host.pre1 (F := Ideal) (Host.rollA (F := Ideal) (extractStridedSlice S4x32x256x256 ![0, 32, 0, 0] (m ((c : Thread nD τ).loc main_arg0))
          slices_S4x64x256x256_S4x32x256x256_0_32_0_0))) :=
  (final1 (X5 m) c).trans (congrArg G1 ((congrFun (W5_eq m c) _).trans (Host.W5_v14 (W0 m c) _)))

/-! ## Each half laid back, for window stages given as any function that is the window function at every index -/

section Halves

variable (g0 : FVec Ideal S4x2x4x4x32x8x32x8 .f32 → S4x4x4x32x8x32x8.Idx → EReal)
  (hg0 : ∀ (X : FVec Ideal S4x2x4x4x32x8x32x8 .f32) (b h c : Fin 4) (i : Fin 32) (p : Fin 8) (j : Fin 32) (q : Fin 8),
    g0 X (ix7 b h c i p j q) = Cert.WinAttn.y7_0 X b h c i p j q)
  (g1 : FVec Ideal S4x2x4x4x16x16x16x16 .f32 → S4x4x4x16x16x16x16.Idx → EReal)
  (hg1 : ∀ (X : FVec Ideal S4x2x4x4x16x16x16x16 .f32) (b h c : Fin 4) (i p j q : Fin 16),
    g1 X (ix7 b h c i p j q) = Cert.WinAttn.y7_1 X b h c i p j q)

include hg0 in
/-- The first half: staged, through the call, laid back. -/
theorem half0_eq (A : (⟨S4x64x256x256, .f32⟩ : BufTy).Contents (Elt Ideal)) :
    Host.post0 (F := Ideal) (G0 (Host.pre0 (F := Ideal) A))
      = shapeCast S4x16x256x256 (g0 (shapeCast S4x2x4x4x32x8x32x8 (extractStridedSlice S4x32x256x256 ![0, 0, 0, 0] A
          slices_S4x64x256x256_S4x32x256x256_0_0_0_0) shapeCasts_S4x32x256x256_S4x2x4x4x32x8x32x8))
          shapeCasts_S4x4x4x32x8x32x8_S4x16x256x256 := by
  unfold Host.post0 Host.pre0
  exact congrArg (fun r => shapeCast S4x16x256x256 r shapeCasts_S4x4x4x32x8x32x8_S4x16x256x256)
    (Cert.KernelIdeal.Chain.chainG0_eq _ _ (hg0 _))

include hg1 in
/-- The second half: staged, through the call, laid back. -/
theorem half1_eq (Y : (⟨S4x32x256x256, .f32⟩ : BufTy).Contents (Elt Ideal)) :
    Host.post1 (F := Ideal) (G1 (Host.pre1 (F := Ideal) Y))
      = shapeCast S4x16x256x256 (g1 (shapeCast S4x2x4x4x16x16x16x16 Y shapeCasts_S4x32x256x256_S4x2x4x4x16x16x16x16))
          shapeCasts_S4x4x4x16x16x16x16_S4x16x256x256 := by
  unfold Host.post1 Host.pre1
  exact congrArg (fun r => shapeCast S4x16x256x256 r shapeCasts_S4x4x4x16x16x16x16_S4x16x256x256)
    (Cert.KernelIdeal.Chain.chainG1_eq _ _ (hg1 _))

include hg0 hg1 in
/-- The returned array, the window stages given as any such pair of functions. -/
theorem value_of (c : Dev nD) :
    W9 m c main_v20
      = concatenate S4x32x256x256 1
          [⟨S4x16x256x256, shapeCast S4x16x256x256 (g0 (shapeCast S4x2x4x4x32x8x32x8 (extractStridedSlice S4x32x256x256
              ![0, 0, 0, 0] (m ((c : Thread nD τ).loc main_arg0)) slices_S4x64x256x256_S4x32x256x256_0_0_0_0)
              shapeCasts_S4x32x256x256_S4x2x4x4x32x8x32x8)) shapeCasts_S4x4x4x32x8x32x8_S4x16x256x256⟩,
           ⟨S4x16x256x256, Host.rollB (F := Ideal) (shapeCast S4x16x256x256 (g1 (shapeCast S4x2x4x4x16x16x16x16 (Host.rollA (F := Ideal)
              (extractStridedSlice S4x32x256x256 ![0, 32, 0, 0] (m ((c : Thread nD τ).loc main_arg0))
                slices_S4x64x256x256_S4x32x256x256_0_32_0_0)) shapeCasts_S4x32x256x256_S4x2x4x4x16x16x16x16))
              shapeCasts_S4x4x4x16x16x16x16_S4x16x256x256)⟩]
          concatenates_S4x16x256x256_S4x16x256x256_S4x32x256x256_d1 := by
  refine (congrFun (W9_eq m c) _).trans ((Host.W9_v20 (W0 m c) _ _).trans ?_)
  have e0 := (congrArg (Host.post0 (F := Ideal)) (res0_eq m c)).trans (half0_eq g0 hg0 (m ((c : Thread nD τ).loc main_arg0)))
  have e1 := (congrArg (Host.post1 (F := Ideal)) (res1_eq m c)).trans (half1_eq g1 hg1 _)
  rw [e0, e1]

end Halves

/-! ## The returned array over the reference's chains -/

variable [Cert.ReferenceIdeal.Facts]

/-- The returned array: the reference's chain on the first half of the channels, beside the shifted-back chain on the
    shifted second half. -/
theorem value (c : Dev nD) :
    W9 m c main_v20
      = concatenate S4x32x256x256 1
          [⟨S4x16x256x256, shapeCast S4x16x256x256 (Cert.ReferenceIdeal.Chain.refChain0 (shapeCast S4x2x4x4x32x8x32x8
              (extractStridedSlice S4x32x256x256 ![0, 0, 0, 0] (m ((c : Thread nD τ).loc main_arg0))
                slices_S4x64x256x256_S4x32x256x256_0_0_0_0) shapeCasts_S4x32x256x256_S4x2x4x4x32x8x32x8))
              shapeCasts_S4x4x4x32x8x32x8_S4x16x256x256⟩,
           ⟨S4x16x256x256, Host.rollB (F := Ideal) (shapeCast S4x16x256x256 (Cert.ReferenceIdeal.Chain.refChain1 (shapeCast
              S4x2x4x4x16x16x16x16 (Host.rollA (F := Ideal) (extractStridedSlice S4x32x256x256 ![0, 32, 0, 0]
                (m ((c : Thread nD τ).loc main_arg0)) slices_S4x64x256x256_S4x32x256x256_0_32_0_0))
              shapeCasts_S4x32x256x256_S4x2x4x4x16x16x16x16)) shapeCasts_S4x4x4x16x16x16x16_S4x16x256x256)⟩]
          concatenates_S4x16x256x256_S4x16x256x256_S4x32x256x256_d1 :=
  value_of m (fun X => Cert.ReferenceIdeal.Chain.refChain0 X) Cert.ReferenceIdeal.Chain.refChain0_apply
    (fun X => Cert.ReferenceIdeal.Chain.refChain1 X) Cert.ReferenceIdeal.Chain.refChain1_apply c

end Cert.KernelIdeal.Hand

end
-- ==== Proof.RefRun.lean ====
/-
  The reference program's run, first part: the fold of its 67 host operations over a device's buffers taken stretch by
  stretch, and the frame fact — no operation writes the argument's buffer, so every execution ends with it unchanged.
-/
import proofs.«107732_j64072322122319_2_alg».proof.Proof.RefRunGen
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The buffers after two lines run in a row. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The buffers after @main's operations: the five stretches folded in order. -/
theorem after_ops (V : Valuation τ sig (Elt F)) :
    after ops V = after opsE (after opsD (after opsC (after opsB (after opsA V)))) := by
  show after (opsA ++ (opsB ++ (opsC ++ (opsD ++ opsE)))) V = _
  rw [after_app, after_app, after_app, after_app]

/-! ## The argument's buffer is written by no operation -/

theorem arg0_A (V : Valuation τ sig (Elt F)) : after opsA V (Proc.devRef .tc main_arg0) = V (Proc.devRef .tc main_arg0) := by
  after_results_simp
theorem arg0_B (V : Valuation τ sig (Elt F)) : after opsB V (Proc.devRef .tc main_arg0) = V (Proc.devRef .tc main_arg0) := by
  after_results_simp
theorem arg0_C (V : Valuation τ sig (Elt F)) : after opsC V (Proc.devRef .tc main_arg0) = V (Proc.devRef .tc main_arg0) := by
  after_results_simp
theorem arg0_D (V : Valuation τ sig (Elt F)) : after opsD V (Proc.devRef .tc main_arg0) = V (Proc.devRef .tc main_arg0) := by
  after_results_simp
theorem arg0_E (V : Valuation τ sig (Elt F)) : after opsE V (Proc.devRef .tc main_arg0) = V (Proc.devRef .tc main_arg0) := by
  after_results_simp

/-- After all of @main's operations the argument's buffer holds what it held. -/
theorem arg0_ops (V : Valuation τ sig (Elt F)) : after ops V (Proc.devRef .tc main_arg0) = V (Proc.devRef .tc main_arg0) := by
  rw [after_ops, arg0_E, arg0_D, arg0_C, arg0_B, arg0_A]

/-- The run of @main as the fold of its operations: every weakly fair execution terminates, each buffer at the fold's value. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-- On every device, from any memory with zero counters: every weakly fair execution of @main terminates with the
    argument's buffer unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (arg0_ops _)) (run_after m ρ)

end Cert.ReferenceIdeal.RunP

end
-- ==== Proof.RefRunVal.lean ====
/-
  The reference program's run, second part: what each stretch of @main leaves in its result buffer, as a function of
  what the stretch found, and their composition — the result buffer after all 67 operations.

  Each half of the channels goes through the same chain: cut into windows (a reshape and a transpose), scores
  S = q·qᵀ over the four channels, the row maximum subtracted, the exponential, the row sum, the quotient, the
  weighted sum of the values, and the windows laid back. `chain0` is that chain on 8×8 windows (operations %2 … %22, from
  the rank-8 tensor %1), `chain1` on 16×16 windows (%27 … %47, from %26); each is spelt as the program's own
  operations, one definition per operation, so that a value keeps the program's sharing. `rollA` / `rollB` are the two
  outlined functions: a cyclic shift by 8 along both image axes (two slices joined, per axis) and the shift back.
-/
import proofs.«107732_j64072322122319_2_alg».proof.Proof.RefRun
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The 8×8 chain: %1 ↦ %22 -/

def c0_v2 (x : (⟨S4x2x4x4x32x8x32x8, .f32⟩ : BufTy).Contents (Elt F)) : (⟨S2x4x4x32x32x8x8x4, .f32⟩ : BufTy).Contents (Elt F) :=
  transpose S2x4x4x32x32x8x8x4 [1, 0, 2, 4, 6, 5, 7, 3] x transposes_S4x2x4x4x32x8x32x8_S2x4x4x32x32x8x8x4_1_0_2_4_6_5_7_3
def c0_v3 (x : (⟨S4x2x4x4x32x8x32x8, .f32⟩ : BufTy).Contents (Elt F)) : (⟨S2x4x4x32x32x64x4, .f32⟩ : BufTy).Contents (Elt F) :=
  shapeCast S2x4x4x32x32x64x4 (c0_v2 x) shapeCasts_S2x4x4x32x32x8x8x4_S2x4x4x32x32x64x4
def c0_v4 (x : (⟨S4x2x4x4x32x8x32x8, .f32⟩ : BufTy).Contents (Elt F)) : (⟨S1x4x4x32x32x64x4, .f32⟩ : BufTy).Contents (Elt F) :=
  extractStridedSlice S1x4x4x32x32x64x4 ![0, 0, 0, 0, 0, 0, 0] (c0_v3 x) slices_S2x4x4x32x32x64x4_S1x4x4x32x32x64x4_0_0_0_0_0_0_0
def c0_v5 (x : (⟨S4x2x4x4x32x8x32x8, .f32⟩ : BufTy).Contents (Elt F)) : (⟨S4x4x32x32x64x4, .f32⟩ : BufTy).Contents (Elt F) :=
  shapeCast S4x4x32x32x64x4 (c0_v4 x) shapeCasts_S1x4x4x32x32x64x4_S4x4x32x32x64x4
def c0_v6 (x : (⟨S4x2x4x4x32x8x32x8, .f32⟩ : BufTy).Contents (Elt F)) : (⟨S1x4x4x32x32x64x4, .f32⟩ : BufTy).Contents (Elt F) :=
  extractStridedSlice S1x4x4x32x32x64x4 ![1, 0, 0, 0, 0, 0, 0] (c0_v3 x) slices_S2x4x4x32x32x64x4_S1x4x4x32x32x64x4_1_0_0_0_0_0_0
def c0_v7 (x : (⟨S4x2x4x4x32x8x32x8, .f32⟩ : BufTy).Contents (Elt F)) : (⟨S4x4x32x32x64x4, .f32⟩ : BufTy).Contents (Elt F) :=
  shapeCast S4x4x32x32x64x4 (c0_v6 x) shapeCasts_S1x4x4x32x32x64x4_S4x4x32x32x64x4
def c0_v8 (x : (⟨S4x2x4x4x32x8x32x8, .f32⟩ : BufTy).Contents (Elt F)) : (⟨S4x4x32x32x64x64, .f32⟩ : BufTy).Contents (Elt F) :=
  Host.dotGeneral dot_S4x4x32x32x64x4_S4x4x32x32x64x4_S4x4x32x32x64x64_5_5_4_4_0123_0123 none (c0_v5 x) (c0_v5 x)
def c0_cst (x : (⟨S4x2x4x4x32x8x32x8, .f32⟩ : BufTy).Contents (Elt F)) : (⟨S_, .f32⟩ : BufTy).Contents (Elt F) :=
  constant S_ .f32 0xFF800000#32
def c0_v9 (x : (⟨S4x2x4x4x32x8x32x8, .f32⟩ : BufTy).Contents (Elt F)) : (⟨S4x4x32x32x64, .f32⟩ : BufTy).Contents (Elt F) :=
  Host.reduce FloatOps.maximumf (c0_v8 x) (c0_cst x) reducesTo_S4x4x32x32x64x64_S4x4x32x32x64_d5 h_S_
def c0_cst_0 (x : (⟨S4x2x4x4x32x8x32x8, .f32⟩ : BufTy).Contents (Elt F)) : (⟨S_, .f32⟩ : BufTy).Contents (Elt F) :=
  constant S_ .f32 0xFF800000#32
def c0_v10 (x : (⟨S4x2x4x4x32x8x32x8, .f32⟩ : BufTy).Contents (Elt F)) : (⟨S4x4x32x32x64, .f32⟩ : BufTy).Contents (Elt F) :=
  broadcastInDim S4x4x32x32x64 ![] bcast_S_S4x4x32x32x64 (c0_cst_0 x)
def c0_v11 (x : (⟨S4x2x4x4x32x8x32x8, .f32⟩ : BufTy).Contents (Elt F)) : (⟨S4x4x32x32x64, .f32⟩ : BufTy).Contents (Elt F) :=
  maximumf (c0_v10 x) (c0_v9 x)
def c0_v12 (x : (⟨S4x2x4x4x32x8x32x8, .f32⟩ : BufTy).Contents (Elt F)) : (⟨S4x4x32x32x64x1, .f32⟩ : BufTy).Contents (Elt F) :=
  broadcastInDim S4x4x32x32x64x1 ![0, 1, 2, 3, 4] bcast_S4x4x32x32x64_S4x4x32x32x64x1_0_1_2_3_4 (c0_v11 x)
def c0_v13 (x : (⟨S4x2x4x4x32x8x32x8, .f32⟩ : BufTy).Contents (Elt F)) : (⟨S4x4x32x32x64x64, .f32⟩ : BufTy).Contents (Elt F) :=
  broadcastInDim S4x4x32x32x64x64 ![0, 1, 2, 3, 4, 5] bcast_S4x4x32x32x64x1_S4x4x32x32x64x64_0_1_2_3_4_5 (c0_v12 x)
def c0_v14 (x : (⟨S4x2x4x4x32x8x32x8, .f32⟩ : BufTy).Contents (Elt F)) : (⟨S4x4x32x32x64x64, .f32⟩ : BufTy).Contents (Elt F) :=
  subf (c0_v8 x) (c0_v13 x)
def c0_v15 (x : (⟨S4x2x4x4x32x8x32x8, .f32⟩ : BufTy).Contents (Elt F)) : (⟨S4x4x32x32x64x64, .f32⟩ : BufTy).Contents (Elt F) :=
  Host.exp (c0_v14 x)
def c0_cst_1 (x : (⟨S4x2x4x4x32x8x32x8, .f32⟩ : BufTy).Contents (Elt F)) : (⟨S_, .f32⟩ : BufTy).Contents (Elt F) :=
  constant S_ .f32 0x00000000#32
def c0_v16 (x : (⟨S4x2x4x4x32x8x32x8, .f32⟩ : BufTy).Contents (Elt F)) : (⟨S4x4x32x32x64, .f32⟩ : BufTy).Contents (Elt F) :=
  Host.reduceAdd (c0_v15 x) (c0_cst_1 x) reducesTo_S4x4x32x32x64x64_S4x4x32x32x64_d5 h_S_
def c0_v17 (x : (⟨S4x2x4x4x32x8x32x8, .f32⟩ : BufTy).Contents (Elt F)) : (⟨S4x4x32x32x64x1, .f32⟩ : BufTy).Contents (Elt F) :=
  broadcastInDim S4x4x32x32x64x1 ![0, 1, 2, 3, 4] bcast_S4x4x32x32x64_S4x4x32x32x64x1_0_1_2_3_4 (c0_v16 x)
def c0_v18 (x : (⟨S4x2x4x4x32x8x32x8, .f32⟩ : BufTy).Contents (Elt F)) : (⟨S4x4x32x32x64x64, .f32⟩ : BufTy).Contents (Elt F) :=
  broadcastInDim S4x4x32x32x64x64 ![0, 1, 2, 3, 4, 5] bcast_S4x4x32x32x64x1_S4x4x32x32x64x64_0_1_2_3_4_5 (c0_v17 x)
def c0_v19 (x : (⟨S4x2x4x4x32x8x32x8, .f32⟩ : BufTy).Contents (Elt F)) : (⟨S4x4x32x32x64x64, .f32⟩ : BufTy).Contents (Elt F) :=
  Host.divf (c0_v15 x) (c0_v18 x)
def c0_v20 (x : (⟨S4x2x4x4x32x8x32x8, .f32⟩ : BufTy).Contents (Elt F)) : (⟨S4x4x32x32x64x4, .f32⟩ : BufTy).Contents (Elt F) :=
  Host.dotGeneral dot_S4x4x32x32x64x64_S4x4x32x32x64x4_S4x4x32x32x64x4_5_4_4_5_0123_0123 none (c0_v19 x) (c0_v7 x)
def c0_v21 (x : (⟨S4x2x4x4x32x8x32x8, .f32⟩ : BufTy).Contents (Elt F)) : (⟨S4x4x32x32x8x8x4, .f32⟩ : BufTy).Contents (Elt F) :=
  shapeCast S4x4x32x32x8x8x4 (c0_v20 x) shapeCasts_S4x4x32x32x64x4_S4x4x32x32x8x8x4
def c0_v22 (x : (⟨S4x2x4x4x32x8x32x8, .f32⟩ : BufTy).Contents (Elt F)) : (⟨S4x4x4x32x8x32x8, .f32⟩ : BufTy).Contents (Elt F) :=
  transpose S4x4x4x32x8x32x8 [0, 1, 6, 2, 4, 3, 5] (c0_v21 x) transposes_S4x4x32x32x8x8x4_S4x4x4x32x8x32x8_0_1_6_2_4_3_5
/-- Operations %2 … %22 as one function of the rank-8 tensor %1. -/
def chain0 (x : (⟨S4x2x4x4x32x8x32x8, .f32⟩ : BufTy).Contents (Elt F)) : (⟨S4x4x4x32x8x32x8, .f32⟩ : BufTy).Contents (Elt F) := c0_v22 x

/-! ## The 16×16 chain: %26 ↦ %47 -/

def c1_v27 (x : (⟨S4x2x4x4x16x16x16x16, .f32⟩ : BufTy).Contents (Elt F)) : (⟨S2x4x4x16x16x16x16x4, .f32⟩ : BufTy).Contents (Elt F) :=
  transpose S2x4x4x16x16x16x16x4 [1, 0, 2, 4, 6, 5, 7, 3] x transposes_S4x2x4x4x16x16x16x16_S2x4x4x16x16x16x16x4_1_0_2_4_6_5_7_3
def c1_v28 (x : (⟨S4x2x4x4x16x16x16x16, .f32⟩ : BufTy).Contents (Elt F)) : (⟨S2x4x4x16x16x256x4, .f32⟩ : BufTy).Contents (Elt F) :=
  shapeCast S2x4x4x16x16x256x4 (c1_v27 x) shapeCasts_S2x4x4x16x16x16x16x4_S2x4x4x16x16x256x4
def c1_v29 (x : (⟨S4x2x4x4x16x16x16x16, .f32⟩ : BufTy).Contents (Elt F)) : (⟨S1x4x4x16x16x256x4, .f32⟩ : BufTy).Contents (Elt F) :=
  extractStridedSlice S1x4x4x16x16x256x4 ![0, 0, 0, 0, 0, 0, 0] (c1_v28 x) slices_S2x4x4x16x16x256x4_S1x4x4x16x16x256x4_0_0_0_0_0_0_0
def c1_v30 (x : (⟨S4x2x4x4x16x16x16x16, .f32⟩ : BufTy).Contents (Elt F)) : (⟨S4x4x16x16x256x4, .f32⟩ : BufTy).Contents (Elt F) :=
  shapeCast S4x4x16x16x256x4 (c1_v29 x) shapeCasts_S1x4x4x16x16x256x4_S4x4x16x16x256x4
def c1_v31 (x : (⟨S4x2x4x4x16x16x16x16, .f32⟩ : BufTy).Contents (Elt F)) : (⟨S1x4x4x16x16x256x4, .f32⟩ : BufTy).Contents (Elt F) :=
  extractStridedSlice S1x4x4x16x16x256x4 ![1, 0, 0, 0, 0, 0, 0] (c1_v28 x) slices_S2x4x4x16x16x256x4_S1x4x4x16x16x256x4_1_0_0_0_0_0_0
def c1_v32 (x : (⟨S4x2x4x4x16x16x16x16, .f32⟩ : BufTy).Contents (Elt F)) : (⟨S4x4x16x16x256x4, .f32⟩ : BufTy).Contents (Elt F) :=
  shapeCast S4x4x16x16x256x4 (c1_v31 x) shapeCasts_S1x4x4x16x16x256x4_S4x4x16x16x256x4
def c1_v33 (x : (⟨S4x2x4x4x16x16x16x16, .f32⟩ : BufTy).Contents (Elt F)) : (⟨S4x4x16x16x256x256, .f32⟩ : BufTy).Contents (Elt F) :=
  Host.dotGeneral dot_S4x4x16x16x256x4_S4x4x16x16x256x4_S4x4x16x16x256x256_5_5_4_4_0123_0123 none (c1_v30 x) (c1_v30 x)
def c1_cst_2 (x : (⟨S4x2x4x4x16x16x16x16, .f32⟩ : BufTy).Contents (Elt F)) : (⟨S_, .f32⟩ : BufTy).Contents (Elt F) :=
  constant S_ .f32 0xFF800000#32
def c1_v34 (x : (⟨S4x2x4x4x16x16x16x16, .f32⟩ : BufTy).Contents (Elt F)) : (⟨S4x4x16x16x256, .f32⟩ : BufTy).Contents (Elt F) :=
  Host.reduce FloatOps.maximumf (c1_v33 x) (c1_cst_2 x) reducesTo_S4x4x16x16x256x256_S4x4x16x16x256_d5 h_S_
def c1_cst_3 (x : (⟨S4x2x4x4x16x16x16x16, .f32⟩ : BufTy).Contents (Elt F)) : (⟨S_, .f32⟩ : BufTy).Contents (Elt F) :=
  constant S_ .f32 0xFF800000#32
def c1_v35 (x : (⟨S4x2x4x4x16x16x16x16, .f32⟩ : BufTy).Contents (Elt F)) : (⟨S4x4x16x16x256, .f32⟩ : BufTy).Contents (Elt F) :=
  broadcastInDim S4x4x16x16x256 ![] bcast_S_S4x4x16x16x256 (c1_cst_3 x)
def c1_v36 (x : (⟨S4x2x4x4x16x16x16x16, .f32⟩ : BufTy).Contents (Elt F)) : (⟨S4x4x16x16x256, .f32⟩ : BufTy).Contents (Elt F) :=
  maximumf (c1_v35 x) (c1_v34 x)
def c1_v37 (x : (⟨S4x2x4x4x16x16x16x16, .f32⟩ : BufTy).Contents (Elt F)) : (⟨S4x4x16x16x256x1, .f32⟩ : BufTy).Contents (Elt F) :=
  broadcastInDim S4x4x16x16x256x1 ![0, 1, 2, 3, 4] bcast_S4x4x16x16x256_S4x4x16x16x256x1_0_1_2_3_4 (c1_v36 x)
def c1_v38 (x : (⟨S4x2x4x4x16x16x16x16, .f32⟩ : BufTy).Contents (Elt F)) : (⟨S4x4x16x16x256x256, .f32⟩ : BufTy).Contents (Elt F) :=
  broadcastInDim S4x4x16x16x256x256 ![0, 1, 2, 3, 4, 5] bcast_S4x4x16x16x256x1_S4x4x16x16x256x256_0_1_2_3_4_5 (c1_v37 x)
def c1_v39 (x : (⟨S4x2x4x4x16x16x16x16, .f32⟩ : BufTy).Contents (Elt F)) : (⟨S4x4x16x16x256x256, .f32⟩ : BufTy).Contents (Elt F) :=
  subf (c1_v33 x) (c1_v38 x)
def c1_v40 (x : (⟨S4x2x4x4x16x16x16x16, .f32⟩ : BufTy).Contents (Elt F)) : (⟨S4x4x16x16x256x256, .f32⟩ : BufTy).Contents (Elt F) :=
  Host.exp (c1_v39 x)
def c1_cst_4 (x : (⟨S4x2x4x4x16x16x16x16, .f32⟩ : BufTy).Contents (Elt F)) : (⟨S_, .f32⟩ : BufTy).Contents (Elt F) :=
  constant S_ .f32 0x00000000#32
def c1_v41 (x : (⟨S4x2x4x4x16x16x16x16, .f32⟩ : BufTy).Contents (Elt F)) : (⟨S4x4x16x16x256, .f32⟩ : BufTy).Contents (Elt F) :=
  Host.reduceAdd (c1_v40 x) (c1_cst_4 x) reducesTo_S4x4x16x16x256x256_S4x4x16x16x256_d5 h_S_
def c1_v42 (x : (⟨S4x2x4x4x16x16x16x16, .f32⟩ : BufTy).Contents (Elt F)) : (⟨S4x4x16x16x256x1, .f32⟩ : BufTy).Contents (Elt F) :=
  broadcastInDim S4x4x16x16x256x1 ![0, 1, 2, 3, 4] bcast_S4x4x16x16x256_S4x4x16x16x256x1_0_1_2_3_4 (c1_v41 x)
def c1_v43 (x : (⟨S4x2x4x4x16x16x16x16, .f32⟩ : BufTy).Contents (Elt F)) : (⟨S4x4x16x16x256x256, .f32⟩ : BufTy).Contents (Elt F) :=
  broadcastInDim S4x4x16x16x256x256 ![0, 1, 2, 3, 4, 5] bcast_S4x4x16x16x256x1_S4x4x16x16x256x256_0_1_2_3_4_5 (c1_v42 x)
def c1_v44 (x : (⟨S4x2x4x4x16x16x16x16, .f32⟩ : BufTy).Contents (Elt F)) : (⟨S4x4x16x16x256x256, .f32⟩ : BufTy).Contents (Elt F) :=
  Host.divf (c1_v40 x) (c1_v43 x)
def c1_v45 (x : (⟨S4x2x4x4x16x16x16x16, .f32⟩ : BufTy).Contents (Elt F)) : (⟨S4x4x16x16x256x4, .f32⟩ : BufTy).Contents (Elt F) :=
  Host.dotGeneral dot_S4x4x16x16x256x256_S4x4x16x16x256x4_S4x4x16x16x256x4_5_4_4_5_0123_0123 none (c1_v44 x) (c1_v32 x)
def c1_v46 (x : (⟨S4x2x4x4x16x16x16x16, .f32⟩ : BufTy).Contents (Elt F)) : (⟨S4x4x16x16x16x16x4, .f32⟩ : BufTy).Contents (Elt F) :=
  shapeCast S4x4x16x16x16x16x4 (c1_v45 x) shapeCasts_S4x4x16x16x256x4_S4x4x16x16x16x16x4
def c1_v47 (x : (⟨S4x2x4x4x16x16x16x16, .f32⟩ : BufTy).Contents (Elt F)) : (⟨S4x4x4x16x16x16x16, .f32⟩ : BufTy).Contents (Elt F) :=
  transpose S4x4x4x16x16x16x16 [0, 1, 6, 2, 4, 3, 5] (c1_v46 x) transposes_S4x4x16x16x16x16x4_S4x4x4x16x16x16x16_0_1_6_2_4_3_5
/-- Operations %27 … %47 as one function of the rank-8 tensor %26. -/
def chain1 (x : (⟨S4x2x4x4x16x16x16x16, .f32⟩ : BufTy).Contents (Elt F)) : (⟨S4x4x4x16x16x16x16, .f32⟩ : BufTy).Contents (Elt F) := c1_v47 x

/-! ## The two shifts -/

def ra_call0_v0 (x : (⟨S4x32x256x256, .f32⟩ : BufTy).Contents (Elt F)) : (⟨S4x32x8x256, .f32⟩ : BufTy).Contents (Elt F) :=
  extractStridedSlice S4x32x8x256 ![0, 0, 248, 0] x slices_S4x32x256x256_S4x32x8x256_0_0_248_0
def ra_call0_v1 (x : (⟨S4x32x256x256, .f32⟩ : BufTy).Contents (Elt F)) : (⟨S4x32x248x256, .f32⟩ : BufTy).Contents (Elt F) :=
  extractStridedSlice S4x32x248x256 ![0, 0, 0, 0] x slices_S4x32x256x256_S4x32x248x256_0_0_0_0
def ra_call0_v2 (x : (⟨S4x32x256x256, .f32⟩ : BufTy).Contents (Elt F)) : (⟨S4x32x256x256, .f32⟩ : BufTy).Contents (Elt F) :=
  concatenate S4x32x256x256 2 [⟨S4x32x8x256, (ra_call0_v0 x)⟩, ⟨S4x32x248x256, (ra_call0_v1 x)⟩] concatenates_S4x32x8x256_S4x32x248x256_S4x32x256x256_d2
def ra_call0_v3 (x : (⟨S4x32x256x256, .f32⟩ : BufTy).Contents (Elt F)) : (⟨S4x32x256x8, .f32⟩ : BufTy).Contents (Elt F) :=
  extractStridedSlice S4x32x256x8 ![0, 0, 0, 248] (ra_call0_v2 x) slices_S4x32x256x256_S4x32x256x8_0_0_0_248
def ra_call0_v4 (x : (⟨S4x32x256x256, .f32⟩ : BufTy).Contents (Elt F)) : (⟨S4x32x256x248, .f32⟩ : BufTy).Contents (Elt F) :=
  extractStridedSlice S4x32x256x248 ![0, 0, 0, 0] (ra_call0_v2 x) slices_S4x32x256x256_S4x32x256x248_0_0_0_0
def ra_v25 (x : (⟨S4x32x256x256, .f32⟩ : BufTy).Contents (Elt F)) : (⟨S4x32x256x256, .f32⟩ : BufTy).Contents (Elt F) :=
  concatenate S4x32x256x256 3 [⟨S4x32x256x8, (ra_call0_v3 x)⟩, ⟨S4x32x256x248, (ra_call0_v4 x)⟩] concatenates_S4x32x256x8_S4x32x256x248_S4x32x256x256_d3
/-- The first outlined function: its argument shifted cyclically by 8 along both image axes. -/
def rollA (x : (⟨S4x32x256x256, .f32⟩ : BufTy).Contents (Elt F)) : (⟨S4x32x256x256, .f32⟩ : BufTy).Contents (Elt F) := ra_v25 x

def rb_call1_v0 (x : (⟨S4x16x256x256, .f32⟩ : BufTy).Contents (Elt F)) : (⟨S4x16x248x256, .f32⟩ : BufTy).Contents (Elt F) :=
  extractStridedSlice S4x16x248x256 ![0, 0, 8, 0] x slices_S4x16x256x256_S4x16x248x256_0_0_8_0
def rb_call1_v1 (x : (⟨S4x16x256x256, .f32⟩ : BufTy).Contents (Elt F)) : (⟨S4x16x8x256, .f32⟩ : BufTy).Contents (Elt F) :=
  extractStridedSlice S4x16x8x256 ![0, 0, 0, 0] x slices_S4x16x256x256_S4x16x8x256_0_0_0_0
def rb_call1_v2 (x : (⟨S4x16x256x256, .f32⟩ : BufTy).Contents (Elt F)) : (⟨S4x16x256x256, .f32⟩ : BufTy).Contents (Elt F) :=
  concatenate S4x16x256x256 2 [⟨S4x16x248x256, (rb_call1_v0 x)⟩, ⟨S4x16x8x256, (rb_call1_v1 x)⟩] concatenates_S4x16x248x256_S4x16x8x256_S4x16x256x256_d2
def rb_call1_v3 (x : (⟨S4x16x256x256, .f32⟩ : BufTy).Contents (Elt F)) : (⟨S4x16x256x248, .f32⟩ : BufTy).Contents (Elt F) :=
  extractStridedSlice S4x16x256x248 ![0, 0, 0, 8] (rb_call1_v2 x) slices_S4x16x256x256_S4x16x256x248_0_0_0_8
def rb_call1_v4 (x : (⟨S4x16x256x256, .f32⟩ : BufTy).Contents (Elt F)) : (⟨S4x16x256x8, .f32⟩ : BufTy).Contents (Elt F) :=
  extractStridedSlice S4x16x256x8 ![0, 0, 0, 0] (rb_call1_v2 x) slices_S4x16x256x256_S4x16x256x8_0_0_0_0
def rb_v49 (x : (⟨S4x16x256x256, .f32⟩ : BufTy).Contents (Elt F)) : (⟨S4x16x256x256, .f32⟩ : BufTy).Contents (Elt F) :=
  concatenate S4x16x256x256 3 [⟨S4x16x256x248, (rb_call1_v3 x)⟩, ⟨S4x16x256x8, (rb_call1_v4 x)⟩] concatenates_S4x16x256x248_S4x16x256x8_S4x16x256x256_d3
/-- The second outlined function: the shift back. -/
def rollB (x : (⟨S4x16x256x256, .f32⟩ : BufTy).Contents (Elt F)) : (⟨S4x16x256x256, .f32⟩ : BufTy).Contents (Elt F) := rb_v49 x

/-! ## What each stretch leaves -/

variable (V : Valuation τ sig (Elt F))

/-- The first stretch leaves in %23 the 8×8 chain of the first half of the channels, laid back as an image. -/
theorem v23_A :
    after opsA V (Proc.devRef .tc main_v23) = shapeCast S4x16x256x256 (chain0 (shapeCast S4x2x4x4x32x8x32x8 (extractStridedSlice S4x32x256x256 ![0, 0, 0, 0] (V (Proc.devRef .tc main_arg0) : (⟨S4x64x256x256, .f32⟩ : BufTy).Contents (Elt F)) slices_S4x64x256x256_S4x32x256x256_0_0_0_0) shapeCasts_S4x32x256x256_S4x2x4x4x32x8x32x8)) shapeCasts_S4x4x4x32x8x32x8_S4x16x256x256 := by
  after_results_simp
  rfl

/-- The second stretch leaves in %25 the second half of the channels, shifted. -/
theorem v25_B :
    after opsB V (Proc.devRef .tc main_v25) = rollA (extractStridedSlice S4x32x256x256 ![0, 32, 0, 0] (V (Proc.devRef .tc main_arg0) : (⟨S4x64x256x256, .f32⟩ : BufTy).Contents (Elt F)) slices_S4x64x256x256_S4x32x256x256_0_32_0_0) := by
  after_results
  rfl
theorem v23_B : after opsB V (Proc.devRef .tc main_v23) = V (Proc.devRef .tc main_v23) := by
  after_results_simp

/-- The third stretch leaves in %48 the 16×16 chain of %25, laid back as an image. -/
theorem v48_C :
    after opsC V (Proc.devRef .tc main_v48) = shapeCast S4x16x256x256 (chain1 (shapeCast S4x2x4x4x16x16x16x16 (V (Proc.devRef .tc main_v25) : (⟨S4x32x256x256, .f32⟩ : BufTy).Contents (Elt F)) shapeCasts_S4x32x256x256_S4x2x4x4x16x16x16x16)) shapeCasts_S4x4x4x16x16x16x16_S4x16x256x256 := by
  after_results_simp
  rfl
theorem v23_C : after opsC V (Proc.devRef .tc main_v23) = V (Proc.devRef .tc main_v23) := by
  after_results_simp

/-- The fourth stretch leaves in %49 the shift back of %48. -/
theorem v49_D :
    after opsD V (Proc.devRef .tc main_v49) = rollB (V (Proc.devRef .tc main_v48) : (⟨S4x16x256x256, .f32⟩ : BufTy).Contents (Elt F)) := by
  after_results
  rfl
theorem v23_D : after opsD V (Proc.devRef .tc main_v23) = V (Proc.devRef .tc main_v23) := by
  after_results_simp

/-- The last operation joins %23 and %49 along the channel axis. -/
theorem v50_E :
    after opsE V (Proc.devRef .tc main_v50)
      = concatenate S4x32x256x256 1 [⟨S4x16x256x256, (V (Proc.devRef .tc main_v23) : (⟨S4x16x256x256, .f32⟩ : BufTy).Contents (Elt F))⟩, ⟨S4x16x256x256, (V (Proc.devRef .tc main_v49) : (⟨S4x16x256x256, .f32⟩ : BufTy).Contents (Elt F))⟩]
          concatenates_S4x16x256x256_S4x16x256x256_S4x32x256x256_d1 := by
  after_results_simp

/-! ## The result -/

/-- The reference's result as a function of its argument: the 8×8 chain of the first 32 channels beside the
    16×16 chain, between the two shifts, of the last 32. -/
def refOut (a : (⟨S4x64x256x256, .f32⟩ : BufTy).Contents (Elt F)) : (⟨S4x32x256x256, .f32⟩ : BufTy).Contents (Elt F) :=
  concatenate S4x32x256x256 1
    [⟨S4x16x256x256, shapeCast S4x16x256x256 (chain0 (shapeCast S4x2x4x4x32x8x32x8 (extractStridedSlice S4x32x256x256 ![0, 0, 0, 0] a slices_S4x64x256x256_S4x32x256x256_0_0_0_0) shapeCasts_S4x32x256x256_S4x2x4x4x32x8x32x8)) shapeCasts_S4x4x4x32x8x32x8_S4x16x256x256⟩,
     ⟨S4x16x256x256, rollB (shapeCast S4x16x256x256 (chain1 (shapeCast S4x2x4x4x16x16x16x16 (rollA (extractStridedSlice S4x32x256x256 ![0, 32, 0, 0] a slices_S4x64x256x256_S4x32x256x256_0_32_0_0)) shapeCasts_S4x32x256x256_S4x2x4x4x16x16x16x16)) shapeCasts_S4x4x4x16x16x16x16_S4x16x256x256)⟩]
    concatenates_S4x16x256x256_S4x16x256x256_S4x32x256x256_d1

/-- After all of @main's operations the result buffer holds `refOut` of what the argument's buffer held at launch. -/
theorem v50_ops : after ops V (Proc.devRef .tc main_v50) = refOut (V (Proc.devRef .tc main_arg0) : (⟨S4x64x256x256, .f32⟩ : BufTy).Contents (Elt F)) := by
  rw [after_ops, v50_E, v23_D, v23_C, v23_B, v23_A, v49_D, v48_C, v25_B, arg0_A]
  rfl

/-- On every device, from any memory with zero counters: every weakly fair execution of @main terminates with the
    result buffer at `refOut` of the argument's launch contents, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v50).trans (v50_ops _), (h c main_arg0).trans (arg0_ops _)⟩) (run_after m ρ)

end Cert.ReferenceIdeal.RunP

end
-- ==== Proof.RefRunIdeal.lean ====
/-
  The reference program's run at the ideal instance, with the two attention chains named as the functions whose
  values are read index by index elsewhere: the per-operation spelling of each chain unfolds to the composed one.
-/
import proofs.«107732_j64072322122319_2_alg».proof.Proof.RefRunVal
import proofs.«107732_j64072322122319_2_alg».proof.Proof.RChainDef

noncomputable section

namespace Cert.ReferenceIdeal.RunP

open Cert.ReferenceIdeal Cert.ReferenceIdeal.Gen Idealize.ShloMosaic Idealize.ShloMosaic.TcCoe Idealize.SL.Sem Idealize.ShloMosaic.StableHlo

set_option maxHeartbeats 1000000 in
/-- The 8×8 chain, one definition per operation, is the composed chain. -/
theorem chain0_eq (X : FVec Ideal S4x2x4x4x32x8x32x8 .f32) : chain0 (F := Ideal) X = Chain.refChain0 X := rfl

set_option maxHeartbeats 1000000 in
/-- The 16×16 chain, one definition per operation, is the composed chain. -/
theorem chain1_eq (X : FVec Ideal S4x2x4x4x16x16x16x16 .f32) : chain1 (F := Ideal) X = Chain.refChain1 X := rfl

/-- The reference's result over the composed chains. -/
theorem refOut_eq (a : FVec Ideal S4x64x256x256 .f32) :
    refOut (F := Ideal) a = concatenate S4x32x256x256 1
    [⟨S4x16x256x256, shapeCast S4x16x256x256 (Chain.refChain0 (shapeCast S4x2x4x4x32x8x32x8 (extractStridedSlice S4x32x256x256 ![0, 0, 0, 0] a slices_S4x64x256x256_S4x32x256x256_0_0_0_0) shapeCasts_S4x32x256x256_S4x2x4x4x32x8x32x8)) shapeCasts_S4x4x4x32x8x32x8_S4x16x256x256⟩,
     ⟨S4x16x256x256, rollB (F := Ideal) (shapeCast S4x16x256x256 (Chain.refChain1 (shapeCast S4x2x4x4x16x16x16x16 (rollA (F := Ideal) (extractStridedSlice S4x32x256x256 ![0, 32, 0, 0] a slices_S4x64x256x256_S4x32x256x256_0_32_0_0)) shapeCasts_S4x32x256x256_S4x2x4x4x16x16x16x16)) shapeCasts_S4x4x4x16x16x16x16_S4x16x256x256)⟩]
    concatenates_S4x16x256x256_S4x16x256x256_S4x32x256x256_d1 := by
  unfold refOut
  rw [chain0_eq, chain1_eq]

/-- On every device, from any memory with zero counters, at the ideal instance: every weakly fair execution of @main
    terminates with the result buffer at the two chains' values joined along the channel axis — the 8×8 chain of the
    first 32 channels, and the 16×16 chain of the last 32 between the shift and the shift back — and the argument unchanged. -/
theorem run_ideal (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50)
        = concatenate S4x32x256x256 1
    [⟨S4x16x256x256, shapeCast S4x16x256x256 (Chain.refChain0 (shapeCast S4x2x4x4x32x8x32x8 (extractStridedSlice S4x32x256x256 ![0, 0, 0, 0] (m ((c.tc : Thread nD τ).loc main_arg0)) slices_S4x64x256x256_S4x32x256x256_0_0_0_0) shapeCasts_S4x32x256x256_S4x2x4x4x32x8x32x8)) shapeCasts_S4x4x4x32x8x32x8_S4x16x256x256⟩,
     ⟨S4x16x256x256, rollB (F := Ideal) (shapeCast S4x16x256x256 (Chain.refChain1 (shapeCast S4x2x4x4x16x16x16x16 (rollA (F := Ideal) (extractStridedSlice S4x32x256x256 ![0, 32, 0, 0] (m ((c.tc : Thread nD τ).loc main_arg0)) slices_S4x64x256x256_S4x32x256x256_0_32_0_0)) shapeCasts_S4x32x256x256_S4x2x4x4x16x16x16x16)) shapeCasts_S4x4x4x16x16x16x16_S4x16x256x256)⟩]
    concatenates_S4x16x256x256_S4x16x256x256_S4x32x256x256_d1
      ∧ r.2.mem ((c.tc : Thread nD τ).loc main_arg0) = m ((c.tc : Thread nD τ).loc main_arg0) :=
  (θ_run defs _ _).mono (fun _ h c => ⟨((h c).1).trans (refOut_eq _), (h c).2⟩) (run m ρ)

end Cert.ReferenceIdeal.RunP

end
-- ==== Proof.RollsAgree.lean ====
/-
  The two programs shift by the same operations: each program's outlined shift functions, spelt over that program's own
  shape names, are one function.
-/
import proofs.«107732_j64072322122319_2_alg».proof.Proof.KHost
import proofs.«107732_j64072322122319_2_alg».proof.Proof.RefRunVal
import Idealize.ShloMosaic.PureOps.Ideal

noncomputable section

namespace Cert.RollsAgree

open Idealize.ShloMosaic

variable {F : FTy → Type} [FloatOps F]

/-- The kernel program's first shift is the reference's. -/
theorem rollA_eq (x : (⟨Cert.KernelIdeal.S4x32x256x256, .f32⟩ : BufTy).Contents (Elt F)) :
    Cert.KernelIdeal.Host.rollA x = Cert.ReferenceIdeal.RunP.rollA x := rfl

/-- The kernel program's second shift is the reference's. -/
theorem rollB_eq (x : (⟨Cert.KernelIdeal.S4x16x256x256, .f32⟩ : BufTy).Contents (Elt F)) :
    Cert.KernelIdeal.Host.rollB x = Cert.ReferenceIdeal.RunP.rollB x := rfl

/-- At the ideal instance. -/
theorem rollA_eq_ideal (x : FVec Ideal Cert.KernelIdeal.S4x32x256x256 .f32) :
    Cert.KernelIdeal.Host.rollA (F := Ideal) x = Cert.ReferenceIdeal.RunP.rollA (F := Ideal) x := rfl
theorem rollB_eq_ideal (x : FVec Ideal Cert.KernelIdeal.S4x16x256x256 .f32) :
    Cert.KernelIdeal.Host.rollB (F := Ideal) x = Cert.ReferenceIdeal.RunP.rollB (F := Ideal) x := rfl

end Cert.RollsAgree

end
-- ==== Proof.Assemble.lean ====
/-
  The reference's frame claim and the claim that the two programs agree at the ideal instance, assembled from the two
  programs' runs: the kernel program's run and the value of its result buffer, the reference's run, and the agreement
  of the two programs' shift functions.
-/
import proofs.«107732_j64072322122319_2_alg».proof.Defs
import proofs.«107732_j64072322122319_2_alg».proof.Proof.Gen.Pre_finite_inputs
import proofs.«107732_j64072322122319_2_alg».proof.Proof.KIRun
import proofs.«107732_j64072322122319_2_alg».proof.Proof.KIValue
import proofs.«107732_j64072322122319_2_alg».proof.Proof.RefRunIdeal
import proofs.«107732_j64072322122319_2_alg».proof.Proof.RollsAgree

noncomputable section

namespace Cert.Proof.Parts

open Idealize.ShloMosaic Idealize.ShloMosaic.TcCoe Idealize.SL.Sem

/-- The reference runs and leaves its argument as it found it. -/
theorem frame_ri : Cert.frame_ReferenceIdeal := fun m ρ _ => Cert.ReferenceIdeal.RunP.frame m ρ

/-- At the ideal instance, from memories agreeing on the argument, both programs run and end with one result: the
    first 32 channels through the 8×8 attention chain, the last 32 shifted, through the 16×16 chain, and shifted back,
    joined along the channel axis. The kernel program's result buffer is read as that value, the reference's run ends
    at the same term of its own argument, and the two arguments agree. -/
theorem algebraic : Cert.algebraic_KernelIdeal_ReferenceIdeal := by
  intro m ρ m' ρ' _ hagree
  refine ⟨fun c => Cert.KernelIdeal.Hand.W9 m c Cert.KernelIdeal.main_v20, Cert.KernelIdeal.Hand.result m ρ, ?_⟩
  refine (θ_run Cert.ReferenceIdeal.defs _ _).mono (fun _ h c => ⟨(h c).1.trans ?_, (h c).2⟩)
    (Cert.ReferenceIdeal.RunP.run_ideal m' ρ')
  refine Eq.trans ?_ (Cert.KernelIdeal.Hand.value m c).symm
  rw [hagree c, Cert.RollsAgree.rollA_eq_ideal, Cert.RollsAgree.rollB_eq_ideal] <;> rfl

end Cert.Proof.Parts

end
-- ==== Proof.lean ====
/-
  Windowed self-attention at two window sizes: the kernel's program against the reference.

  The input x[4, 64, 256, 256] is split along the channels. The first 32 channels are cut into 8×8 windows; the last 32
  are shifted cyclically by 8 along both image axes and cut into 16×16 windows. In every window, with four channels per
  head, q the query rows and v the value rows,

      out = softmax(q · qᵀ) · v,   softmax taken row by row as exp (S − max S) / ∑ exp (S − max S),

  with no scaling of the scores. The windows are laid back as images, the second half is shifted back, and the two
  halves are joined along the channels: the result is [4, 32, 256, 256].

  The kernel's program stages each half as a tensor [2, windows, channel, token], rounded to bf16, and runs one
  pallas_call per half: at each grid point the body loads a block of windows' query rows and value rows, forms the
  scores by a batched product into zero, subtracts the row maximum (a reduction from −∞), exponentiates, divides by the
  row sum and multiplies by the values. The reference does the same per window with host contractions and reductions
  on a [batch, head, window row, window column, token, channel] layout. On the extended reals the rounding to bf16 is
  the identity, a product into a zero accumulator is the plain sum of products, both maxima are the fold of max over
  the row from −∞ (the reference's extra maximum with −∞ changes nothing), and multiplication commutes; so both
  programs compute, at every index, the same window function of the same entries of x. No finiteness is used: the two
  sides apply the same operations to the same operands, only laid out differently.

  The three frames: each kernel program is nine stretches — host operations, a pallas_call, host operations, a
  pallas_call, host operations — run as segments over the thread state "every unscoped buffer at the boundary's
  contents"; each pallas_call's two input windows read one array, whose share is cut in two at the region's entry and
  put together at its exit. The reference is a straight line of host operations, none of which writes the argument.
  The idealized kernel is the kernel's own text read at the extended reals: the ideal pass rewrote nothing.
-/
import proofs.«107732_j64072322122319_2_alg».proof.Defs
import proofs.«107732_j64072322122319_2_alg».proof.Proof.Gen.Kernel
import proofs.«107732_j64072322122319_2_alg».proof.Proof.Gen.Kernel.Skeleton
import proofs.«107732_j64072322122319_2_alg».proof.Proof.Gen.Kernel.Launch
import proofs.«107732_j64072322122319_2_alg».proof.Proof.Gen.Kernel.Regions
import proofs.«107732_j64072322122319_2_alg».proof.Proof.Gen.Kernel.Points
import proofs.«107732_j64072322122319_2_alg».proof.Proof.Gen.KernelIdeal
import proofs.«107732_j64072322122319_2_alg».proof.Proof.Gen.KernelIdeal.Skeleton
import proofs.«107732_j64072322122319_2_alg».proof.Proof.Gen.KernelIdeal.Launch
import proofs.«107732_j64072322122319_2_alg».proof.Proof.Gen.KernelIdeal.Regions
import proofs.«107732_j64072322122319_2_alg».proof.Proof.Gen.KernelIdeal.Points
import proofs.«107732_j64072322122319_2_alg».proof.Proof.Gen.ReferenceIdeal
import proofs.«107732_j64072322122319_2_alg».proof.Proof.Gen.Pre_finite_inputs
import proofs.«107732_j64072322122319_2_alg».proof.Proof.K0Run
import proofs.«107732_j64072322122319_2_alg».proof.Proof.KIRun
import proofs.«107732_j64072322122319_2_alg».proof.Proof.Assemble
import Idealize.ShloMosaic.Adequacy
import Idealize.ShloMosaic.Init

noncomputable section

namespace Cert.Proof

open Idealize.ShloMosaic Idealize.SL.Sem

/-- The kernel's program at the word level runs to the end, faults nowhere and leaves the argument as launched. -/
theorem frame_p : Cert.frame_Kernel := fun m ρ _ => Cert.Kernel.Hand.frame m ρ

/-- The same program read at the extended reals. -/
theorem frame_pi : Cert.frame_KernelIdeal := fun m ρ _ => Cert.KernelIdeal.Hand.frame m ρ

/-- The ideal pass rewrote no operation: nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_p, frame_pi, Parts.frame_ri, preserves, Parts.algebraic⟩

end Cert.Proof

end
